-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v40)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v40) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v91) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x128 : Shape := ⟨2, ![100000, 128]⟩
abbrev S2x3200000 : Shape := ⟨2, ![2, 3200000]⟩
abbrev S128x16 : Shape := ⟨2, ![128, 16]⟩
abbrev S16 : Shape := ⟨1, ![16]⟩
abbrev S16x16 : Shape := ⟨2, ![16, 16]⟩
abbrev S_ : Shape := ⟨0, ![]⟩

class Facts : Prop where
  bcast_S_S100000x128 : S_.BroadcastsInDim S100000x128 (![] : Fin 0 → Fin S100000x128.rank)
  reducesTo_S100000x128_S_d0_1 : S100000x128.ReducesTo [0, 1] S_
  h_S_ : 0 < S_.numel
  bcast_S_S128x16 : S_.BroadcastsInDim S128x16 (![] : Fin 0 → Fin S128x16.rank)
  reducesTo_S128x16_S_d0_1 : S128x16.ReducesTo [0, 1] S_
  bcast_S_S16 : S_.BroadcastsInDim S16 (![] : Fin 0 → Fin S16.rank)
  reducesTo_S16_S_d0 : S16.ReducesTo [0] S_
  bcast_S_S16x16 : S_.BroadcastsInDim S16x16 (![] : Fin 0 → Fin S16x16.rank)
  reducesTo_S16x16_S_d0_1 : S16x16.ReducesTo [0, 1] S_

variable [Facts]

def fn_part1 {F : FTy → Type} [FloatOps F] (main_arg5 : FVec F S16 .f32) (main_v13 : IVec S_ 1) (main_v16 : IVec S16x16 1) : IVec S_ 1 :=
  let main_c_5 : IVec S_ 1 := constantI S_ 1 1#1
  let main_v17 : IVec S_ 1 := (fun x v => Host.reduce IntOp.andi x v reducesTo_S16x16_S_d0_1 h_S_) main_v16 main_c_5
  let main_v18 : IVec S_ 1 := andi main_v13 main_v17
  let main_v19 : FVec F S16 .f32 := Host.absf main_arg5
  let main_cst_6 : FVec F S_ .f32 := constant S_ .f32 0x7F800000#32
  let main_v20 : FVec F S16 .f32 := broadcastInDim S16 ![] bcast_S_S16 main_cst_6
  let main_v21 : IVec S16 1 := cmpf .olt main_v19 main_v20
  let main_c_7 : IVec S_ 1 := constantI S_ 1 1#1
  let main_v22 : IVec S_ 1 := (fun x v => Host.reduce IntOp.andi x v reducesTo_S16_S_d0 h_S_) main_v21 main_c_7
  let main_v23 : IVec S_ 1 := andi main_v18 main_v22
  main_v23

def fn {F : FTy → Type} [FloatOps F] (main_arg0 : FVec F S100000x128 .f32) (main_arg1 : IVec S2x3200000 32) (main_arg2 : FVec F S128x16 .f32) (main_arg3 : FVec F S16 .f32) (main_arg4 : FVec F S16x16 .f32) (main_arg5 : FVec F S16 .f32) : IVec S_ 1 :=
  let main_v0 : FVec F S100000x128 .f32 := Host.absf main_arg0
  let main_cst : FVec F S_ .f32 := constant S_ .f32 0x7F800000#32
  let main_v1 : FVec F S100000x128 .f32 := broadcastInDim S100000x128 ![] bcast_S_S100000x128 main_cst
  let main_v2 : IVec S100000x128 1 := cmpf .olt main_v0 main_v1
  let main_c : IVec S_ 1 := constantI S_ 1 1#1
  let main_v3 : IVec S_ 1 := (fun x v => Host.reduce IntOp.andi x v reducesTo_S100000x128_S_d0_1 h_S_) main_v2 main_c
  let main_v4 : FVec F S128x16 .f32 := Host.absf main_arg2
  let main_cst_0 : FVec F S_ .f32 := constant S_ .f32 0x7F800000#32
  let main_v5 : FVec F S128x16 .f32 := broadcastInDim S128x16 ![] bcast_S_S128x16 main_cst_0
  let main_v6 : IVec S128x16 1 := cmpf .olt main_v4 main_v5
  let main_c_1 : IVec S_ 1 := constantI S_ 1 1#1
  let main_v7 : IVec S_ 1 := (fun x v => Host.reduce IntOp.andi x v reducesTo_S128x16_S_d0_1 h_S_) main_v6 main_c_1
  let main_v8 : IVec S_ 1 := andi main_v3 main_v7
  let main_v9 : FVec F S16 .f32 := Host.absf main_arg3
  let main_cst_2 : FVec F S_ .f32 := constant S_ .f32 0x7F800000#32
  let main_v10 : FVec F S16 .f32 := broadcastInDim S16 ![] bcast_S_S16 main_cst_2
  let main_v11 : IVec S16 1 := cmpf .olt main_v9 main_v10
  let main_c_3 : IVec S_ 1 := constantI S_ 1 1#1
  let main_v12 : IVec S_ 1 := (fun x v => Host.reduce IntOp.andi x v reducesTo_S16_S_d0 h_S_) main_v11 main_c_3
  let main_v13 : IVec S_ 1 := andi main_v8 main_v12
  let main_v14 : FVec F S16x16 .f32 := Host.absf main_arg4
  let main_cst_4 : FVec F S_ .f32 := constant S_ .f32 0x7F800000#32
  let main_v15 : FVec F S16x16 .f32 := broadcastInDim S16x16 ![] bcast_S_S16x16 main_cst_4
  let main_v16 : IVec S16x16 1 := cmpf .olt main_v14 main_v15
  fn_part1 (F := F) main_arg5 main_v13 main_v16
-- ==== Kernel.lean ====
abbrev S100000x128 : Shape := ⟨2, ![100000, 128]⟩
abbrev S2x3200000 : Shape := ⟨2, ![2, 3200000]⟩
abbrev S128x16 : Shape := ⟨2, ![128, 16]⟩
abbrev S16 : Shape := ⟨1, ![16]⟩
abbrev S16x16 : Shape := ⟨2, ![16, 16]⟩
abbrev S1x3200000 : Shape := ⟨2, ![1, 3200000]⟩
abbrev S3200000 : Shape := ⟨1, ![3200000]⟩
abbrev S100000 : Shape := ⟨1, ![100000]⟩
abbrev S3300000 : Shape := ⟨1, ![3300000]⟩
abbrev S_ : Shape := ⟨0, ![]⟩
abbrev S3300000x1 : Shape := ⟨2, ![3300000, 1]⟩
abbrev S100000x1 : Shape := ⟨2, ![100000, 1]⟩
abbrev S100000x16 : Shape := ⟨2, ![100000, 16]⟩
abbrev S5000x128 : Shape := ⟨2, ![5000, 128]⟩
abbrev S5000x1 : Shape := ⟨2, ![5000, 1]⟩
abbrev S5000x16 : Shape := ⟨2, ![5000, 16]⟩
abbrev S3300000x16 : Shape := ⟨2, ![3300000, 16]⟩
abbrev S1x16 : Shape := ⟨2, ![1, 16]⟩

abbrev nBuf : Space → Nat
  | .hbm => 59
  | .vmem => 22
  | .smem => 0
  | _ => 0

abbrev bufTy : (tb : Table) → Fin (tcTables nBuf tb) → BufTy
  | .hbm, ⟨0, _⟩ => ⟨S100000x128, .f32⟩
  | .hbm, ⟨1, _⟩ => ⟨S2x3200000, .i32⟩
  | .hbm, ⟨2, _⟩ => ⟨S128x16, .f32⟩
  | .hbm, ⟨3, _⟩ => ⟨S16, .f32⟩
  | .hbm, ⟨4, _⟩ => ⟨S16x16, .f32⟩
  | .hbm, ⟨5, _⟩ => ⟨S16, .f32⟩
  | .hbm, ⟨6, _⟩ => ⟨S1x3200000, .i32⟩
  | .hbm, ⟨7, _⟩ => ⟨S3200000, .i32⟩
  | .hbm, ⟨8, _⟩ => ⟨S1x3200000, .i32⟩
  | .hbm, ⟨9, _⟩ => ⟨S3200000, .i32⟩
  | .hbm, ⟨10, _⟩ => ⟨S100000, .i32⟩
  | .hbm, ⟨11, _⟩ => ⟨S3300000, .i32⟩
  | .hbm, ⟨12, _⟩ => ⟨S3300000, .i32⟩
  | .hbm, ⟨13, _⟩ => ⟨S_, .f32⟩
  | .hbm, ⟨14, _⟩ => ⟨S3300000, .f32⟩
  | .hbm, ⟨15, _⟩ => ⟨S_, .f32⟩
  | .hbm, ⟨16, _⟩ => ⟨S100000, .f32⟩
  | .hbm, ⟨17, _⟩ => ⟨S3300000x1, .i32⟩
  | .hbm, ⟨18, _⟩ => ⟨S100000, .f32⟩
  | .hbm, ⟨19, _⟩ => ⟨S_, .f32⟩
  | .hbm, ⟨20, _⟩ => ⟨S100000, .f32⟩
  | .hbm, ⟨21, _⟩ => ⟨S100000, .i1⟩
  | .hbm, ⟨22, _⟩ => ⟨S100000, .f32⟩
  | .hbm, ⟨23, _⟩ => ⟨S_, .f32⟩
  | .hbm, ⟨24, _⟩ => ⟨S_, .f32⟩
  | .hbm, ⟨25, _⟩ => ⟨S100000, .f32⟩
  | .hbm, ⟨26, _⟩ => ⟨S100000, .f32⟩
  | .hbm, ⟨27, _⟩ => ⟨S100000x1, .f32⟩
  | .hbm, ⟨28, _⟩ => ⟨S100000x16, .f32⟩
  | .hbm, ⟨29, _⟩ => ⟨S_, .i32⟩
  | .hbm, ⟨30, _⟩ => ⟨S3300000, .i32⟩
  | .hbm, ⟨31, _⟩ => ⟨S3300000, .i1⟩
  | .hbm, ⟨32, _⟩ => ⟨S_, .i32⟩
  | .hbm, ⟨33, _⟩ => ⟨S3300000, .i32⟩
  | .hbm, ⟨34, _⟩ => ⟨S3300000, .i32⟩
  | .hbm, ⟨35, _⟩ => ⟨S3300000, .i32⟩
  | .hbm, ⟨36, _⟩ => ⟨S3300000x1, .i32⟩
  | .hbm, ⟨37, _⟩ => ⟨S3300000x16, .f32⟩
  | .hbm, ⟨38, _⟩ => ⟨S_, .f32⟩
  | .hbm, ⟨39, _⟩ => ⟨S100000x16, .f32⟩
  | .hbm, ⟨40, _⟩ => ⟨S3300000x1, .i32⟩
  | .hbm, ⟨41, _⟩ => ⟨S100000x16, .f32⟩
  | .hbm, ⟨42, _⟩ => ⟨S1x16, .f32⟩
  | .hbm, ⟨43, _⟩ => ⟨S100000x16, .f32⟩
  | .hbm, ⟨44, _⟩ => ⟨S_, .i32⟩
  | .hbm, ⟨45, _⟩ => ⟨S3300000, .i32⟩
  | .hbm, ⟨46, _⟩ => ⟨S3300000, .i1⟩
  | .hbm, ⟨47, _⟩ => ⟨S_, .i32⟩
  | .hbm, ⟨48, _⟩ => ⟨S3300000, .i32⟩
  | .hbm, ⟨49, _⟩ => ⟨S3300000, .i32⟩
  | .hbm, ⟨50, _⟩ => ⟨S3300000, .i32⟩
  | .hbm, ⟨51, _⟩ => ⟨S3300000x1, .i32⟩
  | .hbm, ⟨52, _⟩ => ⟨S3300000x16, .f32⟩
  | .hbm, ⟨53, _⟩ => ⟨S_, .f32⟩
  | .hbm, ⟨54, _⟩ => ⟨S100000x16, .f32⟩
  | .hbm, ⟨55, _⟩ => ⟨S3300000x1, .i32⟩
  | .hbm, ⟨56, _⟩ => ⟨S100000x16, .f32⟩
  | .hbm, ⟨57, _⟩ => ⟨S1x16, .f32⟩
  | .hbm, ⟨58, _⟩ => ⟨S100000x16, .f32⟩
  | .local _ .vmem, ⟨0, _⟩ => ⟨S5000x128, .f32⟩
  | .local _ .vmem, ⟨1, _⟩ => ⟨S5000x128, .f32⟩
  | .local _ .vmem, ⟨2, _⟩ => ⟨S128x16, .f32⟩
  | .local _ .vmem, ⟨3, _⟩ => ⟨S5000x1, .f32⟩
  | .local _ .vmem, ⟨4, _⟩ => ⟨S5000x1, .f32⟩
  | .local _ .vmem, ⟨5, _⟩ => ⟨S5000x16, .f32⟩
  | .local _ .vmem, ⟨6, _⟩ => ⟨S5000x16, .f32⟩
  | .local _ .vmem, ⟨7, _⟩ => ⟨S5000x16, .f32⟩
  | .local _ .vmem, ⟨8, _⟩ => ⟨S5000x16, .f32⟩
  | .local _ .vmem, ⟨9, _⟩ => ⟨S5000x1, .f32⟩
  | .local _ .vmem, ⟨10, _⟩ => ⟨S5000x1, .f32⟩
  | .local _ .vmem, ⟨11, _⟩ => ⟨S1x16, .f32⟩
  | .local _ .vmem, ⟨12, _⟩ => ⟨S16x16, .f32⟩
  | .local _ .vmem, ⟨13, _⟩ => ⟨S5000x16, .f32⟩
  | .local _ .vmem, ⟨14, _⟩ => ⟨S5000x16, .f32⟩
  | .local _ .vmem, ⟨15, _⟩ => ⟨S5000x16, .f32⟩
  | .local _ .vmem, ⟨16, _⟩ => ⟨S5000x16, .f32⟩
  | .local _ .vmem, ⟨17, _⟩ => ⟨S5000x1, .f32⟩
  | .local _ .vmem, ⟨18, _⟩ => ⟨S5000x1, .f32⟩
  | .local _ .vmem, ⟨19, _⟩ => ⟨S1x16, .f32⟩
  | .local _ .vmem, ⟨20, _⟩ => ⟨S5000x16, .f32⟩
  | .local _ .vmem, ⟨21, _⟩ => ⟨S5000x16, .f32⟩
  | _, _ => ⟨S100000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | _, _ => false

abbrev semScoped : Fin 0 → Bool
  | ⟨_, h⟩ => absurd h (Nat.not_lt_zero _)

abbrev dmaSemScoped : Fin 22 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | _ => false

abbrev sig : RefSig :=
  ofTc nBuf bufTy 0 22 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_cst : Ref sig .tc := ⟨.hbm, 13, rfl⟩
abbrev main_v7 : Ref sig .tc := ⟨.hbm, 14, rfl⟩
abbrev main_cst_0 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_1 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_cst_2 : Ref sig .tc := ⟨.hbm, 23, rfl⟩
abbrev main_call0_v0 : Ref sig .tc := ⟨.hbm, 24, rfl⟩
abbrev main_call0_v1 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_c : Ref sig .tc := ⟨.hbm, 29, rfl⟩
abbrev main_v17 : Ref sig .tc := ⟨.hbm, 30, rfl⟩
abbrev main_v18 : Ref sig .tc := ⟨.hbm, 31, rfl⟩
abbrev main_c_3 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_cst_4 : Ref sig .tc := ⟨.hbm, 38, rfl⟩
abbrev main_v24 : Ref sig .tc := ⟨.hbm, 39, rfl⟩
abbrev main_v25 : Ref sig .tc := ⟨.hbm, 40, rfl⟩
abbrev main_v26 : Ref sig .tc := ⟨.hbm, 41, rfl⟩
abbrev main_v27 : Ref sig .tc := ⟨.hbm, 42, rfl⟩
abbrev main_v28 : Ref sig .tc := ⟨.hbm, 43, rfl⟩
abbrev main_c_5 : Ref sig .tc := ⟨.hbm, 44, rfl⟩
abbrev main_v29 : Ref sig .tc := ⟨.hbm, 45, rfl⟩
abbrev main_v30 : Ref sig .tc := ⟨.hbm, 46, rfl⟩
abbrev main_c_6 : Ref sig .tc := ⟨.hbm, 47, rfl⟩
abbrev main_v31 : Ref sig .tc := ⟨.hbm, 48, rfl⟩
abbrev main_v32 : Ref sig .tc := ⟨.hbm, 49, rfl⟩
abbrev main_v33 : Ref sig .tc := ⟨.hbm, 50, rfl⟩
abbrev main_v34 : Ref sig .tc := ⟨.hbm, 51, rfl⟩
abbrev main_v35 : Ref sig .tc := ⟨.hbm, 52, rfl⟩
abbrev main_cst_7 : Ref sig .tc := ⟨.hbm, 53, rfl⟩
abbrev main_v36 : Ref sig .tc := ⟨.hbm, 54, rfl⟩
abbrev main_v37 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc1_stg0_0 : Ref sig .tc := ⟨.vmem, 7, rfl⟩
abbrev cc1_stg0_1 : Ref sig .tc := ⟨.vmem, 8, rfl⟩
abbrev cc1_stg1_0 : Ref sig .tc := ⟨.vmem, 9, rfl⟩
abbrev cc1_stg1_1 : Ref sig .tc := ⟨.vmem, 10, rfl⟩
abbrev cc1_stg2_0 : Ref sig .tc := ⟨.vmem, 11, rfl⟩
abbrev cc1_stg3_0 : Ref sig .tc := ⟨.vmem, 12, rfl⟩
abbrev cc1_stg4_0 : Ref sig .tc := ⟨.vmem, 13, rfl⟩
abbrev cc1_stg4_1 : Ref sig .tc := ⟨.vmem, 14, rfl⟩
abbrev cc2_stg0_0 : Ref sig .tc := ⟨.vmem, 15, rfl⟩
abbrev cc2_stg0_1 : Ref sig .tc := ⟨.vmem, 16, rfl⟩
abbrev cc2_stg1_0 : Ref sig .tc := ⟨.vmem, 17, rfl⟩
abbrev cc2_stg1_1 : Ref sig .tc := ⟨.vmem, 18, rfl⟩
abbrev cc2_stg2_0 : Ref sig .tc := ⟨.vmem, 19, rfl⟩
abbrev cc2_stg3_0 : Ref sig .tc := ⟨.vmem, 20, rfl⟩
abbrev cc2_stg3_1 : Ref sig .tc := ⟨.vmem, 21, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc1_sem0_0 : DmaSem sig := 7
abbrev cc1_sem0_1 : DmaSem sig := 8
abbrev cc1_sem1_0 : DmaSem sig := 9
abbrev cc1_sem1_1 : DmaSem sig := 10
abbrev cc1_sem2_0 : DmaSem sig := 11
abbrev cc1_sem3_0 : DmaSem sig := 12
abbrev cc1_sem4_0 : DmaSem sig := 13
abbrev cc1_sem4_1 : DmaSem sig := 14
abbrev cc2_sem0_0 : DmaSem sig := 15
abbrev cc2_sem0_1 : DmaSem sig := 16
abbrev cc2_sem1_0 : DmaSem sig := 17
abbrev cc2_sem1_1 : DmaSem sig := 18
abbrev cc2_sem2_0 : DmaSem sig := 19
abbrev cc2_sem3_0 : DmaSem sig := 20
abbrev cc2_sem3_1 : DmaSem sig := 21

abbrev nD : Nat := 1
abbrev τ : Topo := Topo.v7x

variable {F : FTy → Type} [FloatOps F]

abbrev grid0 : Pipeline.Grid := ⟨1, ![20], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x16 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S5000x1 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S5000x16 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev grid1 : Pipeline.Grid := ⟨1, ![20], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x16 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S5000x1 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S1x16 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S16x16 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 2 → Memref sig .tc .vmem S5000x16 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true]

abbrev grid2 : Pipeline.Grid := ⟨1, ![20], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S5000x16 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S5000x1 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 1 → Memref sig .tc .vmem S1x16 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 2 → Memref sig .tc .vmem S5000x16 .f32 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![true]

class Facts₀ : Prop where
  slices_S2x3200000_S1x3200000_0_0 : S2x3200000.Slices ![0, 0] S1x3200000
  shapeCasts_S1x3200000_S3200000 : S1x3200000.ShapeCasts S3200000
  slices_S2x3200000_S1x3200000_1_0 : S2x3200000.Slices ![1, 0] S1x3200000
  concatenates_S3200000_S100000_S3300000_d0 : Shape.Concatenates [S3200000, S100000] S3300000 0
  bcast_S_S3300000 : S_.BroadcastsInDim S3300000 (![] : Fin 0 → Fin S3300000.rank)
  bcast_S_S100000 : S_.BroadcastsInDim S100000 (![] : Fin 0 → Fin S100000.rank)
  bcast_S3300000_S3300000x1_0 : S3300000.BroadcastsInDim S3300000x1 (![0] : Fin 1 → Fin S3300000x1.rank)
  shapeCasts_S100000_S100000x1 : S100000.ShapeCasts S100000x1
  inb_S5000x128_S5000x128_0_0 : ∀ a, (![0, 0] : Fin 2 → Nat) a + S5000x128.size a ≤ S5000x128.size a
  h_S5000x128 : 0 < S5000x128.numel
  bitsLt_bf16_f32 : FTy.bits .bf16 < FTy.bits .f32
  inb_S128x16_S128x16_0_0 : ∀ a, (![0, 0] : Fin 2 → Nat) a + S128x16.size a ≤ S128x16.size a
  h_S128x16 : 0 < S128x16.numel
  inb_S5000x1_S5000x1_0_0 : ∀ a, (![0, 0] : Fin 2 → Nat) a + S5000x1.size a ≤ S5000x1.size a
  h_S5000x1 : 0 < S5000x1.numel
  shapeCasts_S5000x1_S5000x1 : S5000x1.ShapeCasts S5000x1
  broadcasts_S5000x1_S5000x16 : S5000x1.Broadcasts S5000x16
  inb_S5000x16_S5000x16_0_0 : ∀ a, (![0, 0] : Fin 2 → Nat) a + S5000x16.size a ≤ S5000x16.size a
  h_S5000x16 : 0 < S5000x16.numel
  bcast_S_S100000x16 : S_.BroadcastsInDim S100000x16 (![] : Fin 0 → Fin S100000x16.rank)
  shapeCasts_S16_S1x16 : S16.ShapeCasts S1x16
  shapeCasts_S5000x16_S5000x16 : S5000x16.ShapeCasts S5000x16
  inb_S1x16_S1x16_0_0 : ∀ a, (![0, 0] : Fin 2 → Nat) a + S1x16.size a ≤ S1x16.size a
  h_S1x16 : 0 < S1x16.numel
  shapeCasts_S1x16_S1x16 : S1x16.ShapeCasts S1x16
  broadcasts_S1x16_S5000x16 : S1x16.Broadcasts S5000x16
  inb_S16x16_S16x16_0_0 : ∀ a, (![0, 0] : Fin 2 → Nat) a + S16x16.size a ≤ S16x16.size a
  h_S16x16 : 0 < S16x16.numel
  scatter_S100000_S3300000x1_S3300000_n_0_0_1_wf : ScatterDims.WF S100000 S3300000x1 S3300000 [] [0] [0] 1
  dot_S5000x128_S128x16_S5000x16_1_0_0_1_n_n_wf : DotDims.WF S5000x128 S128x16 S5000x16 [1] [0] [0] [1] [] []
  gather_S100000x16_S3300000x1_S3300000x16_1_0_n_n_0_1_116_wf : GatherDims.WF S100000x16 S3300000x1 S3300000x16 [1] [0] [] [0] [] 1 ![1, 16]
  scatter_S100000x16_S3300000x1_S3300000x16_1_0_0_1_wf : ScatterDims.WF S100000x16 S3300000x1 S3300000x16 [1] [0] [0] 1
  dot_S5000x16_S16x16_S5000x16_1_0_0_1_n_n_wf : DotDims.WF S5000x16 S16x16 S5000x16 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x128.size a ≤ S100000x128.size a
  hwx0_0 : ∀ i : grid0.Coords, EltTy.bits .f32 = 32 ∨ (Rect.block (s := S100000x128) S5000x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x16.size a ≤ S128x16.size a
  hwx0_1 : ∀ i : grid0.Coords, EltTy.bits .f32 = 32 ∨ (Rect.block (s := S128x16) S128x16.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S5000x1.size a ≤ S100000x1.size a
  hwx0_2 : ∀ i : grid0.Coords, EltTy.bits .f32 = 32 ∨ (Rect.block (s := S100000x1) S5000x1.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S5000x16.size a ≤ S100000x16.size a
  hwx0_3 : ∀ i : grid0.Coords, EltTy.bits .f32 = 32 ∨ (Rect.block (s := S100000x16) S5000x16.size (cc0_transform_3 i) (hinb0_3 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x16.size a ≤ S100000x16.size a
  hwx1_0 : ∀ i : grid1.Coords, EltTy.bits .f32 = 32 ∨ (Rect.block (s := S100000x16) S5000x16.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S5000x1.size a ≤ S100000x1.size a
  hwx1_1 : ∀ i : grid1.Coords, EltTy.bits .f32 = 32 ∨ (Rect.block (s := S100000x1) S5000x1.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S1x16.size a ≤ S1x16.size a
  hwx1_2 : ∀ i : grid1.Coords, EltTy.bits .f32 = 32 ∨ (Rect.block (s := S1x16) S1x16.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S16x16.size a ≤ S16x16.size a
  hwx1_3 : ∀ i : grid1.Coords, EltTy.bits .f32 = 32 ∨ (Rect.block (s := S16x16) S16x16.size (cc1_transform_3 i) (hinb1_3 i)).WholeWords (EltTy.packing .f32)
  hstage1_4 : ∀ j, (stage1_4 j).IsWhole
  nbuf1_4 : grid1.bufCount reads1_4 false = 2
  hreads1_4 : ∀ i i' : grid1.Coords, (∀ a, reads1_4 a = true → i a = i' a) → cc1_transform_4 i = cc1_transform_4 i'
  hinb1_4 : ∀ (i : grid1.Coords) a, (cc1_transform_4 i a + 1) * S5000x16.size a ≤ S100000x16.size a
  hwx1_4 : ∀ i : grid1.Coords, EltTy.bits .f32 = 32 ∨ (Rect.block (s := S100000x16) S5000x16.size (cc1_transform_4 i) (hinb1_4 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S5000x16.size a ≤ S100000x16.size a
  hwx2_0 : ∀ i : grid2.Coords, EltTy.bits .f32 = 32 ∨ (Rect.block (s := S100000x16) S5000x16.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S5000x1.size a ≤ S100000x1.size a
  hwx2_1 : ∀ i : grid2.Coords, EltTy.bits .f32 = 32 ∨ (Rect.block (s := S100000x1) S5000x1.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S1x16.size a ≤ S1x16.size a
  hwx2_2 : ∀ i : grid2.Coords, EltTy.bits .f32 = 32 ∨ (Rect.block (s := S1x16) S1x16.size (cc2_transform_2 i) (hinb2_2 i)).WholeWords (EltTy.packing .f32)
  hstage2_3 : ∀ j, (stage2_3 j).IsWhole
  nbuf2_3 : grid2.bufCount reads2_3 false = 2
  hreads2_3 : ∀ i i' : grid2.Coords, (∀ a, reads2_3 a = true → i a = i' a) → cc2_transform_3 i = cc2_transform_3 i'
  hinb2_3 : ∀ (i : grid2.Coords) a, (cc2_transform_3 i a + 1) * S5000x16.size a ≤ S100000x16.size a
  hwx2_3 : ∀ i : grid2.Coords, EltTy.bits .f32 = 32 ∨ (Rect.block (s := S100000x16) S5000x16.size (cc2_transform_3 i) (hinb2_3 i)).WholeWords (EltTy.packing .f32)

variable [Facts₀]

def scatter_S100000_S3300000x1_S3300000_n_0_0_1 : ScatterDims S100000 S3300000x1 S3300000 where
  updateWindowDims := []
  insertedWindowDims := [0]
  scatterDimsToOperandDims := [0]
  indexVectorDim := 1
  wf := scatter_S100000_S3300000x1_S3300000_n_0_0_1_wf
def dot_S5000x128_S128x16_S5000x16_1_0_0_1_n_n : DotDims S5000x128 S128x16 S5000x16 where
  lhsContracting := [1]
  rhsContracting := [0]
  lhsNonContracting := [0]
  rhsNonContracting := [1]
  lhsBatch := []
  rhsBatch := []
  wf := dot_S5000x128_S128x16_S5000x16_1_0_0_1_n_n_wf
def gather_S100000x16_S3300000x1_S3300000x16_1_0_n_n_0_1_116 : GatherDims S100000x16 S3300000x1 S3300000x16 where
  offsetDims := [1]
  collapsedSliceDims := [0]
  operandBatchingDims := []
  startIndicesBatchingDims := []
  startIndexMap := [0]
  indexVectorDim := 1
  sliceSizes := ![1, 16]
  wf := gather_S100000x16_S3300000x1_S3300000x16_1_0_n_n_0_1_116_wf
def scatter_S100000x16_S3300000x1_S3300000x16_1_0_0_1 : ScatterDims S100000x16 S3300000x1 S3300000x16 where
  updateWindowDims := [1]
  insertedWindowDims := [0]
  scatterDimsToOperandDims := [0]
  indexVectorDim := 1
  wf := scatter_S100000x16_S3300000x1_S3300000x16_1_0_0_1_wf
def dot_S5000x16_S16x16_S5000x16_1_0_0_1_n_n : DotDims S5000x16 S16x16 S5000x16 where
  lhsContracting := [1]
  rhsContracting := [0]
  lhsNonContracting := [0]
  rhsNonContracting := [1]
  lhsBatch := []
  rhsBatch := []
  wf := dot_S5000x16_S16x16_S5000x16_1_0_0_1_n_n_wf

abbrev win0_0 : Pipeline.Window sig grid0 :=
  Pipeline.Window.ofSpec (Memref.whole main_arg0) S5000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S128x16.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v15) S5000x1.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v16) S5000x16.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev win1_0 : Pipeline.Window sig grid1 :=
  Pipeline.Window.ofSpec (Memref.whole main_v26) S5000x16.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v15) S5000x1.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v27) S1x16.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_arg4) S16x16.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v28) S5000x16.size cc1_transform_4 reads1_4 true false 2 stage1_4 sem1_4
    hrank1 hreads1_4 hinb1_4 nbuf1_4 (Memref.isWhole_whole _) hwx1_4 hstage1_4

abbrev win1 : Fin 5 → Pipeline.Window sig grid1 := fun | 0 => win1_0 | 1 => win1_1 | 2 => win1_2 | 3 => win1_3 | 4 => win1_4 | ⟨_ + 5, h⟩ => absurd h (Nat.not_lt.2 (Nat.le_add_left _ _))
abbrev spec1 : Fin 5 → Pipeline.WinSpec sig grid1.rank := fun w => (win1 w).toWinSpec

abbrev win2_0 : Pipeline.Window sig grid2 :=
  Pipeline.Window.ofSpec (Memref.whole main_v38) S5000x16.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v15) S5000x1.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_v39) S1x16.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v40) S5000x16.size cc2_transform_3 reads2_3 true false 2 stage2_3 sem2_3
    hrank2 hreads2_3 hinb2_3 nbuf2_3 (Memref.isWhole_whole _) hwx2_3 hstage2_3

abbrev win2 : Fin 4 → Pipeline.Window sig grid2 := fun | 0 => win2_0 | 1 => win2_1 | 2 => win2_2 | 3 => win2_3 | ⟨_ + 4, h⟩ => absurd h (Nat.not_lt.2 (Nat.le_add_left _ _))
abbrev spec2 : Fin 4 → Pipeline.WinSpec sig grid2.rank := fun w => (win2 w).toWinSpec

class Facts : Prop extends Facts₀ where

variable [Facts]
-- ==== ReferenceIdeal.lean ====
abbrev S100000x128 : Shape := ⟨2, ![100000, 128]⟩
abbrev S2x3200000 : Shape := ⟨2, ![2, 3200000]⟩
abbrev S128x16 : Shape := ⟨2, ![128, 16]⟩
abbrev S16 : Shape := ⟨1, ![16]⟩
abbrev S16x16 : Shape := ⟨2, ![16, 16]⟩
abbrev S1x3200000 : Shape := ⟨2, ![1, 3200000]⟩
abbrev S3200000 : Shape := ⟨1, ![3200000]⟩
abbrev S100000x16 : Shape := ⟨2, ![100000, 16]⟩
abbrev S100000 : Shape := ⟨1, ![100000]⟩
abbrev S3300000 : Shape := ⟨1, ![3300000]⟩
abbrev S_ : Shape := ⟨0, ![]⟩
abbrev S3300000x1 : Shape := ⟨2, ![3300000, 1]⟩
abbrev S3300000x16 : Shape := ⟨2, ![3300000, 16]⟩
abbrev S1x16 : Shape := ⟨2, ![1, 16]⟩

abbrev nBuf : Space → Nat
  | .hbm => 124
  | .vmem => 0
  | .smem => 0
  | _ => 0

abbrev bufTy : (tb : Table) → Fin (tcTables nBuf tb) → BufTy
  | .hbm, ⟨0, _⟩ => ⟨S100000x128, .f32⟩
  | .hbm, ⟨1, _⟩ => ⟨S2x3200000, .i32⟩
  | .hbm, ⟨2, _⟩ => ⟨S128x16, .f32⟩
  | .hbm, ⟨3, _⟩ => ⟨S16, .f32⟩
  | .hbm, ⟨4, _⟩ => ⟨S16x16, .f32⟩
  | .hbm, ⟨5, _⟩ => ⟨S16, .f32⟩
  | .hbm, ⟨6, _⟩ => ⟨S1x3200000, .i32⟩
  | .hbm, ⟨7, _⟩ => ⟨S3200000, .i32⟩
  | .hbm, ⟨8, _⟩ => ⟨S1x3200000, .i32⟩
  | .hbm, ⟨9, _⟩ => ⟨S3200000, .i32⟩
  | .hbm, ⟨10, _⟩ => ⟨S100000x16, .f32⟩
  | .hbm, ⟨11, _⟩ => ⟨S100000, .i32⟩
  | .hbm, ⟨12, _⟩ => ⟨S3300000, .i32⟩
  | .hbm, ⟨13, _⟩ => ⟨S3300000, .i32⟩
  | .hbm, ⟨14, _⟩ => ⟨S_, .f32⟩
  | .hbm, ⟨15, _⟩ => ⟨S3300000, .f32⟩
  | .hbm, ⟨16, _⟩ => ⟨S_, .f32⟩
  | .hbm, ⟨17, _⟩ => ⟨S100000, .f32⟩
  | .hbm, ⟨18, _⟩ => ⟨S3300000x1, .i32⟩
  | .hbm, ⟨19, _⟩ => ⟨S100000, .f32⟩
  | .hbm, ⟨20, _⟩ => ⟨S_, .f32⟩
  | .hbm, ⟨21, _⟩ => ⟨S100000, .f32⟩
  | .hbm, ⟨22, _⟩ => ⟨S100000, .i1⟩
  | .hbm, ⟨23, _⟩ => ⟨S100000, .f32⟩
  | .hbm, ⟨24, _⟩ => ⟨S_, .f32⟩
  | .hbm, ⟨25, _⟩ => ⟨S_, .f32⟩
  | .hbm, ⟨26, _⟩ => ⟨S100000, .f32⟩
  | .hbm, ⟨27, _⟩ => ⟨S100000, .f32⟩
  | .hbm, ⟨28, _⟩ => ⟨S_, .i32⟩
  | .hbm, ⟨29, _⟩ => ⟨S3300000, .i32⟩
  | .hbm, ⟨30, _⟩ => ⟨S3300000, .i1⟩
  | .hbm, ⟨31, _⟩ => ⟨S_, .i32⟩
  | .hbm, ⟨32, _⟩ => ⟨S3300000, .i32⟩
  | .hbm, ⟨33, _⟩ => ⟨S3300000, .i32⟩
  | .hbm, ⟨34, _⟩ => ⟨S3300000, .i32⟩
  | .hbm, ⟨35, _⟩ => ⟨S3300000x1, .i32⟩
  | .hbm, ⟨36, _⟩ => ⟨S3300000, .f32⟩
  | .hbm, ⟨37, _⟩ => ⟨S_, .i32⟩
  | .hbm, ⟨38, _⟩ => ⟨S3300000, .i32⟩
  | .hbm, ⟨39, _⟩ => ⟨S3300000, .i1⟩
  | .hbm, ⟨40, _⟩ => ⟨S_, .i32⟩
  | .hbm, ⟨41, _⟩ => ⟨S3300000, .i32⟩
  | .hbm, ⟨42, _⟩ => ⟨S3300000, .i32⟩
  | .hbm, ⟨43, _⟩ => ⟨S3300000, .i32⟩
  | .hbm, ⟨44, _⟩ => ⟨S3300000x1, .i32⟩
  | .hbm, ⟨45, _⟩ => ⟨S3300000, .f32⟩
  | .hbm, ⟨46, _⟩ => ⟨S3300000, .f32⟩
  | .hbm, ⟨47, _⟩ => ⟨S_, .i32⟩
  | .hbm, ⟨48, _⟩ => ⟨S3300000, .i32⟩
  | .hbm, ⟨49, _⟩ => ⟨S3300000, .i1⟩
  | .hbm, ⟨50, _⟩ => ⟨S_, .i32⟩
  | .hbm, ⟨51, _⟩ => ⟨S3300000, .i32⟩
  | .hbm, ⟨52, _⟩ => ⟨S3300000, .i32⟩
  | .hbm, ⟨53, _⟩ => ⟨S3300000, .i32⟩
  | .hbm, ⟨54, _⟩ => ⟨S3300000x1, .i32⟩
  | .hbm, ⟨55, _⟩ => ⟨S3300000x16, .f32⟩
  | .hbm, ⟨56, _⟩ => ⟨S3300000x1, .f32⟩
  | .hbm, ⟨57, _⟩ => ⟨S3300000x16, .f32⟩
  | .hbm, ⟨58, _⟩ => ⟨S3300000x16, .f32⟩
  | .hbm, ⟨59, _⟩ => ⟨S_, .f32⟩
  | .hbm, ⟨60, _⟩ => ⟨S100000x16, .f32⟩
  | .hbm, ⟨61, _⟩ => ⟨S3300000x1, .i32⟩
  | .hbm, ⟨62, _⟩ => ⟨S100000x16, .f32⟩
  | .hbm, ⟨63, _⟩ => ⟨S1x16, .f32⟩
  | .hbm, ⟨64, _⟩ => ⟨S100000x16, .f32⟩
  | .hbm, ⟨65, _⟩ => ⟨S100000x16, .f32⟩
  | .hbm, ⟨66, _⟩ => ⟨S100000x16, .f32⟩
  | .hbm, ⟨67, _⟩ => ⟨S100000x16, .f32⟩
  | .hbm, ⟨68, _⟩ => ⟨S100000, .i32⟩
  | .hbm, ⟨69, _⟩ => ⟨S3300000, .i32⟩
  | .hbm, ⟨70, _⟩ => ⟨S3300000, .i32⟩
  | .hbm, ⟨71, _⟩ => ⟨S_, .f32⟩
  | .hbm, ⟨72, _⟩ => ⟨S3300000, .f32⟩
  | .hbm, ⟨73, _⟩ => ⟨S_, .f32⟩
  | .hbm, ⟨74, _⟩ => ⟨S100000, .f32⟩
  | .hbm, ⟨75, _⟩ => ⟨S3300000x1, .i32⟩
  | .hbm, ⟨76, _⟩ => ⟨S100000, .f32⟩
  | .hbm, ⟨77, _⟩ => ⟨S_, .f32⟩
  | .hbm, ⟨78, _⟩ => ⟨S100000, .f32⟩
  | .hbm, ⟨79, _⟩ => ⟨S100000, .i1⟩
  | .hbm, ⟨80, _⟩ => ⟨S100000, .f32⟩
  | .hbm, ⟨81, _⟩ => ⟨S_, .f32⟩
  | .hbm, ⟨82, _⟩ => ⟨S_, .f32⟩
  | .hbm, ⟨83, _⟩ => ⟨S100000, .f32⟩
  | .hbm, ⟨84, _⟩ => ⟨S100000, .f32⟩
  | .hbm, ⟨85, _⟩ => ⟨S_, .i32⟩
  | .hbm, ⟨86, _⟩ => ⟨S3300000, .i32⟩
  | .hbm, ⟨87, _⟩ => ⟨S3300000, .i1⟩
  | .hbm, ⟨88, _⟩ => ⟨S_, .i32⟩
  | .hbm, ⟨89, _⟩ => ⟨S3300000, .i32⟩
  | .hbm, ⟨90, _⟩ => ⟨S3300000, .i32⟩
  | .hbm, ⟨91, _⟩ => ⟨S3300000, .i32⟩
  | .hbm, ⟨92, _⟩ => ⟨S3300000x1, .i32⟩
  | .hbm, ⟨93, _⟩ => ⟨S3300000, .f32⟩
  | .hbm, ⟨94, _⟩ => ⟨S_, .i32⟩
  | .hbm, ⟨95, _⟩ => ⟨S3300000, .i32⟩
  | .hbm, ⟨96, _⟩ => ⟨S3300000, .i1⟩
  | .hbm, ⟨97, _⟩ => ⟨S_, .i32⟩
  | .hbm, ⟨98, _⟩ => ⟨S3300000, .i32⟩
  | .hbm, ⟨99, _⟩ => ⟨S3300000, .i32⟩
  | .hbm, ⟨100, _⟩ => ⟨S3300000, .i32⟩
  | .hbm, ⟨101, _⟩ => ⟨S3300000x1, .i32⟩
  | .hbm, ⟨102, _⟩ => ⟨S3300000, .f32⟩
  | .hbm, ⟨103, _⟩ => ⟨S3300000, .f32⟩
  | .hbm, ⟨104, _⟩ => ⟨S_, .i32⟩
  | .hbm, ⟨105, _⟩ => ⟨S3300000, .i32⟩
  | .hbm, ⟨106, _⟩ => ⟨S3300000, .i1⟩
  | .hbm, ⟨107, _⟩ => ⟨S_, .i32⟩
  | .hbm, ⟨108, _⟩ => ⟨S3300000, .i32⟩
  | .hbm, ⟨109, _⟩ => ⟨S3300000, .i32⟩
  | .hbm, ⟨110, _⟩ => ⟨S3300000, .i32⟩
  | .hbm, ⟨111, _⟩ => ⟨S3300000x1, .i32⟩
  | .hbm, ⟨112, _⟩ => ⟨S3300000x16, .f32⟩
  | .hbm, ⟨113, _⟩ => ⟨S3300000x1, .f32⟩
  | .hbm, ⟨114, _⟩ => ⟨S3300000x16, .f32⟩
  | .hbm, ⟨115, _⟩ => ⟨S3300000x16, .f32⟩
  | .hbm, ⟨116, _⟩ => ⟨S_, .f32⟩
  | .hbm, ⟨117, _⟩ => ⟨S100000x16, .f32⟩
  | .hbm, ⟨118, _⟩ => ⟨S3300000x1, .i32⟩
  | .hbm, ⟨119, _⟩ => ⟨S100000x16, .f32⟩
  | .hbm, ⟨120, _⟩ => ⟨S1x16, .f32⟩
  | .hbm, ⟨121, _⟩ => ⟨S100000x16, .f32⟩
  | .hbm, ⟨122, _⟩ => ⟨S100000x16, .f32⟩
  | .hbm, ⟨123, _⟩ => ⟨S100000x16, .f32⟩
  | _, _ => ⟨S100000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_cst : Ref sig .tc := ⟨.hbm, 14, rfl⟩
abbrev main_v8 : Ref sig .tc := ⟨.hbm, 15, rfl⟩
abbrev main_cst_0 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_cst_1 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_cst_2 : Ref sig .tc := ⟨.hbm, 24, rfl⟩
abbrev main_call0_v0 : Ref sig .tc := ⟨.hbm, 25, rfl⟩
abbrev main_call0_v1 : Ref sig .tc := ⟨.hbm, 26, rfl⟩
abbrev main_v15 : Ref sig .tc := ⟨.hbm, 27, rfl⟩
abbrev main_c : Ref sig .tc := ⟨.hbm, 28, rfl⟩
abbrev main_v16 : Ref sig .tc := ⟨.hbm, 29, rfl⟩
abbrev main_v17 : Ref sig .tc := ⟨.hbm, 30, rfl⟩
abbrev main_c_3 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_c_4 : Ref sig .tc := ⟨.hbm, 37, rfl⟩
abbrev main_v23 : Ref sig .tc := ⟨.hbm, 38, rfl⟩
abbrev main_v24 : Ref sig .tc := ⟨.hbm, 39, rfl⟩
abbrev main_c_5 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_c_6 : Ref sig .tc := ⟨.hbm, 47, rfl⟩
abbrev main_v31 : Ref sig .tc := ⟨.hbm, 48, rfl⟩
abbrev main_v32 : Ref sig .tc := ⟨.hbm, 49, rfl⟩
abbrev main_c_7 : Ref sig .tc := ⟨.hbm, 50, rfl⟩
abbrev main_v33 : Ref sig .tc := ⟨.hbm, 51, rfl⟩
abbrev main_v34 : Ref sig .tc := ⟨.hbm, 52, rfl⟩
abbrev main_v35 : Ref sig .tc := ⟨.hbm, 53, rfl⟩
abbrev main_v36 : Ref sig .tc := ⟨.hbm, 54, rfl⟩
abbrev main_v37 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev main_cst_8 : Ref sig .tc := ⟨.hbm, 59, rfl⟩
abbrev main_v41 : Ref sig .tc := ⟨.hbm, 60, rfl⟩
abbrev main_v42 : Ref sig .tc := ⟨.hbm, 61, rfl⟩
abbrev main_v43 : Ref sig .tc := ⟨.hbm, 62, rfl⟩
abbrev main_v44 : Ref sig .tc := ⟨.hbm, 63, rfl⟩
abbrev main_v45 : Ref sig .tc := ⟨.hbm, 64, rfl⟩
abbrev main_v46 : Ref sig .tc := ⟨.hbm, 65, rfl⟩
abbrev main_v47 : Ref sig .tc := ⟨.hbm, 66, rfl⟩
abbrev main_v48 : Ref sig .tc := ⟨.hbm, 67, rfl⟩
abbrev main_v49 : Ref sig .tc := ⟨.hbm, 68, rfl⟩
abbrev main_v50 : Ref sig .tc := ⟨.hbm, 69, rfl⟩
abbrev main_v51 : Ref sig .tc := ⟨.hbm, 70, rfl⟩
abbrev main_cst_9 : Ref sig .tc := ⟨.hbm, 71, rfl⟩
abbrev main_v52 : Ref sig .tc := ⟨.hbm, 72, rfl⟩
abbrev main_cst_10 : Ref sig .tc := ⟨.hbm, 73, rfl⟩
abbrev main_v53 : Ref sig .tc := ⟨.hbm, 74, rfl⟩
abbrev main_v54 : Ref sig .tc := ⟨.hbm, 75, rfl⟩
abbrev main_v55 : Ref sig .tc := ⟨.hbm, 76, rfl⟩
abbrev main_cst_11 : Ref sig .tc := ⟨.hbm, 77, rfl⟩
abbrev main_v56 : Ref sig .tc := ⟨.hbm, 78, rfl⟩
abbrev main_v57 : Ref sig .tc := ⟨.hbm, 79, rfl⟩
abbrev main_v58 : Ref sig .tc := ⟨.hbm, 80, rfl⟩
abbrev main_cst_12 : Ref sig .tc := ⟨.hbm, 81, rfl⟩
abbrev main_call1_v0 : Ref sig .tc := ⟨.hbm, 82, rfl⟩
abbrev main_call1_v1 : Ref sig .tc := ⟨.hbm, 83, rfl⟩
abbrev main_v59 : Ref sig .tc := ⟨.hbm, 84, rfl⟩
abbrev main_c_13 : Ref sig .tc := ⟨.hbm, 85, rfl⟩
abbrev main_v60 : Ref sig .tc := ⟨.hbm, 86, rfl⟩
abbrev main_v61 : Ref sig .tc := ⟨.hbm, 87, rfl⟩
abbrev main_c_14 : Ref sig .tc := ⟨.hbm, 88, rfl⟩
abbrev main_v62 : Ref sig .tc := ⟨.hbm, 89, rfl⟩
abbrev main_v63 : Ref sig .tc := ⟨.hbm, 90, rfl⟩
abbrev main_v64 : Ref sig .tc := ⟨.hbm, 91, rfl⟩
abbrev main_v65 : Ref sig .tc := ⟨.hbm, 92, rfl⟩
abbrev main_v66 : Ref sig .tc := ⟨.hbm, 93, rfl⟩
abbrev main_c_15 : Ref sig .tc := ⟨.hbm, 94, rfl⟩
abbrev main_v67 : Ref sig .tc := ⟨.hbm, 95, rfl⟩
abbrev main_v68 : Ref sig .tc := ⟨.hbm, 96, rfl⟩
abbrev main_c_16 : Ref sig .tc := ⟨.hbm, 97, rfl⟩
abbrev main_v69 : Ref sig .tc := ⟨.hbm, 98, rfl⟩
abbrev main_v70 : Ref sig .tc := ⟨.hbm, 99, rfl⟩
abbrev main_v71 : Ref sig .tc := ⟨.hbm, 100, rfl⟩
abbrev main_v72 : Ref sig .tc := ⟨.hbm, 101, rfl⟩
abbrev main_v73 : Ref sig .tc := ⟨.hbm, 102, rfl⟩
abbrev main_v74 : Ref sig .tc := ⟨.hbm, 103, rfl⟩
abbrev main_c_17 : Ref sig .tc := ⟨.hbm, 104, rfl⟩
abbrev main_v75 : Ref sig .tc := ⟨.hbm, 105, rfl⟩
abbrev main_v76 : Ref sig .tc := ⟨.hbm, 106, rfl⟩
abbrev main_c_18 : Ref sig .tc := ⟨.hbm, 107, rfl⟩
abbrev main_v77 : Ref sig .tc := ⟨.hbm, 108, rfl⟩
abbrev main_v78 : Ref sig .tc := ⟨.hbm, 109, rfl⟩
abbrev main_v79 : Ref sig .tc := ⟨.hbm, 110, rfl⟩
abbrev main_v80 : Ref sig .tc := ⟨.hbm, 111, rfl⟩
abbrev main_v81 : Ref sig .tc := ⟨.hbm, 112, rfl⟩
abbrev main_v82 : Ref sig .tc := ⟨.hbm, 113, rfl⟩
abbrev main_v83 : Ref sig .tc := ⟨.hbm, 114, rfl⟩
abbrev main_v84 : Ref sig .tc := ⟨.hbm, 115, rfl⟩
abbrev main_cst_19 : Ref sig .tc := ⟨.hbm, 116, rfl⟩
abbrev main_v85 : Ref sig .tc := ⟨.hbm, 117, rfl⟩
abbrev main_v86 : Ref sig .tc := ⟨.hbm, 118, rfl⟩
abbrev main_v87 : Ref sig .tc := ⟨.hbm, 119, rfl⟩
abbrev main_v88 : Ref sig .tc := ⟨.hbm, 120, rfl⟩
abbrev main_v89 : Ref sig .tc := ⟨.hbm, 121, rfl⟩
abbrev main_v90 : Ref sig .tc := ⟨.hbm, 122, rfl⟩
abbrev main_v91 : Ref sig .tc := ⟨.hbm, 123, rfl⟩

abbrev nD : Nat := 1
abbrev τ : Topo := Topo.v7x

variable {F : FTy → Type} [FloatOps F]

class Facts₀ : Prop where
  slices_S2x3200000_S1x3200000_0_0 : S2x3200000.Slices ![0, 0] S1x3200000
  shapeCasts_S1x3200000_S3200000 : S1x3200000.ShapeCasts S3200000
  slices_S2x3200000_S1x3200000_1_0 : S2x3200000.Slices ![1, 0] S1x3200000
  concatenates_S3200000_S100000_S3300000_d0 : Shape.Concatenates [S3200000, S100000] S3300000 0
  bcast_S_S3300000 : S_.BroadcastsInDim S3300000 (![] : Fin 0 → Fin S3300000.rank)
  bcast_S_S100000 : S_.BroadcastsInDim S100000 (![] : Fin 0 → Fin S100000.rank)
  bcast_S3300000_S3300000x1_0 : S3300000.BroadcastsInDim S3300000x1 (![0] : Fin 1 → Fin S3300000x1.rank)
  bcast_S3300000x1_S3300000x16_0_1 : S3300000x1.BroadcastsInDim S3300000x16 (![0, 1] : Fin 2 → Fin S3300000x16.rank)
  bcast_S_S100000x16 : S_.BroadcastsInDim S100000x16 (![] : Fin 0 → Fin S100000x16.rank)
  bcast_S16_S1x16_1 : S16.BroadcastsInDim S1x16 (![1] : Fin 1 → Fin S1x16.rank)
  bcast_S1x16_S100000x16_0_1 : S1x16.BroadcastsInDim S100000x16 (![0, 1] : Fin 2 → Fin S100000x16.rank)
  dot_S100000x128_S128x16_S100000x16_1_0_0_1_n_n_wf : DotDims.WF S100000x128 S128x16 S100000x16 [1] [0] [0] [1] [] []
  scatter_S100000_S3300000x1_S3300000_n_0_0_1_wf : ScatterDims.WF S100000 S3300000x1 S3300000 [] [0] [0] 1
  gather_S100000_S3300000x1_S3300000_n_0_n_n_0_1_1_wf : GatherDims.WF S100000 S3300000x1 S3300000 [] [0] [] [0] [] 1 ![1]
  gather_S100000x16_S3300000x1_S3300000x16_1_0_n_n_0_1_116_wf : GatherDims.WF S100000x16 S3300000x1 S3300000x16 [1] [0] [] [0] [] 1 ![1, 16]
  scatter_S100000x16_S3300000x1_S3300000x16_1_0_0_1_wf : ScatterDims.WF S100000x16 S3300000x1 S3300000x16 [1] [0] [0] 1
  dot_S100000x16_S16x16_S100000x16_1_0_0_1_n_n_wf : DotDims.WF S100000x16 S16x16 S100000x16 [1] [0] [0] [1] [] []

variable [Facts₀]

def dot_S100000x128_S128x16_S100000x16_1_0_0_1_n_n : DotDims S100000x128 S128x16 S100000x16 where
  lhsContracting := [1]
  rhsContracting := [0]
  lhsNonContracting := [0]
  rhsNonContracting := [1]
  lhsBatch := []
  rhsBatch := []
  wf := dot_S100000x128_S128x16_S100000x16_1_0_0_1_n_n_wf
def scatter_S100000_S3300000x1_S3300000_n_0_0_1 : ScatterDims S100000 S3300000x1 S3300000 where
  updateWindowDims := []
  insertedWindowDims := [0]
  scatterDimsToOperandDims := [0]
  indexVectorDim := 1
  wf := scatter_S100000_S3300000x1_S3300000_n_0_0_1_wf
def gather_S100000_S3300000x1_S3300000_n_0_n_n_0_1_1 : GatherDims S100000 S3300000x1 S3300000 where
  offsetDims := []
  collapsedSliceDims := [0]
  operandBatchingDims := []
  startIndicesBatchingDims := []
  startIndexMap := [0]
  indexVectorDim := 1
  sliceSizes := ![1]
  wf := gather_S100000_S3300000x1_S3300000_n_0_n_n_0_1_1_wf
def gather_S100000x16_S3300000x1_S3300000x16_1_0_n_n_0_1_116 : GatherDims S100000x16 S3300000x1 S3300000x16 where
  offsetDims := [1]
  collapsedSliceDims := [0]
  operandBatchingDims := []
  startIndicesBatchingDims := []
  startIndexMap := [0]
  indexVectorDim := 1
  sliceSizes := ![1, 16]
  wf := gather_S100000x16_S3300000x1_S3300000x16_1_0_n_n_0_1_116_wf
def scatter_S100000x16_S3300000x1_S3300000x16_1_0_0_1 : ScatterDims S100000x16 S3300000x1 S3300000x16 where
  updateWindowDims := [1]
  insertedWindowDims := [0]
  scatterDimsToOperandDims := [0]
  indexVectorDim := 1
  wf := scatter_S100000x16_S3300000x1_S3300000x16_1_0_0_1_wf
def dot_S100000x16_S16x16_S100000x16_1_0_0_1_n_n : DotDims S100000x16 S16x16 S100000x16 where
  lhsContracting := [1]
  rhsContracting := [0]
  lhsNonContracting := [0]
  rhsNonContracting := [1]
  lhsBatch := []
  rhsBatch := []
  wf := dot_S100000x16_S16x16_S100000x16_1_0_0_1_n_n_wf

class Facts : Prop extends Facts₀ where

variable [Facts]
-- ==== Proof.KernelRun.lean ====
/-
  The run of the three-region program with its result named: every weakly fair execution ends, nothing faulting, with
  the result array at what the buffer contents hold at the last segment boundary (the fold of the host stretches and
  the regions' write-backs from the launch memory), and the argument arrays as launched. It is the launch over the
  program's segments that the frame uses, read once more at the result's buffer.
-/
import proofs.«162709_j51788715655810_2_alg».proof.Proof.Gen.KernelIdeal.Frame

set_option maxRecDepth 16384

noncomputable section

namespace Cert.KernelIdeal.RunValue

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- The run, with the result buffer read against the last boundary's contents. -/
theorem run_last : θ_run defs (onTc (τ := τ) (main (F := F))) ⟨m, fun _ => 0, ρ⟩ (fun r => ∀ c : Dev nD,
      r.2.mem ((c.tc : Thread nD τ).loc main_v40) = W8 m ρ c (Proc.devRef .tc main_v40)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W8 m ρ c b)
    (hfin := fun c s' => by
      iintro ⟨⟨Hh, -⟩, HSI⟩
      unfold StableHlo.held
      imodintro
      iapply (pointsTo_read_all (Pipeline.ucRefs τ sig) (fun b => (((c : Thread nD τ)).1, b)) (W8 m ρ c) s')
      isplitl [Hh] <;> iassumption)
    (hQ := fun s h c =>
      ⟨h c _ (mem_uc main_v40 (by decide)),
       (h c _ (mem_uc main_arg0 (by decide))).trans (W8_main_arg0 m ρ c),
       (h c _ (mem_uc main_arg1 (by decide))).trans (W8_main_arg1 m ρ c),
       (h c _ (mem_uc main_arg2 (by decide))).trans (W8_main_arg2 m ρ c),
       (h c _ (mem_uc main_arg3 (by decide))).trans (W8_main_arg3 m ρ c),
       (h c _ (mem_uc main_arg4 (by decide))).trans (W8_main_arg4 m ρ c),
       (h c _ (mem_uc main_arg5 (by decide))).trans (W8_main_arg5 m ρ c)⟩)

end Cert.KernelIdeal.RunValue

end
-- ==== Proof.LibRowScatter.lean ====
/-
  Rows gathered and rows scattered, read at an index, at the exact (extended-real) values.

  A "row gather" takes rows of an [N, C] array at E start indices (an [E, 1] integer array): row e of the result is the
  row of the operand whose number is start index e read as a signed integer and clamped into [0, N-1]. A "vector gather"
  is the same for an [N] array. A "row scatter-add" adds row e of an [E, C] array of updates into the row of an [N, C]
  array whose number is index e read signed and NOT clamped; an update whose row number is outside [0, N) is dropped.
-/
import Idealize.ShloMosaic.PureOps.Ideal.Laws
import Idealize.ShloMosaic.Lib.ValueIdx

noncomputable section

open scoped BigOperators

namespace Cert.LibRowScatter

open Idealize.ShloMosaic Idealize.ShloMosaic.ValueIdx

/-- The dimension numbers of a row scatter: updates [E, C] into an operand [N, C] at indices [E, 1]. -/
abbrev rowScatterDims (N E C : Nat) (wf : ScatterDims.WF ⟨2, ![N, C]⟩ ⟨2, ![E, 1]⟩ ⟨2, ![E, C]⟩ [1] [0] [0] 1) :
    ScatterDims ⟨2, ![N, C]⟩ ⟨2, ![E, 1]⟩ ⟨2, ![E, C]⟩ where
  updateWindowDims := [1]
  insertedWindowDims := [0]
  scatterDimsToOperandDims := [0]
  indexVectorDim := 1
  wf := wf

/-- Where update (e, c) lands, when it lands: in row (index e read signed), column c. -/
theorem rowScatter_resultIdx?_some {N E C w : Nat} (wf : ScatterDims.WF ⟨2, ![N, C]⟩ ⟨2, ![E, 1]⟩ ⟨2, ![E, C]⟩ [1] [0] [0] 1)
    (idx : IVec ⟨2, ![E, 1]⟩ w) (e : Fin E) (c : Fin C) (n : Fin N) (c' : Fin C)
    (h : (rowScatterDims N E C wf).resultIdx? (ix2 e c) idx = some (ix2 n c')) :
    (idx (ix2 e (0 : Fin 1))).toInt = (n.val : Int) ∧ c' = c := by
  unfold ScatterDims.resultIdx? at h
  split at h
  · rename_i hr
    have h' := Option.some.inj h
    have hs0 : (rowScatterDims N E C wf).start (ix2 e c) idx 0 = (idx (ix2 e (0 : Fin 1))).toInt := by
      unfold ScatterDims.start
      rw [dif_pos (show (0 : Fin 2) ∈ (rowScatterDims N E C wf).scatterDimsToOperandDims from List.mem_singleton.mpr rfl)]
      congr 2
      funext b; refine Fin.ext ?_
      match b with
      | ⟨0, _⟩ => rfl
      | ⟨1, _⟩ => rfl
    have hw0 : (rowScatterDims N E C wf).window (ix2 e c) 0 = 0 := by
      have hm : (0 : Fin 2) ∉ (rowScatterDims N E C wf).sKept :=
        show (0 : Fin 2) ∉ (List.finRange 2).filter (· ∉ [(0 : Fin 2)]) from by decide
      unfold ScatterDims.window
      rw [dif_neg hm]
    have hs1 : (rowScatterDims N E C wf).start (ix2 e c) idx 1 = 0 := by
      unfold ScatterDims.start
      rw [dif_neg (show (1 : Fin 2) ∉ [(0 : Fin 2)] from by decide)]
    have hw1 : (rowScatterDims N E C wf).window (ix2 e c) 1 = c.val := by
      have hm : (1 : Fin 2) ∈ (rowScatterDims N E C wf).sKept :=
        show (1 : Fin 2) ∈ (List.finRange 2).filter (· ∉ [(0 : Fin 2)]) from by decide
      unfold ScatterDims.window
      rw [dif_pos hm]
      rfl
    have h0 : ((rowScatterDims N E C wf).start (ix2 e c) idx 0
        + ((rowScatterDims N E C wf).window (ix2 e c) 0 : Nat)).toNat = n.val := congrArg Fin.val (congrFun h' 0)
    have h1 : ((rowScatterDims N E C wf).start (ix2 e c) idx 1
        + ((rowScatterDims N E C wf).window (ix2 e c) 1 : Nat)).toNat = c'.val := congrArg Fin.val (congrFun h' 1)
    have hr0 := (hr 0).1
    rw [hs0, hw0] at hr0 h0
    rw [hs1, hw1] at h1
    constructor
    · omega
    · refine Fin.ext ?_
      omega
  · exact absurd h (by simp)

/-- The dimension numbers of a row gather: rows of an operand [N, C] at start indices [E, 1] into [E, C]. -/
abbrev rowGatherDims (N E C : Nat) (wf : GatherDims.WF ⟨2, ![N, C]⟩ ⟨2, ![E, 1]⟩ ⟨2, ![E, C]⟩ [1] [0] [] [0] [] 1 ![1, C]) :
    GatherDims ⟨2, ![N, C]⟩ ⟨2, ![E, 1]⟩ ⟨2, ![E, C]⟩ where
  offsetDims := [1]
  collapsedSliceDims := [0]
  operandBatchingDims := []
  startIndicesBatchingDims := []
  startIndexMap := [0]
  indexVectorDim := 1
  sliceSizes := ![1, C]
  wf := wf

/-- The row start index e names: read signed, clamped into [0, N-1]. -/
def clampRow {E w : Nat} (N : Nat) (hN : 0 < N) (idx : IVec ⟨2, ![E, 1]⟩ w) (e : Fin E) : Fin N :=
  ⟨min (idx (ix2 e (0 : Fin 1))).toInt.toNat (N - 1), by omega⟩

variable {α : Type}

/-- The row gather at (e, c): the operand at (the clamped row of start index e, c). -/
theorem rowGather_apply {N E C w : Nat} (hN : 0 < N)
    (wf : GatherDims.WF ⟨2, ![N, C]⟩ ⟨2, ![E, 1]⟩ ⟨2, ![E, C]⟩ [1] [0] [] [0] [] 1 ![1, C])
    (x : (⟨2, ![N, C]⟩ : Shape).Idx → α) (idx : IVec ⟨2, ![E, 1]⟩ w) (e : Fin E) (c : Fin C) :
    Host.gather (rowGatherDims N E C wf) x idx (ix2 e c) = x (ix2 (clampRow N hN idx e) c) := by
  unfold Host.gather
  congr 1
  funext a
  refine Fin.ext ?_
  show (rowGatherDims N E C wf).start (ix2 e c) idx a + (rowGatherDims N E C wf).batchCoord (ix2 e c) a
    + (rowGatherDims N E C wf).offCoord (ix2 e c) a = _
  rw [GatherDims.batchCoord_eq_zero _ _ _ List.not_mem_nil]
  match a with
  | ⟨0, _⟩ =>
    have hk : (0 : Fin 2) ∉ (rowGatherDims N E C wf).sKept :=
      show (0 : Fin 2) ∉ (List.finRange 2).filter (· ∉ [(0 : Fin 2)] ++ []) from by decide
    show (rowGatherDims N E C wf).start (ix2 e c) idx 0 + 0 + (rowGatherDims N E C wf).offCoord (ix2 e c) 0 = _
    rw [GatherDims.offCoord_eq_zero _ _ _ hk]
    simp only [Nat.add_zero]
    unfold GatherDims.start
    rw [dif_pos (show (0 : Fin 2) ∈ (rowGatherDims N E C wf).startIndexMap from List.mem_singleton.mpr rfl)]
    have hsi : (rowGatherDims N E C wf).siIdx (ix2 e c) ⟨List.idxOf (0 : Fin 2) (rowGatherDims N E C wf).startIndexMap,
        List.idxOf_lt_length_iff.2 (List.mem_singleton.mpr rfl)⟩ = ix2 e (0 : Fin 1) := by
      funext b; refine Fin.ext ?_
      match b with
      | ⟨0, _⟩ => rfl
      | ⟨1, _⟩ => rfl
    rw [hsi]
    rfl
  | ⟨1, _⟩ =>
    have hk : (1 : Fin 2) ∈ (rowGatherDims N E C wf).sKept :=
      show (1 : Fin 2) ∈ (List.finRange 2).filter (· ∉ [(0 : Fin 2)] ++ []) from by decide
    show (rowGatherDims N E C wf).start (ix2 e c) idx 1 + 0 + (rowGatherDims N E C wf).offCoord (ix2 e c) 1 = c.val
    unfold GatherDims.start
    rw [dif_neg (show (1 : Fin 2) ∉ [(0 : Fin 2)] from by decide)]
    unfold GatherDims.offCoord
    rw [dif_pos hk]
    simp only [Nat.zero_add]
    rfl

/-- The dimension numbers of a vector gather: entries of an operand [N] at start indices [E, 1] into [E]. -/
abbrev vecGatherDims (N E : Nat) (wf : GatherDims.WF ⟨1, ![N]⟩ ⟨2, ![E, 1]⟩ ⟨1, ![E]⟩ [] [0] [] [0] [] 1 ![1]) :
    GatherDims ⟨1, ![N]⟩ ⟨2, ![E, 1]⟩ ⟨1, ![E]⟩ where
  offsetDims := []
  collapsedSliceDims := [0]
  operandBatchingDims := []
  startIndicesBatchingDims := []
  startIndexMap := [0]
  indexVectorDim := 1
  sliceSizes := ![1]
  wf := wf

/-- The vector gather at e: the operand at the clamped start index e. -/
theorem vecGather_apply {N E w : Nat} (hN : 0 < N)
    (wf : GatherDims.WF ⟨1, ![N]⟩ ⟨2, ![E, 1]⟩ ⟨1, ![E]⟩ [] [0] [] [0] [] 1 ![1])
    (x : (⟨1, ![N]⟩ : Shape).Idx → α) (idx : IVec ⟨2, ![E, 1]⟩ w) (e : Fin E) :
    Host.gather (vecGatherDims N E wf) x idx (ix1 e) = x (ix1 (clampRow N hN idx e)) := by
  unfold Host.gather
  congr 1
  funext a
  obtain rfl : a = 0 := Subsingleton.elim _ _
  refine Fin.ext ?_
  show (vecGatherDims N E wf).start (ix1 e) idx 0 + (vecGatherDims N E wf).batchCoord (ix1 e) 0
    + (vecGatherDims N E wf).offCoord (ix1 e) 0 = _
  rw [GatherDims.batchCoord_eq_zero _ _ _ List.not_mem_nil,
    GatherDims.offCoord_eq_zero _ _ _ (fun h => ((GatherDims.mem_sKept _ _).mp h).1 (List.mem_singleton.mpr rfl))]
  simp only [Nat.add_zero]
  unfold GatherDims.start
  rw [dif_pos (show (0 : Fin 1) ∈ (vecGatherDims N E wf).startIndexMap from List.mem_singleton.mpr rfl)]
  have hsi : (vecGatherDims N E wf).siIdx (ix1 e) ⟨List.idxOf (0 : Fin 1) (vecGatherDims N E wf).startIndexMap,
      List.idxOf_lt_length_iff.2 (List.mem_singleton.mpr rfl)⟩ = ix2 e (0 : Fin 1) := by
    funext b; refine Fin.ext ?_
    match b with
    | ⟨0, _⟩ => rfl
    | ⟨1, _⟩ => rfl
  rw [hsi]
  rfl

/-- A sum of extended reals times a nonnegative finite factor is the sum of the products. -/
theorem sum_mul_of_nonneg_ne_top {ι : Type} (s : Finset ι) (f : ι → EReal) (v : EReal) (h0 : 0 ≤ v) (ht : v ≠ ⊤) :
    (∑ j ∈ s, f j) * v = ∑ j ∈ s, f j * v := by
  classical
  induction s using Finset.induction_on with
  | empty => simp
  | insert a s ha ih =>
    rw [Finset.sum_insert ha, Finset.sum_insert ha, EReal.right_distrib_of_nonneg_of_ne_top h0 ht, ih]

/-- THE LAW OF THE SYMMETRIC NORMALISATION. Rows of H scaled by a per-row factor u BEFORE they are gathered, added up
    at their destination rows, and the sum scaled by the destination row's factor v AFTERWARDS, is the sum of the
    gathered rows each scaled by (u at its source row) * (v at its destination row), when that per-edge product p
    agrees with v on every edge that lands (hp) and v is nonnegative and finite. -/
theorem scatter_rows_scaled {N E C w : Nat} (hN : 0 < N)
    (wfS : ScatterDims.WF ⟨2, ![N, C]⟩ ⟨2, ![E, 1]⟩ ⟨2, ![E, C]⟩ [1] [0] [0] 1)
    (idxD : IVec ⟨2, ![E, 1]⟩ w)
    (updK updR : (⟨2, ![E, C]⟩ : Shape).Idx → EReal) (v : Fin N → EReal)
    (hv : ∀ n, 0 ≤ v n ∧ v n ≠ ⊤)
    (hrel : ∀ (e : Fin E) (c : Fin C) (n : Fin N), (idxD (ix2 e (0 : Fin 1))).toInt = (n.val : Int) →
      updR (ix2 e c) = updK (ix2 e c) * v n)
    (n : Fin N) (c : Fin C) :
    Ideal.hostScatterAdd (rowScatterDims N E C wfS) (fun _ => 0) idxD updK (ix2 n c) * v n
      = Ideal.hostScatterAdd (rowScatterDims N E C wfS) (fun _ => 0) idxD updR (ix2 n c) := by
  unfold Ideal.hostScatterAdd
  simp only [zero_add]
  rw [sum_mul_of_nonneg_ne_top _ _ _ (hv n).1 (hv n).2]
  refine Finset.sum_congr rfl ?_
  intro j hj
  obtain ⟨e, c0, rfl⟩ : ∃ (e : Fin E) (c0 : Fin C), j = ix2 e c0 := ⟨j 0, j 1, eq_ix2 j⟩
  have hj' := (Finset.mem_filter.mp hj).2
  obtain ⟨hi, _⟩ := rowScatter_resultIdx?_some wfS idxD e c0 n c hj'
  exact (hrel e c0 n hi).symm

end Cert.LibRowScatter

end
-- ==== Proof.LibCount.lean ====
/-
  Counting by a scatter-add of ones, at the exact (extended-real) values.

  A "vector scatter-add" adds entry e of an [E] array of updates into the entry of an [N] array whose number is index e
  (an [E, 1] integer array) read as a signed integer and NOT clamped; an update whose number is outside [0, N) is
  dropped. Scattering ones into zeros counts, at each entry n, the indices equal to n: a natural number, and at least
  one as soon as some index equals n. The reciprocal square root of such a count is a nonnegative finite real, and a
  guard "if the count is positive then rsqrt (max count 1) else 0" is the plain reciprocal square root.
-/
import Idealize.ShloMosaic.PureOps.Ideal.Laws
import Idealize.ShloMosaic.Lib.ValueIdx

noncomputable section

open scoped BigOperators

namespace Cert.LibCount

open Idealize.ShloMosaic Idealize.ShloMosaic.ValueIdx

/-- The dimension numbers of a vector scatter: updates [E] into an operand [N] at indices [E, 1]. -/
abbrev vecScatterDims (N E : Nat) (wf : ScatterDims.WF ⟨1, ![N]⟩ ⟨2, ![E, 1]⟩ ⟨1, ![E]⟩ [] [0] [0] 1) :
    ScatterDims ⟨1, ![N]⟩ ⟨2, ![E, 1]⟩ ⟨1, ![E]⟩ where
  updateWindowDims := []
  insertedWindowDims := [0]
  scatterDimsToOperandDims := [0]
  indexVectorDim := 1
  wf := wf

/-- The start of update e's window on the operand's one axis: index e read signed. -/
theorem vecScatter_start {N E w : Nat} (wf : ScatterDims.WF ⟨1, ![N]⟩ ⟨2, ![E, 1]⟩ ⟨1, ![E]⟩ [] [0] [0] 1)
    (idx : IVec ⟨2, ![E, 1]⟩ w) (e : Fin E) :
    (vecScatterDims N E wf).start (ix1 e) idx 0 = (idx (ix2 e (0 : Fin 1))).toInt := by
  unfold ScatterDims.start
  rw [dif_pos (show (0 : Fin 1) ∈ (vecScatterDims N E wf).scatterDimsToOperandDims from List.mem_singleton.mpr rfl)]
  congr 2
  funext b; refine Fin.ext ?_
  match b with
  | ⟨0, _⟩ => rfl
  | ⟨1, _⟩ => rfl

/-- The window coordinate of update e on the operand's one axis is zero: that axis is an inserted one. -/
theorem vecScatter_window {N E : Nat} (wf : ScatterDims.WF ⟨1, ![N]⟩ ⟨2, ![E, 1]⟩ ⟨1, ![E]⟩ [] [0] [0] 1) (e : Fin E) :
    (vecScatterDims N E wf).window (ix1 e) 0 = 0 := by
  have hm : (0 : Fin 1) ∉ (vecScatterDims N E wf).sKept :=
    show (0 : Fin 1) ∉ (List.finRange 1).filter (· ∉ [(0 : Fin 1)]) from by decide
  unfold ScatterDims.window
  rw [dif_neg hm]

/-- Update e lands at entry n when index e, read signed, is n. -/
theorem vecScatter_lands {N E w : Nat} (wf : ScatterDims.WF ⟨1, ![N]⟩ ⟨2, ![E, 1]⟩ ⟨1, ![E]⟩ [] [0] [0] 1)
    (idx : IVec ⟨2, ![E, 1]⟩ w) (e : Fin E) (n : Fin N)
    (h : (idx (ix2 e (0 : Fin 1))).toInt = (n.val : Int)) :
    (vecScatterDims N E wf).resultIdx? (ix1 e) idx = some (ix1 n) := by
  have hs0 := vecScatter_start wf idx e
  have hw0 := vecScatter_window wf e
  have hn := n.isLt
  have hall : ∀ a, 0 ≤ (vecScatterDims N E wf).start (ix1 e) idx a + (vecScatterDims N E wf).window (ix1 e) a
      ∧ (vecScatterDims N E wf).start (ix1 e) idx a + (vecScatterDims N E wf).window (ix1 e) a
        < (⟨1, ![N]⟩ : Shape).size a := by
    intro a
    obtain rfl : a = 0 := Subsingleton.elim _ _
    rw [hs0, hw0, h]
    show _ ∧ _ < ((N : Nat) : Int)
    omega
  unfold ScatterDims.resultIdx?
  rw [dif_pos hall]
  congr 1
  funext a
  obtain rfl : a = 0 := Subsingleton.elim _ _
  refine Fin.ext ?_
  show ((vecScatterDims N E wf).start (ix1 e) idx 0 + ((vecScatterDims N E wf).window (ix1 e) 0 : Nat)).toNat = n.val
  rw [hs0, hw0, h]
  omega

/-- Where update e lands, when it lands: at the entry whose number is index e read signed. -/
theorem vecScatter_resultIdx?_some {N E w : Nat} (wf : ScatterDims.WF ⟨1, ![N]⟩ ⟨2, ![E, 1]⟩ ⟨1, ![E]⟩ [] [0] [0] 1)
    (idx : IVec ⟨2, ![E, 1]⟩ w) (e : Fin E) (n : Fin N)
    (h : (vecScatterDims N E wf).resultIdx? (ix1 e) idx = some (ix1 n)) :
    (idx (ix2 e (0 : Fin 1))).toInt = (n.val : Int) := by
  unfold ScatterDims.resultIdx? at h
  split at h
  · rename_i hr
    have h' := Option.some.inj h
    have h0 : ((vecScatterDims N E wf).start (ix1 e) idx 0
        + ((vecScatterDims N E wf).window (ix1 e) 0 : Nat)).toNat = n.val := congrArg Fin.val (congrFun h' 0)
    have hr0 := (hr 0).1
    rw [vecScatter_start wf idx e, vecScatter_window wf e] at hr0 h0
    omega
  · exact absurd h (by simp)

/-- Ones scattered into zeros: the entry at n is a natural number (the number of indices equal to n), and it is at
    least one when some index, read signed, equals n. -/
theorem count_ge_one {N E w : Nat} (wf : ScatterDims.WF ⟨1, ![N]⟩ ⟨2, ![E, 1]⟩ ⟨1, ![E]⟩ [] [0] [0] 1)
    (idx : IVec ⟨2, ![E, 1]⟩ w) (n : Fin N)
    (h : ∃ e : Fin E, (idx (ix2 e (0 : Fin 1))).toInt = (n.val : Int)) :
    ∃ k : ℕ, 1 ≤ k ∧ Ideal.hostScatterAdd (vecScatterDims N E wf) (fun _ => 0) idx (fun _ => 1) (ix1 n)
      = ((k : ℕ) : EReal) := by
  obtain ⟨e, he⟩ := h
  unfold Ideal.hostScatterAdd
  simp only [zero_add]
  rw [Finset.sum_const, nsmul_one]
  refine ⟨_, ?_, rfl⟩
  exact Finset.card_pos.mpr ⟨ix1 e, Finset.mem_filter.mpr ⟨Finset.mem_univ _, vecScatter_lands wf idx e n he⟩⟩

/-- A positive count passes the guard: "if t > 0 then rsqrt (max t 1) else 0" is rsqrt t when t is a natural number
    that is at least one. -/
theorem guard_eq (t : EReal) (k : ℕ) (hk : 1 ≤ k) (ht : t = ((k : ℕ) : EReal)) :
    Scalar.select (Ideal.cmp .ogt t 0) (Ideal.rsqrt (max t 1)) (0 : EReal) = Ideal.rsqrt t := by
  have h1 : (1 : EReal) ≤ t := by
    rw [ht]; exact_mod_cast hk
  have h0 : (0 : EReal) < t := lt_of_lt_of_le zero_lt_one h1
  have hc : Ideal.cmp .ogt t 0 = 1#1 := by
    show BitVec.ofBool (decide (0 < t)) = 1#1
    rw [decide_eq_true h0]; rfl
  rw [hc, max_eq_left h1, select_one]

/-- The reciprocal square root of a positive natural number k is the real number 1 / √k. -/
theorem rsqrt_count_eq (k : ℕ) (hk : 1 ≤ k) :
    Ideal.rsqrt ((k : ℕ) : EReal) = (((Real.sqrt (k : ℝ))⁻¹ : ℝ) : EReal) := by
  have hpos : (0 : ℝ) < (k : ℝ) := by exact_mod_cast hk
  show Ideal.rsqrt (((k : ℝ)) : EReal) = _
  show (if (k : ℝ) < 0 then (⊥ : EReal) else if (k : ℝ) = 0 then ⊤ else (((Real.sqrt (k : ℝ))⁻¹ : ℝ) : EReal)) = _
  rw [if_neg (not_lt.mpr hpos.le), if_neg hpos.ne']

/-- The reciprocal square root of a positive natural number is nonnegative and finite. -/
theorem rsqrt_count_nonneg_ne_top (k : ℕ) (hk : 1 ≤ k) :
    0 ≤ Ideal.rsqrt ((k : ℕ) : EReal) ∧ Ideal.rsqrt ((k : ℕ) : EReal) ≠ ⊤ := by
  rw [rsqrt_count_eq k hk]
  exact ⟨by exact_mod_cast (inv_nonneg.mpr (Real.sqrt_nonneg _)), EReal.coe_ne_top _⟩

/-- The word 0x3F800000 is the number one. -/
theorem one_word : Ideal.ofBits .f32 0x3F800000#32 = 1 := by
  simp [Ideal.ofBits, Ideal.ieee, -EReal.coe_mul]; norm_num

/-- The word 0x00000000 is the number zero. -/
theorem zero_word : Ideal.ofBits .f32 0x00000000#32 = 0 := Ideal.ofBits_zero_f32

end Cert.LibCount

end
-- ==== Proof.LibSplitNorm.lean ====
/-
  Two layers of a graph convolution with symmetric degree normalisation, in two arrangements, at the exact
  (extended-real) values.

  A layer multiplies the node features by a weight matrix ("dense"), then for every edge e takes the row of its source
  node, scales it, and adds the scaled rows up at the edge's destination node; a bias row is added and tanh applied.
  With d the per-node factor (the inverse square root of the node's in-degree, or 0 at degree 0), the reference scales
  the row of edge e by d(src e) · d(dst e) before the sum; the other arrangement scales row i of the dense product by
  d(i) before the rows are taken, and scales the sum at node n by d(n) afterwards. For an edge that is added at n the
  destination is n, so the second factor is d(n) on every term of the sum at n, and it moves across the sum as soon as
  d(n) is nonnegative and finite. Nothing else need be finite.

  The source node of edge e is start index e of S read signed and clamped into [0, N-1] (how a row gather reads it);
  the node an edge is added at is index e of D read signed, the edge being dropped when that is outside [0, N) (how a
  scatter-add reads it); Dw is D prepared for a gather, and agrees with D on every edge that is added somewhere.
-/
import proofs.«162709_j51788715655810_2_alg».proof.Proof.LibRowScatter
import proofs.«162709_j51788715655810_2_alg».proof.Proof.LibCount

noncomputable section

open scoped BigOperators

namespace Cert.GraphConv

open Idealize.ShloMosaic Idealize.ShloMosaic.ValueIdx Cert.LibRowScatter

variable {N E C K w : Nat}

/-- Row p of A times column q of W. -/
def dense (A : Fin N → Fin K → EReal) (W : Fin K → Fin C → EReal) (p : Fin N) (q : Fin C) : EReal :=
  ∑ k : Fin K, A p k * W k q

/-- Bias added along the rows, then tanh. -/
def act (L : Fin N → Fin C → EReal) (b : Fin C → EReal) (p : Fin N) (q : Fin C) : EReal :=
  Ideal.tanh (L p q + b q)

section Layer

variable (hN : 0 < N) (wfS : ScatterDims.WF ⟨2, ![N, C]⟩ ⟨2, ![E, 1]⟩ ⟨2, ![E, C]⟩ [1] [0] [0] 1)
  (S D Dw : IVec ⟨2, ![E, 1]⟩ w) (d : Fin N → EReal)

/-- The rows U(e, ·) of the edges added at node n, summed. -/
def landed (U : Fin E → Fin C → EReal) (n : Fin N) (q : Fin C) : EReal :=
  Ideal.hostScatterAdd (rowScatterDims N E C wfS) (fun _ => 0) D (fun u => U (u 0) (u 1)) (ix2 n q)

/-- Rows scaled by d at their source before they are taken, the sum at n scaled by d(n). -/
def aggSplit (H : Fin N → Fin C → EReal) (n : Fin N) (q : Fin C) : EReal :=
  landed wfS D (fun e q' => H (clampRow N hN S e) q' * d (clampRow N hN S e)) n q * d n

/-- Rows taken unscaled, each scaled by d(source) · d(destination) before the sum. -/
def aggEdge (H : Fin N → Fin C → EReal) (n : Fin N) (q : Fin C) : EReal :=
  landed wfS D (fun e q' => H (clampRow N hN S e) q' * (d (clampRow N hN S e) * d (clampRow N hN Dw e))) n q

/-- The two arrangements of one layer's aggregation agree. -/
theorem aggSplit_eq_aggEdge (hd : ∀ n, 0 ≤ d n ∧ d n ≠ ⊤)
    (hwrap : ∀ (e : Fin E) (n : Fin N), (D (ix2 e (0 : Fin 1))).toInt = (n.val : Int) → clampRow N hN Dw e = n)
    (H : Fin N → Fin C → EReal) : aggSplit hN wfS S D d H = aggEdge hN wfS S D Dw d H := by
  funext n q
  unfold aggSplit aggEdge landed
  refine scatter_rows_scaled hN wfS D _ _ d hd (fun e c n' hi => ?_) n q
  show _ * (d _ * d (clampRow N hN Dw e)) = _ * d _ * d n'
  rw [hwrap e n' hi, mul_assoc]

end Layer

section TwoLayers

variable (hN : 0 < N) (wfS : ScatterDims.WF ⟨2, ![N, C]⟩ ⟨2, ![E, 1]⟩ ⟨2, ![E, C]⟩ [1] [0] [0] 1)
  (S D Dw : IVec ⟨2, ![E, 1]⟩ w) (d : Fin N → EReal)
  (X : Fin N → Fin K → EReal) (W1 : Fin K → Fin C → EReal) (b1 : Fin C → EReal)
  (W2 : Fin C → Fin C → EReal) (b2 : Fin C → EReal)

/-- Two layers, node-side scaling. -/
def netSplit : Fin N → Fin C → EReal :=
  act (aggSplit hN wfS S D d (dense (act (aggSplit hN wfS S D d (dense X W1)) b1) W2)) b2

/-- Two layers, edge-side scaling. -/
def netEdge : Fin N → Fin C → EReal :=
  act (aggEdge hN wfS S D Dw d (dense (act (aggEdge hN wfS S D Dw d (dense X W1)) b1) W2)) b2

/-- The two arrangements of the two-layer network agree: the law of one layer, used at each layer. -/
theorem netSplit_eq_netEdge (hd : ∀ n, 0 ≤ d n ∧ d n ≠ ⊤)
    (hwrap : ∀ (e : Fin E) (n : Fin N), (D (ix2 e (0 : Fin 1))).toInt = (n.val : Int) → clampRow N hN Dw e = n) :
    netSplit hN wfS S D d X W1 b1 W2 b2 = netEdge hN wfS S D Dw d X W1 b1 W2 b2 := by
  unfold netSplit netEdge
  rw [aggSplit_eq_aggEdge hN wfS S D Dw d hd hwrap, aggSplit_eq_aggEdge hN wfS S D Dw d hd hwrap]

end TwoLayers

/-! ## The per-node factor -/

/-- "If the count is positive then its inverse square root else 0" is nonnegative and finite at every natural count. -/
theorem guarded_rsqrt_nonneg_ne_top (t : EReal) (k : ℕ) (ht : t = ((k : ℕ) : EReal)) :
    0 ≤ Scalar.select (Ideal.cmp .ogt t 0) (Ideal.rsqrt t) (0 : EReal)
      ∧ Scalar.select (Ideal.cmp .ogt t 0) (Ideal.rsqrt t) (0 : EReal) ≠ ⊤ := by
  subst ht
  rcases Nat.eq_zero_or_pos k with hk | hk
  · subst hk
    have hc : Ideal.cmp .ogt (((0 : ℕ) : EReal)) 0 = 0#1 := by
      show BitVec.ofBool (decide ((0 : EReal) < ((0 : ℕ) : EReal))) = 0#1
      rw [decide_eq_false (by simp)]; rfl
    rw [hc, select_zero]
    exact ⟨le_refl _, EReal.zero_ne_top⟩
  · have h0 : (0 : EReal) < ((k : ℕ) : EReal) := by exact_mod_cast hk
    have hc : Ideal.cmp .ogt (((k : ℕ) : EReal)) 0 = 1#1 := by
      show BitVec.ofBool (decide ((0 : EReal) < ((k : ℕ) : EReal))) = 1#1
      rw [decide_eq_true h0]; rfl
    rw [hc, select_one]
    exact Cert.LibCount.rsqrt_count_nonneg_ne_top k hk

/-- Ones scattered into zeros count: the entry at n is a natural number. -/
theorem count_nat (wfV : ScatterDims.WF ⟨1, ![N]⟩ ⟨2, ![E, 1]⟩ ⟨1, ![E]⟩ [] [0] [0] 1)
    (D : IVec ⟨2, ![E, 1]⟩ w) (n : Fin N) :
    ∃ k : ℕ, Ideal.hostScatterAdd (Cert.LibCount.vecScatterDims N E wfV) (fun _ => 0) D (fun _ => 1) (ix1 n)
      = ((k : ℕ) : EReal) := by
  unfold Ideal.hostScatterAdd
  simp only [zero_add]
  rw [Finset.sum_const, nsmul_one]
  exact ⟨_, rfl⟩

end Cert.GraphConv

end
-- ==== Proof.Names.lean ====
/-
  The graph's index arrays and the per-node factor, as functions of the edge list (the [2, 3200000] integer argument):
  every edge's source read for a row gather, its destination read for a scatter-add and for a gather, and the inverse
  square root of each node's in-degree (self-loops added), 0 at degree 0. Both programs compute them by the same host
  operations; they are named once here, over the reference's reading of them.
-/
import proofs.«162709_j51788715655810_2_alg».proof.Proof.RefReadP
import proofs.«162709_j51788715655810_2_alg».proof.Proof.LibSplitNorm

noncomputable section

namespace Cert.GraphConv

open Idealize.ShloMosaic Idealize.ShloMosaic.ValueIdx Cert.ReferenceIdeal Cert.ReferenceIdeal.ReadP

/-- The edge list: row 0 the sources, row 1 the destinations. -/
abbrev EdgeList : Type := (⟨S2x3200000, .i32⟩ : BufTy).Contents (Elt Ideal)

/-- Start indices of the row gather: the source of every edge (self-loops appended), a negative one moved up by the
    number of nodes, as a column. -/
def srcCol (x1 : EdgeList) : IVec ⟨2, ![3300000, 1]⟩ 32 := val_main_v36 (F := Ideal) x1

/-- Indices of the scatter-add: the destination of every edge (self-loops appended), as a column. -/
def dstCol (x1 : EdgeList) : IVec ⟨2, ![3300000, 1]⟩ 32 := val_main_v42 (F := Ideal) x1

/-- The destinations prepared for a gather: a negative one moved up by the number of nodes. -/
def dstWrapCol (x1 : EdgeList) : IVec ⟨2, ![3300000, 1]⟩ 32 := val_main_v28 (F := Ideal) x1

/-- The per-node factor: the inverse square root of the node's in-degree where that is positive, else 0. -/
def nodeFactor (x1 : EdgeList) (n : Fin 100000) : EReal := val_main_v15 (F := Ideal) x1 (ix1 n)

theorem nodes_pos : 0 < 100000 := by decide

end Cert.GraphConv

end
-- ==== Proof.LibRecast.lean ====
/-
  A vector recast as a one-row matrix or as a one-column matrix, read at an index: the row's entry k, and the column's
  entry e, are the vector's entries k and e. (A reshape keeps the row-major position, and the position of (0, k) in a
  1 × n matrix, like that of (e, 0) in an n × 1 matrix, is the position in the vector.)
-/
import Idealize.ShloMosaic.Lib.ValueIdx
import Idealize.ShloMosaic.Lib.Pipeline.Value

noncomputable section

namespace Cert.LibRecast

open Idealize.ShloMosaic Idealize.ShloMosaic.ValueIdx

variable {α : Type}

/-- A vector recast as one row, at (0, k). -/
theorem as_row_apply {n : ℕ} (x : (⟨1, ![n]⟩ : Shape).Idx → α) (h : (⟨1, ![n]⟩ : Shape).ShapeCasts ⟨2, ![1, n]⟩) (k : Fin n) :
    shapeCast ⟨2, ![1, n]⟩ x h (ix2 (0 : Fin 1) k) = x (ix1 k) := by
  refine shapeCast_apply x h (ix2 (0 : Fin 1) k) (ix1 k) ?_
  rewrite [Shape.rowMajor_val_two, Shape.rowMajor_val_one]
  show k.val = 0 * n + k.val
  omega

/-- A vector recast as one column, at (e, 0). -/
theorem as_column_apply {n : ℕ} (x : (⟨1, ![n]⟩ : Shape).Idx → α) (h : (⟨1, ![n]⟩ : Shape).ShapeCasts ⟨2, ![n, 1]⟩) (e : Fin n) :
    shapeCast ⟨2, ![n, 1]⟩ x h (ix2 e (0 : Fin 1)) = x (ix1 e) := by
  refine shapeCast_apply x h (ix2 e (0 : Fin 1)) (ix1 e) ?_
  rewrite [Shape.rowMajor_val_two, Shape.rowMajor_val_one]
  show e.val = e.val * 1 + 0
  omega

end Cert.LibRecast

end
-- ==== Proof.KernelChain.lean ====
/-
  The buffer contents the three regions are entered with, read back through the host stretches to the launch memory.

  Before the first region the host program builds, from the edge list, the two index vectors (sources and
  destinations with the self-loops appended) and the per-node factor as a column; between the regions it gathers the
  previous region's output rows at the sources, scatter-adds them into zeros at the destinations, and recasts the bias
  vector as a row. Each stretch is first read as a function of ARBITRARY starting contents (so nothing upstream is
  unfolded), then the starting contents are walked back: an argument array, an index vector and the factor column are
  written once and kept by every later stretch and by every region (a region changes only its output array).
  The index vectors and the factor are the same terms of the edge list that the reference program computes; they are
  stated under the reference's names for them.
-/
import proofs.«162709_j51788715655810_2_alg».proof.Proof.Gen.KernelIdeal.Frame
import proofs.«162709_j51788715655810_2_alg».proof.Proof.Names
import proofs.«162709_j51788715655810_2_alg».proof.Proof.LibRecast

set_option maxRecDepth 16384

noncomputable section

namespace Cert.KernelIdeal.Chain

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen Idealize.ShloMosaic.StableHlo
open Cert.GraphConv Idealize.ShloMosaic.ValueIdx

/-- Contents of every TensorCore buffer of one core. -/
abbrev Val := Valuation τ sig (Elt Ideal)

/-! ## The first stretch, from arbitrary contents -/

theorem first_src (Wp : Val) : StableHlo.after hostOps0 Wp (Proc.devRef .tc main_v5)
    = Cert.ReferenceIdeal.ReadP.val_main_v6 (F := Ideal) (Wp (Proc.devRef .tc main_arg1)) := by
  after_results
  rfl

theorem first_dst (Wp : Val) : StableHlo.after hostOps0 Wp (Proc.devRef .tc main_v6)
    = Cert.ReferenceIdeal.ReadP.val_main_v7 (F := Ideal) (Wp (Proc.devRef .tc main_arg1)) := by
  after_results
  rfl

theorem first_positive (Wp : Val) : StableHlo.after hostOps0 Wp (Proc.devRef .tc main_v12)
    = Cert.ReferenceIdeal.ReadP.val_main_v13 (F := Ideal) (Wp (Proc.devRef .tc main_arg1)) := by
  after_results
  rfl

theorem first_rsqrt (Wp : Val) : StableHlo.after hostOps0 Wp (Proc.devRef .tc main_v13)
    = Cert.ReferenceIdeal.ReadP.val_main_v14 (F := Ideal) (Wp (Proc.devRef .tc main_arg1)) := by
  after_results
  rfl

theorem first_zero (Wp : Val) : StableHlo.after hostOps0 Wp (Proc.devRef .tc main_cst_2)
    = constant (F := Ideal) S_ .f32 0x00000000#32 := by
  after_results

theorem first_keeps_arg0 (Wp : Val) : StableHlo.after hostOps0 Wp (Proc.devRef .tc main_arg0) = Wp (Proc.devRef .tc main_arg0) := by
  after_results
theorem first_keeps_arg2 (Wp : Val) : StableHlo.after hostOps0 Wp (Proc.devRef .tc main_arg2) = Wp (Proc.devRef .tc main_arg2) := by
  after_results
theorem first_keeps_arg3 (Wp : Val) : StableHlo.after hostOps0 Wp (Proc.devRef .tc main_arg3) = Wp (Proc.devRef .tc main_arg3) := by
  after_results
theorem first_keeps_arg4 (Wp : Val) : StableHlo.after hostOps0 Wp (Proc.devRef .tc main_arg4) = Wp (Proc.devRef .tc main_arg4) := by
  after_results
theorem first_keeps_arg5 (Wp : Val) : StableHlo.after hostOps0 Wp (Proc.devRef .tc main_arg5) = Wp (Proc.devRef .tc main_arg5) := by
  after_results

/-! ## The guard "positive count ? inverse square root : 0", from arbitrary contents -/

/-- The select of the guard, over the three buffers it reads. -/
theorem guard_select (Wq : Val) (pos : (⟨S100000, .i1⟩ : BufTy).Contents (Elt Ideal))
    (rs : (⟨S100000, .f32⟩ : BufTy).Contents (Elt Ideal)) (z : (⟨S_, .f32⟩ : BufTy).Contents (Elt Ideal))
    (hpos : Wq (Proc.devRef .tc main_v12) = pos) (hrs : Wq (Proc.devRef .tc main_v13) = rs)
    (hz : Wq (Proc.devRef .tc main_cst_2) = z) :
    StableHlo.after hostOps0_1 Wq (Proc.devRef .tc main_v14)
      = select pos rs (broadcastInDim S100000 ![] bcast_S_S100000 (id z)) := by
  after_results
  subst hpos hrs hz
  rfl

theorem guard_keeps_src (Wp : Val) : StableHlo.after hostOps0_1 Wp (Proc.devRef .tc main_v5) = Wp (Proc.devRef .tc main_v5) := by
  after_results
theorem guard_keeps_dst (Wp : Val) : StableHlo.after hostOps0_1 Wp (Proc.devRef .tc main_v6) = Wp (Proc.devRef .tc main_v6) := by
  after_results
theorem guard_keeps_arg0 (Wp : Val) : StableHlo.after hostOps0_1 Wp (Proc.devRef .tc main_arg0) = Wp (Proc.devRef .tc main_arg0) := by
  after_results
theorem guard_keeps_arg2 (Wp : Val) : StableHlo.after hostOps0_1 Wp (Proc.devRef .tc main_arg2) = Wp (Proc.devRef .tc main_arg2) := by
  after_results
theorem guard_keeps_arg3 (Wp : Val) : StableHlo.after hostOps0_1 Wp (Proc.devRef .tc main_arg3) = Wp (Proc.devRef .tc main_arg3) := by
  after_results
theorem guard_keeps_arg4 (Wp : Val) : StableHlo.after hostOps0_1 Wp (Proc.devRef .tc main_arg4) = Wp (Proc.devRef .tc main_arg4) := by
  after_results
theorem guard_keeps_arg5 (Wp : Val) : StableHlo.after hostOps0_1 Wp (Proc.devRef .tc main_arg5) = Wp (Proc.devRef .tc main_arg5) := by
  after_results

/-! ## The factor recast as a column, from arbitrary contents -/

/-- Entry (p, 0) of the column is entry p of the vector. -/
theorem column_apply (Wr : Val) (v : (⟨S100000, .f32⟩ : BufTy).Contents (Elt Ideal))
    (hv : Wr (Proc.devRef .tc main_v14) = v) (p : Fin 100000) :
    (StableHlo.after hostOps0_2 Wr (Proc.devRef .tc main_v15) : S100000x1.Idx → EReal) (ix2 p (0 : Fin 1)) = v (ix1 p) := by
  after_results
  subst hv
  exact Cert.LibRecast.as_column_apply _ shapeCasts_S100000_S100000x1 p

theorem column_keeps_src (Wp : Val) : StableHlo.after hostOps0_2 Wp (Proc.devRef .tc main_v5) = Wp (Proc.devRef .tc main_v5) := by
  after_results
theorem column_keeps_dst (Wp : Val) : StableHlo.after hostOps0_2 Wp (Proc.devRef .tc main_v6) = Wp (Proc.devRef .tc main_v6) := by
  after_results
theorem column_keeps_arg0 (Wp : Val) : StableHlo.after hostOps0_2 Wp (Proc.devRef .tc main_arg0) = Wp (Proc.devRef .tc main_arg0) := by
  after_results
theorem column_keeps_arg2 (Wp : Val) : StableHlo.after hostOps0_2 Wp (Proc.devRef .tc main_arg2) = Wp (Proc.devRef .tc main_arg2) := by
  after_results
theorem column_keeps_arg3 (Wp : Val) : StableHlo.after hostOps0_2 Wp (Proc.devRef .tc main_arg3) = Wp (Proc.devRef .tc main_arg3) := by
  after_results
theorem column_keeps_arg4 (Wp : Val) : StableHlo.after hostOps0_2 Wp (Proc.devRef .tc main_arg4) = Wp (Proc.devRef .tc main_arg4) := by
  after_results
theorem column_keeps_arg5 (Wp : Val) : StableHlo.after hostOps0_2 Wp (Proc.devRef .tc main_arg5) = Wp (Proc.devRef .tc main_arg5) := by
  after_results

/-! ## The stretch between regions 0 and 1, from arbitrary contents -/

/-- The aggregate: rows of the previous output gathered at the sources, scatter-added into zeros at the destinations. -/
theorem mid_aggregate (Wp : Val) (src dst : (⟨S3300000, .i32⟩ : BufTy).Contents (Elt Ideal))
    (out : (⟨S100000x16, .f32⟩ : BufTy).Contents (Elt Ideal))
    (hsrc : Wp (Proc.devRef .tc main_v5) = src) (hdst : Wp (Proc.devRef .tc main_v6) = dst)
    (hout : Wp (Proc.devRef .tc main_v16) = out) :
    StableHlo.after hostOps1 Wp (Proc.devRef .tc main_v26)
      = Host.scatterAdd scatter_S100000x16_S3300000x1_S3300000x16_1_0_0_1
          (broadcastInDim S100000x16 ![] bcast_S_S100000x16 (constant (F := Ideal) S_ .f32 0x00000000#32))
          (broadcastInDim S3300000x1 ![0] bcast_S3300000_S3300000x1_0 dst)
          (Host.gather gather_S100000x16_S3300000x1_S3300000x16_1_0_n_n_0_1_116 out
            (broadcastInDim S3300000x1 ![0] bcast_S3300000_S3300000x1_0
              (select (cmpi .slt src (broadcastInDim S3300000 ![] bcast_S_S3300000 (constantI S_ 32 0#32)))
                (addi src (broadcastInDim S3300000 ![] bcast_S_S3300000 (constantI S_ 32 100000#32))) src))) := by
  after_results
  subst hsrc hdst hout
  rfl

/-- The bias recast as a row: entry (0, k) is entry k of the vector. -/
theorem mid_bias_apply (Wp : Val) (b : (⟨S16, .f32⟩ : BufTy).Contents (Elt Ideal))
    (hb : Wp (Proc.devRef .tc main_arg3) = b) (k : Fin 16) :
    (StableHlo.after hostOps1 Wp (Proc.devRef .tc main_v27) : S1x16.Idx → EReal) (ix2 (0 : Fin 1) k) = b (ix1 k) := by
  after_results
  subst hb
  exact Cert.LibRecast.as_row_apply _ shapeCasts_S16_S1x16 k

theorem mid_keeps_src (Wp : Val) : StableHlo.after hostOps1 Wp (Proc.devRef .tc main_v5) = Wp (Proc.devRef .tc main_v5) := by
  after_results
theorem mid_keeps_dst (Wp : Val) : StableHlo.after hostOps1 Wp (Proc.devRef .tc main_v6) = Wp (Proc.devRef .tc main_v6) := by
  after_results
theorem mid_keeps_column (Wp : Val) : StableHlo.after hostOps1 Wp (Proc.devRef .tc main_v15) = Wp (Proc.devRef .tc main_v15) := by
  after_results
theorem mid_keeps_arg4 (Wp : Val) : StableHlo.after hostOps1 Wp (Proc.devRef .tc main_arg4) = Wp (Proc.devRef .tc main_arg4) := by
  after_results
theorem mid_keeps_arg5 (Wp : Val) : StableHlo.after hostOps1 Wp (Proc.devRef .tc main_arg5) = Wp (Proc.devRef .tc main_arg5) := by
  after_results

/-! ## The stretch between regions 1 and 2, from arbitrary contents -/

theorem last_aggregate (Wp : Val) (src dst : (⟨S3300000, .i32⟩ : BufTy).Contents (Elt Ideal))
    (out : (⟨S100000x16, .f32⟩ : BufTy).Contents (Elt Ideal))
    (hsrc : Wp (Proc.devRef .tc main_v5) = src) (hdst : Wp (Proc.devRef .tc main_v6) = dst)
    (hout : Wp (Proc.devRef .tc main_v28) = out) :
    StableHlo.after hostOps2 Wp (Proc.devRef .tc main_v38)
      = Host.scatterAdd scatter_S100000x16_S3300000x1_S3300000x16_1_0_0_1
          (broadcastInDim S100000x16 ![] bcast_S_S100000x16 (constant (F := Ideal) S_ .f32 0x00000000#32))
          (broadcastInDim S3300000x1 ![0] bcast_S3300000_S3300000x1_0 dst)
          (Host.gather gather_S100000x16_S3300000x1_S3300000x16_1_0_n_n_0_1_116 out
            (broadcastInDim S3300000x1 ![0] bcast_S3300000_S3300000x1_0
              (select (cmpi .slt src (broadcastInDim S3300000 ![] bcast_S_S3300000 (constantI S_ 32 0#32)))
                (addi src (broadcastInDim S3300000 ![] bcast_S_S3300000 (constantI S_ 32 100000#32))) src))) := by
  after_results
  subst hsrc hdst hout
  rfl

theorem last_bias_apply (Wp : Val) (b : (⟨S16, .f32⟩ : BufTy).Contents (Elt Ideal))
    (hb : Wp (Proc.devRef .tc main_arg5) = b) (k : Fin 16) :
    (StableHlo.after hostOps2 Wp (Proc.devRef .tc main_v39) : S1x16.Idx → EReal) (ix2 (0 : Fin 1) k) = b (ix1 k) := by
  after_results
  subst hb
  exact Cert.LibRecast.as_row_apply _ shapeCasts_S16_S1x16 k

theorem last_keeps_column (Wp : Val) : StableHlo.after hostOps2 Wp (Proc.devRef .tc main_v15) = Wp (Proc.devRef .tc main_v15) := by
  after_results

end Cert.KernelIdeal.Chain

end
-- ==== Proof.KernelEntry.lean ====
/-
  What each region is entered with, in terms of the launch memory: the stretches of the chain composed along the run.
  An index vector and the factor column are written before the first region and kept by everything after; an argument
  array is never written; a region changes only its own output array.
-/
import proofs.«162709_j51788715655810_2_alg».proof.Proof.KernelChain

set_option maxRecDepth 16384

noncomputable section

namespace Cert.KernelIdeal.Entry

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen Idealize.ShloMosaic.StableHlo
open Cert.GraphConv Idealize.ShloMosaic.ValueIdx Cert.KernelIdeal.Chain

variable (m : (ℓ : Loc nD τ sig) → Buf (Elt Ideal) ℓ) (ρ : Dev nD → PrngReg) (c : Dev nD)

/-- The edge list as launched. -/
abbrev edges : EdgeList := m ((c : Thread nD τ).loc main_arg1)

/-! ## The index vectors -/

theorem src_at_region0 : W3 m ρ c (Proc.devRef .tc main_v5) = Cert.ReferenceIdeal.ReadP.val_main_v6 (F := Ideal) (edges m c) :=
  (column_keeps_src (W2 m ρ c)).trans ((guard_keeps_src (W1 m ρ c)).trans (first_src (W0 m ρ c)))
theorem dst_at_region0 : W3 m ρ c (Proc.devRef .tc main_v6) = Cert.ReferenceIdeal.ReadP.val_main_v7 (F := Ideal) (edges m c) :=
  (column_keeps_dst (W2 m ρ c)).trans ((guard_keeps_dst (W1 m ρ c)).trans (first_dst (W0 m ρ c)))
theorem src_after_region0 : W4 m ρ c (Proc.devRef .tc main_v5) = Cert.ReferenceIdeal.ReadP.val_main_v6 (F := Ideal) (edges m c) :=
  (W4_of_ne m ρ c main_v5 (by decide)).trans (src_at_region0 m ρ c)
theorem dst_after_region0 : W4 m ρ c (Proc.devRef .tc main_v6) = Cert.ReferenceIdeal.ReadP.val_main_v7 (F := Ideal) (edges m c) :=
  (W4_of_ne m ρ c main_v6 (by decide)).trans (dst_at_region0 m ρ c)
theorem src_after_region1 : W6 m ρ c (Proc.devRef .tc main_v5) = Cert.ReferenceIdeal.ReadP.val_main_v6 (F := Ideal) (edges m c) :=
  (W6_of_ne m ρ c main_v5 (by decide)).trans ((mid_keeps_src (W4 m ρ c)).trans (src_after_region0 m ρ c))
theorem dst_after_region1 : W6 m ρ c (Proc.devRef .tc main_v6) = Cert.ReferenceIdeal.ReadP.val_main_v7 (F := Ideal) (edges m c) :=
  (W6_of_ne m ρ c main_v6 (by decide)).trans ((mid_keeps_dst (W4 m ρ c)).trans (dst_after_region0 m ρ c))

/-! ## The per-node factor -/

theorem factor_vector : W2 m ρ c (Proc.devRef .tc main_v14) = Cert.ReferenceIdeal.ReadP.val_main_v15 (F := Ideal) (edges m c) :=
  (guard_select (W1 m ρ c) _ _ _ (first_positive (W0 m ρ c)) (first_rsqrt (W0 m ρ c)) (first_zero (W0 m ρ c))).trans rfl

/-- Entry (p, 0) of the factor column, as region 0 finds it. -/
theorem column_at_region0 (p : Fin 100000) :
    (V3 m ρ c main_v15 : S100000x1.Idx → EReal) (ix2 p (0 : Fin 1)) = nodeFactor (edges m c) p :=
  column_apply (W2 m ρ c) _ (factor_vector m ρ c) p

theorem column_after_region0 : W4 m ρ c (Proc.devRef .tc main_v15) = W3 m ρ c (Proc.devRef .tc main_v15) :=
  (W4_arr m ρ c 2).trans (((dat0 (V3 m ρ) c).arrAt_in 2 rfl _).trans (A_eq0 (V3 m ρ) c 2))
theorem column_at_region1 : V5 m ρ c main_v15 = V3 m ρ c main_v15 :=
  (mid_keeps_column (W4 m ρ c)).trans (column_after_region0 m ρ c)
theorem column_after_region1 : W6 m ρ c (Proc.devRef .tc main_v15) = W3 m ρ c (Proc.devRef .tc main_v15) :=
  ((W6_arr m ρ c 1).trans (((dat1 (V5 m ρ) c).arrAt_in 1 rfl _).trans (A_eq1 (V5 m ρ) c 1))).trans (column_at_region1 m ρ c)
theorem column_at_region2 : V7 m ρ c main_v15 = V3 m ρ c main_v15 :=
  (last_keeps_column (W6 m ρ c)).trans (column_after_region1 m ρ c)

/-! ## The argument arrays -/

theorem x_at_region0 : V3 m ρ c main_arg0 = m ((c : Thread nD τ).loc main_arg0) :=
  (column_keeps_arg0 (W2 m ρ c)).trans ((guard_keeps_arg0 (W1 m ρ c)).trans (first_keeps_arg0 (W0 m ρ c)))
theorem w1_at_region0 : V3 m ρ c main_arg2 = m ((c : Thread nD τ).loc main_arg2) :=
  (column_keeps_arg2 (W2 m ρ c)).trans ((guard_keeps_arg2 (W1 m ρ c)).trans (first_keeps_arg2 (W0 m ρ c)))
theorem b1_at_region0 : W3 m ρ c (Proc.devRef .tc main_arg3) = m ((c : Thread nD τ).loc main_arg3) :=
  (column_keeps_arg3 (W2 m ρ c)).trans ((guard_keeps_arg3 (W1 m ρ c)).trans (first_keeps_arg3 (W0 m ρ c)))
theorem w2_at_region0 : W3 m ρ c (Proc.devRef .tc main_arg4) = m ((c : Thread nD τ).loc main_arg4) :=
  (column_keeps_arg4 (W2 m ρ c)).trans ((guard_keeps_arg4 (W1 m ρ c)).trans (first_keeps_arg4 (W0 m ρ c)))
theorem b2_at_region0 : W3 m ρ c (Proc.devRef .tc main_arg5) = m ((c : Thread nD τ).loc main_arg5) :=
  (column_keeps_arg5 (W2 m ρ c)).trans ((guard_keeps_arg5 (W1 m ρ c)).trans (first_keeps_arg5 (W0 m ρ c)))
theorem b1_after_region0 : W4 m ρ c (Proc.devRef .tc main_arg3) = m ((c : Thread nD τ).loc main_arg3) :=
  (W4_of_ne m ρ c main_arg3 (by decide)).trans (b1_at_region0 m ρ c)
theorem w2_at_region1 : V5 m ρ c main_arg4 = m ((c : Thread nD τ).loc main_arg4) :=
  (mid_keeps_arg4 (W4 m ρ c)).trans ((W4_of_ne m ρ c main_arg4 (by decide)).trans (w2_at_region0 m ρ c))
theorem b2_after_region1 : W6 m ρ c (Proc.devRef .tc main_arg5) = m ((c : Thread nD τ).loc main_arg5) :=
  (W6_of_ne m ρ c main_arg5 (by decide)).trans ((mid_keeps_arg5 (W4 m ρ c)).trans
    ((W4_of_ne m ρ c main_arg5 (by decide)).trans (b2_at_region0 m ρ c)))

/-! ## The aggregates and bias rows the second and third regions are entered with -/

/-- Region 1's aggregate input: region 0's output rows gathered at the sources and scatter-added at the destinations. -/
theorem aggregate_at_region1 :
    V5 m ρ c main_v26
      = Host.scatterAdd scatter_S100000x16_S3300000x1_S3300000x16_1_0_0_1
          (broadcastInDim S100000x16 ![] bcast_S_S100000x16 (constant (F := Ideal) S_ .f32 0x00000000#32))
          (broadcastInDim S3300000x1 ![0] bcast_S3300000_S3300000x1_0 (Cert.ReferenceIdeal.ReadP.val_main_v7 (F := Ideal) (edges m c)))
          (Host.gather gather_S100000x16_S3300000x1_S3300000x16_1_0_n_n_0_1_116 ((dat0 (V3 m ρ) c).arrAt 3 cfg0.N)
            (broadcastInDim S3300000x1 ![0] bcast_S3300000_S3300000x1_0
              (select (cmpi .slt (Cert.ReferenceIdeal.ReadP.val_main_v6 (F := Ideal) (edges m c)) (broadcastInDim S3300000 ![] bcast_S_S3300000 (constantI S_ 32 0#32)))
                (addi (Cert.ReferenceIdeal.ReadP.val_main_v6 (F := Ideal) (edges m c)) (broadcastInDim S3300000 ![] bcast_S_S3300000 (constantI S_ 32 100000#32)))
                (Cert.ReferenceIdeal.ReadP.val_main_v6 (F := Ideal) (edges m c))))) :=
  mid_aggregate (W4 m ρ c) _ _ _ (src_after_region0 m ρ c) (dst_after_region0 m ρ c) (W4_arr m ρ c 3)

theorem bias_at_region1 (k : Fin 16) :
    (V5 m ρ c main_v27 : S1x16.Idx → EReal) (ix2 (0 : Fin 1) k) = (m ((c : Thread nD τ).loc main_arg3) : S16.Idx → EReal) (ix1 k) :=
  mid_bias_apply (W4 m ρ c) _ (b1_after_region0 m ρ c) k

/-- Region 2's aggregate input: region 1's output rows gathered at the sources and scatter-added at the destinations. -/
theorem aggregate_at_region2 :
    V7 m ρ c main_v38
      = Host.scatterAdd scatter_S100000x16_S3300000x1_S3300000x16_1_0_0_1
          (broadcastInDim S100000x16 ![] bcast_S_S100000x16 (constant (F := Ideal) S_ .f32 0x00000000#32))
          (broadcastInDim S3300000x1 ![0] bcast_S3300000_S3300000x1_0 (Cert.ReferenceIdeal.ReadP.val_main_v7 (F := Ideal) (edges m c)))
          (Host.gather gather_S100000x16_S3300000x1_S3300000x16_1_0_n_n_0_1_116 ((dat1 (V5 m ρ) c).arrAt 4 cfg1.N)
            (broadcastInDim S3300000x1 ![0] bcast_S3300000_S3300000x1_0
              (select (cmpi .slt (Cert.ReferenceIdeal.ReadP.val_main_v6 (F := Ideal) (edges m c)) (broadcastInDim S3300000 ![] bcast_S_S3300000 (constantI S_ 32 0#32)))
                (addi (Cert.ReferenceIdeal.ReadP.val_main_v6 (F := Ideal) (edges m c)) (broadcastInDim S3300000 ![] bcast_S_S3300000 (constantI S_ 32 100000#32)))
                (Cert.ReferenceIdeal.ReadP.val_main_v6 (F := Ideal) (edges m c))))) :=
  last_aggregate (W6 m ρ c) _ _ _ (src_after_region1 m ρ c) (dst_after_region1 m ρ c) (W6_arr m ρ c 4)

theorem bias_at_region2 (k : Fin 16) :
    (V7 m ρ c main_v39 : S1x16.Idx → EReal) (ix2 (0 : Fin 1) k) = (m ((c : Thread nD τ).loc main_arg5) : S16.Idx → EReal) (ix1 k) :=
  last_bias_apply (W6 m ρ c) _ (b2_after_region1 m ρ c) k

end Cert.KernelIdeal.Entry

end
-- ==== Proof.LibMatmul.lean ====
/-
  A plain matrix product read at an index: for the dimension numbers that contract the left operand's second
  axis with the right operand's first (rows × inner times inner × columns, no batch axis), a product into the
  zero accumulator is, at `(i, j)`, the sum over the inner coordinate `k` of `lhs (i, k) · rhs (k, j)`.
-/
import Idealize.ShloMosaic.PureOps.Ideal.Laws
import Idealize.ShloMosaic.Lib.ValueIdx

noncomputable section

namespace Idealize.ShloMosaic.ValueIdx

/-- The plain product into the zero accumulator, at `(i, j)`, as a sum over the inner coordinate. -/
theorem matmul_plain_zero_apply (M K N : ℕ) {φ₁ φ₂ : FTy} (prec : Option ContractPrecision)
    (lhs : FVec Ideal ⟨2, ![M, K]⟩ φ₁) (rhs : FVec Ideal ⟨2, ![K, N]⟩ φ₂) (i : Fin M) (j : Fin N) :
    FloatOps.matmul (DotDims.plain M K N) prec lhs rhs (constant ⟨2, ![M, N]⟩ .f32 0x00000000#32) (ix2 i j)
      = ∑ k : Fin K, lhs (ix2 i k) * rhs (ix2 k j) := by
  rw [Ideal.matmul_constant_zero_apply, ← Equiv.sum_comp (contrEquiv1 (DotDims.plain M K N) K rfl rfl).symm]
  refine Finset.sum_congr rfl fun k _ => ?_
  have hk := contrEquiv1_symm_val (DotDims.plain M K N) K rfl rfl k
  have el : (DotDims.plain M K N).lhsIdx (ix2 i j) ((contrEquiv1 (DotDims.plain M K N) K rfl rfl).symm k) = ix2 i k :=
    funext fun a => Fin.ext (by
      match a with
      | ⟨0, _⟩ => rfl
      | ⟨1, _⟩ => exact hk)
  have er : (DotDims.plain M K N).rhsIdx (ix2 i j) ((contrEquiv1 (DotDims.plain M K N) K rfl rfl).symm k) = ix2 k j :=
    funext fun a => Fin.ext (by
      match a with
      | ⟨0, _⟩ => exact hk
      | ⟨1, _⟩ => rfl)
  rw [el, er]

end Idealize.ShloMosaic.ValueIdx

end
-- ==== Proof.LibKeepdims.lean ====
/-
  What every row-wise reduction with kept dimensions needs, read at an index: a vector of `a` entries cast to
  a column `[a, 1]`; a column `[a, 1]` broadcast along a new second axis to `[a, b]`; and the sum and the
  maximum of the rows of an `[a, b]` matrix, at row `r`, as a sum and a fold of `max` over the `b` entries of
  that row.
-/
import Idealize.ShloMosaic.Lib.Pipeline.Value
import Idealize.ShloMosaic.Lib.ValueIdx
import Idealize.ShloMosaic.PureOps.Ideal.Laws

noncomputable section

namespace Idealize.ShloMosaic.ValueIdx

variable {α : Type}

/-- An `[a]` array cast to the column `[a, 1]` reads, at `(i, u)`, the operand at `i`, whatever the unit coordinate `u`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- A column `[a, 1]` broadcast to `[a, b]` reads, at `(p, c)`, the operand's one entry of row `p`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- Row `r` of an `[a, b]` matrix with coordinate `k` of the reduced second axis put back is `(r, k)`. -/
theorem lift_rows {a b : ℕ} (h : (⟨2, ![a, b]⟩ : Shape).Reduces [1] (⟨1, ![a]⟩ : Shape)) (r : Fin a)
    (k : Fin ((⟨2, ![a, b]⟩ : Shape).size 1)) : h.lift (ix1 r) k = ix2 r (⟨k.val, k.isLt⟩ : Fin b) := by
  funext c; apply Fin.ext
  fin_cases c <;> rfl

/-- The sum over the second axis of an `[a, b]` matrix, at row `r`, is the sum of that row's `b` entries. -/
theorem multiReduction_add_rows_apply {a b : ℕ} {φ : FTy} (src : FVec Ideal ⟨2, ![a, b]⟩ φ) (acc : BitVec φ.bits)
    (h : (⟨2, ![a, b]⟩ : Shape).Reduces [1] (⟨1, ![a]⟩ : Shape)) (hφ : FKind.Formats φ) (hacc : acc = FKind.add.neutral φ hφ)
    (r : Fin a) :
    multiReduction .add [1] ⟨1, ![a]⟩ src acc h hφ hacc (ix1 r) = ∑ k : Fin b, src (ix2 r k) := by
  refine (Ideal.multiReduction_add_single src acc h hφ hacc (ix1 r)).trans ?_
  exact Finset.sum_congr rfl fun k _ => congrArg src (lift_rows h r k)

/-- The maximum over the second axis of an `[a, b]` matrix, at row `r`, is the fold of `max` from the
    accumulator's value over that row's `b` entries. -/
theorem multiReduction_maximumf_rows_apply {a b : ℕ} {φ : FTy} (src : FVec Ideal ⟨2, ![a, b]⟩ φ) (acc : BitVec φ.bits)
    (h : (⟨2, ![a, b]⟩ : Shape).Reduces [1] (⟨1, ![a]⟩ : Shape)) (hφ : FKind.Formats φ)
    (hacc : acc = FKind.maximumf.neutral φ hφ) (r : Fin a) :
    multiReduction .maximumf [1] ⟨1, ![a]⟩ src acc h hφ hacc (ix1 r)
      = (Finset.univ : Finset (Fin b)).fold max (Ideal.ofBits φ acc) (fun k => src (ix2 r k)) := by
  refine (Ideal.multiReduction_maximumf_single src acc h hφ hacc (ix1 r)).trans ?_
  exact congrArg (fun f => Finset.fold max (Ideal.ofBits φ acc) f Finset.univ) (funext fun k => congrArg src (lift_rows h r k))

end Idealize.ShloMosaic.ValueIdx

end
-- ==== Proof.Region0.lean ====
/-
  The first region's output array as a closed form over the extended reals. The region walks twenty blocks of
  5000 rows; at each it reads the block of the feature rows `X` (5000 × 128), the whole weight matrix `W`
  (128 × 16) and the same rows of the per-row factor column `d` (5000 × 1), and writes the matrix product of the
  block with `W`, each row scaled by its factor, into the same rows of the output. Over the extended reals the
  narrowing of the operands before the product changes nothing, so entry `(p, q)` of the output depends only on
  row `p` of `X`, column `q` of `W` and `d p`: it is `(∑ k, X (p, k) · W (k, q)) · d p`.
-/
import proofs.«162709_j51788715655810_2_alg».proof.Proof.Gen.KernelIdeal.Frame
import proofs.«162709_j51788715655810_2_alg».proof.Proof.LibMatmul
import proofs.«162709_j51788715655810_2_alg».proof.Proof.LibKeepdims
import Idealize.ShloMosaic.Lib.ValueIdx
import Idealize.ShloMosaic.Lib.Pipeline.Value
import Idealize.ShloMosaic.Lib.ValueLayout
import Idealize.ShloMosaic.PureOps.Ideal.Laws

noncomputable section

namespace Cert.KernelIdeal.RegionValue

open Cert.KernelIdeal Cert.KernelIdeal.Gen Idealize.ShloMosaic Idealize.ShloMosaic.TcCoe Idealize.ShloMosaic.ValueIdx Idealize.SL.Sem
open Idealize.ShloMosaic.Pipeline (Dat)

-- the arrays' contents when the region is entered
variable (V : (c : Dev nD) → (b : Ref sig .tc) → Buf (Elt Ideal) ((c : Thread nD τ).loc b))

-- products and sums of array entries, read as extended reals (each module names its own pair of symbols)
local infixl:70 (name := entryMul0) " *ₑ " => (HMul.hMul : EReal → EReal → EReal)
local infixl:65 (name := entryAdd0) " +ₑ " => (HAdd.hAdd : EReal → EReal → EReal)

theorem zero_offsets0 : (![0, 0] : Fin 2 → Nat) = fun _ => 0 := funext fun a => by fin_cases a <;> rfl

/-! ## One block: the stored value at an entry -/

/-- The kernel's contraction is the plain one: rows by inner, inner by columns. -/
theorem dims0_eq : dot_S5000x128_S128x16_S5000x16_1_0_0_1_n_n = DotDims.plain 5000 128 16 := rfl

/-- Entry `(r, q)` of the block the body stores: row `r` of the feature block against column `q` of the weights,
    times row `r`'s factor. -/
theorem pay0_at (x0 : Vec Ideal S5000x128 .f32) (x1 : Vec Ideal S128x16 .f32) (x2 : Vec Ideal S5000x1 .f32)
    (r : Fin 5000) (q : Fin 16) :
    k0_pay1 x0 x1 x2 (ix2 r q)
      = (∑ k : Fin 128, x0 (ix2 r k) * x1 (ix2 k q)) * x2 (ix2 r (0 : Fin 1)) := by
  unfold k0_pay1
  rw [shapeCast_self, dims0_eq]
  show FloatOps.matmul (DotDims.plain 5000 128 16) none (truncf .bf16 x0 bitsLt_bf16_f32) (truncf .bf16 x1 bitsLt_bf16_f32)
        (constant (F := Ideal) S5000x16 .f32 0x00000000#32) (ix2 r q)
      * broadcastTo S5000x16 x2 broadcasts_S5000x1_S5000x16 (ix2 r q) = _
  rw [broadcastTo_a1_ab_apply]
  refine congrArg (· * x2 (ix2 r (0 : Fin 1))) ?_
  exact matmul_plain_zero_apply 5000 128 16 none (truncf .bf16 x0 bitsLt_bf16_f32) (truncf .bf16 x1 bitsLt_bf16_f32) r q

/-- The same at any index of the block, by its two coordinates. -/
theorem pay0_apply (x0 : Vec Ideal S5000x128 .f32) (x1 : Vec Ideal S128x16 .f32) (x2 : Vec Ideal S5000x1 .f32)
    (y : S5000x16.Idx) :
    k0_pay1 x0 x1 x2 y
      = (∑ k : Fin 128, x0 (ix2 (n0 := 5000) (y 0) k) * x1 (ix2 k (n1 := 16) (y 1))) * x2 (ix2 (n0 := 5000) (y 0) (0 : Fin 1)) := by
  obtain ⟨r, q, rfl⟩ : ∃ (r : Fin 5000) (q : Fin 16), y = ix2 r q := ⟨y 0, y 1, eq_ix2 y⟩
  exact pay0_at x0 x1 x2 r q

/-! ## Where each block sits in its array -/

/-- The block indices over the twenty points: the feature rows, the factor column and the output move together,
    block `t` at point `t`, always in column block 0; the weights' block is the whole matrix at every point. -/
theorem idx_facts0 : ∀ t : Fin cfg0.N,
    (win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0)
    ∧ win0_3.index t (0 : Fin 2) = t.val ∧ win0_3.index t (1 : Fin 2) = 0 :=
  (by decide +kernel : ∀ t : Fin grid0.N, _)

/-- Block `t` of the feature rows: its entry `y` is the array's entry at row `index · 5000 + y₀`, column `y₁`. -/
theorem read0_0 (c : Dev nD) (t : Fin cfg0.N) (y : S5000x128.Idx) (i : S100000x128.Idx)
    (h0 : (i 0).val = win0_0.index t (0 : Fin 2) * 5000 + (y 0).val)
    (h1 : (i 1).val = win0_0.index t (1 : Fin 2) * 128 + (y 1).val) :
    (iblk0 V c 0 t : S5000x128.Idx → EReal) y = (V c main_arg0 : S100000x128.Idx → EReal) i := by
  unfold iblk0
  rw [View.read_apply]
  refine congrArg (V c main_arg0 : S100000x128.Idx → EReal) ?_
  funext a; apply Fin.ext
  match a with
  | ⟨0, _⟩ => show win0_0.index t (0 : Fin 2) * 5000 + 1 * (y 0).val = (i 0).val; omega
  | ⟨1, _⟩ => show win0_0.index t (1 : Fin 2) * 128 + 1 * (y 1).val = (i 1).val; omega

/-- The weights' block is the whole matrix at every point. -/
theorem read0_1 (c : Dev nD) (t : Fin cfg0.N) (y : S128x16.Idx) (i : S128x16.Idx)
    (h0 : (i 0).val = win0_1.index t (0 : Fin 2) * 128 + (y 0).val)
    (h1 : (i 1).val = win0_1.index t (1 : Fin 2) * 16 + (y 1).val) :
    (iblk0 V c 1 t : S128x16.Idx → EReal) y = (V c main_arg2 : S128x16.Idx → EReal) i := by
  unfold iblk0
  rw [View.read_apply]
  refine congrArg (V c main_arg2 : S128x16.Idx → EReal) ?_
  funext a; apply Fin.ext
  match a with
  | ⟨0, _⟩ => show win0_1.index t (0 : Fin 2) * 128 + 1 * (y 0).val = (i 0).val; omega
  | ⟨1, _⟩ => show win0_1.index t (1 : Fin 2) * 16 + 1 * (y 1).val = (i 1).val; omega

/-- Block `t` of the per-row factor column. -/
theorem read0_2 (c : Dev nD) (t : Fin cfg0.N) (y : S5000x1.Idx) (i : S100000x1.Idx)
    (h0 : (i 0).val = win0_2.index t (0 : Fin 2) * 5000 + (y 0).val)
    (h1 : (i 1).val = win0_2.index t (1 : Fin 2) * 1 + (y 1).val) :
    (iblk0 V c 2 t : S5000x1.Idx → EReal) y = (V c main_v15 : S100000x1.Idx → EReal) i := by
  unfold iblk0
  rw [View.read_apply]
  refine congrArg (V c main_v15 : S100000x1.Idx → EReal) ?_
  funext a; apply Fin.ext
  match a with
  | ⟨0, _⟩ => show win0_2.index t (0 : Fin 2) * 5000 + 1 * (y 0).val = (i 0).val; omega
  | ⟨1, _⟩ => show win0_2.index t (1 : Fin 2) * 1 + 1 * (y 1).val = (i 1).val; omega

/-! ## The whole array -/

/-- The whole output array: entry `(p, q)` is `(∑ k, X (p, k) · W (k, q)) · d p`. -/
def G0 (a0 : S100000x128.Idx → EReal) (a1 : S128x16.Idx → EReal) (a2 : S100000x1.Idx → EReal) : S100000x16.Idx → EReal :=
  fun i => (∑ k : Fin 128, a0 (ix2 (n0 := 100000) (i 0) k) * a1 (ix2 k (n1 := 16) (i 1))) * a2 (ix2 (n0 := 100000) (i 0) (0 : Fin 1))

theorem G0_apply (a0 : S100000x128.Idx → EReal) (a1 : S128x16.Idx → EReal) (a2 : S100000x1.Idx → EReal)
    (p : Fin 100000) (q : Fin 16) :
    G0 a0 a1 a2 (ix2 p q) = (∑ k : Fin 128, a0 (ix2 p k) * a1 (ix2 k q)) * a2 (ix2 p (0 : Fin 1)) := rfl

/-- What point `t` writes back is block `t` of that array: entry `y` of the block is row `5000 t + y₀`, column `y₁`,
    and reads that row of the features, that column of the weights and that row's factor. -/
theorem flushed0_eq (c : Dev nD) (t : Fin cfg0.N) :
    (dat0 (F := Ideal) V c).flushed 3 t
      = ((cfg0.win 3).blk t).view.read (Elt Ideal) (G0 (V c main_arg0) (V c main_arg2) (V c main_v15)) := by
  show (cfg0.win 3).cut (grid0.coords t) ((dat0 V c).after 3 t) = _
  rw [after0_3]
  unfold out0_3
  rw [View.canon_unit_zero zero_offsets0]
  simp only [View.ld_unit_zero (S := S5000x128) zero_offsets0, View.ld_unit_zero (S := S128x16) zero_offsets0,
    View.ld_unit_zero (S := S5000x1) zero_offsets0]
  obtain ⟨⟨e00, e01, e10, e11, e20, e21⟩, e30, e31⟩ := idx_facts0 t
  funext j
  refine (pay0_apply _ _ _ _).trans ?_
  show _ = G0 (V c main_arg0) (V c main_arg2) (V c main_v15) (((cfg0.win 3).blk t).view.emb j)
  unfold G0
  have hj0 : (j 0).val < 5000 := (j 0).isLt
  have hj1 : (j 1).val < 16 := (j 1).isLt
  have E0 : ((((cfg0.win 3).blk t).view.emb j) 0).val = win0_3.index t (0 : Fin 2) * 5000 + 1 * (j 0).val := rfl
  have E1 : ((((cfg0.win 3).blk t).view.emb j) 1).val = win0_3.index t (1 : Fin 2) * 16 + 1 * (j 1).val := rfl
  refine congr (congrArg HMul.hMul (Finset.sum_congr rfl fun k _ => congr (congrArg HMul.hMul ?_) ?_)) ?_
  · refine read0_0 V c t _ _ ?_ ?_
    · show ((((cfg0.win 3).blk t).view.emb j) 0).val = win0_0.index t (0 : Fin 2) * 5000 + (j 0).val
      omega
    · show k.val = win0_0.index t (1 : Fin 2) * 128 + k.val
      omega
  · refine read0_1 V c t _ _ ?_ ?_
    · show k.val = win0_1.index t (0 : Fin 2) * 128 + k.val
      omega
    · show ((((cfg0.win 3).blk t).view.emb j) 1).val = win0_1.index t (1 : Fin 2) * 16 + (j 1).val
      omega
  · refine read0_2 V c t _ _ ?_ ?_
    · show ((((cfg0.win 3).blk t).view.emb j) 0).val = win0_2.index t (0 : Fin 2) * 5000 + (j 0).val
      omega
    · show 0 = win0_2.index t (1 : Fin 2) * 1 + 0
      omega

/-- An index is in point `t`'s block of the output iff each coordinate is in the block's range on its axis. -/
theorem mem_blk0 (t : Fin cfg0.N) (i : S100000x16.Idx) :
    i ∈ ((cfg0.win 3).blk t).view.set ↔ ∀ a : Fin 2, win0_3.index t a * S5000x16.size a ≤ (i a).val ∧ (i a).val < win0_3.index t a * S5000x16.size a + S5000x16.size a := by
  show i ∈ ((View.whole main_v16).slice (win0_3.rect t)).set ↔ _
  rw [View.set_slice_whole, Rect.mem_set_unit]
  exact Iff.rfl

/-- Row `r` of the output lies in the block of point `r / 5000`: the twenty blocks cover the array. -/
theorem cover0 (i : S100000x16.Idx) :
    ∃ t : Fin cfg0.N, (cfg0.win 3).flush t = true ∧ i ∈ ((cfg0.win 3).blk t).view.set := by
  have hi0 : (i 0).val < 100000 := (i 0).isLt
  have hi1 : (i 1).val < 16 := (i 1).isLt
  have ht : (i 0).val / 5000 < cfg0.N := by
    show _ < grid0.N
    rw [N_0]; omega
  have eo := (idx_facts0 ⟨(i 0).val / 5000, ht⟩).2
  refine ⟨⟨(i 0).val / 5000, ht⟩, flush0_3 _, ?_⟩
  rw [mem_blk0]
  intro a
  match a with
  | ⟨0, _⟩ =>
    show win0_3.index ⟨(i 0).val / 5000, ht⟩ (0 : Fin 2) * 5000 ≤ (i 0).val ∧ (i 0).val < win0_3.index ⟨(i 0).val / 5000, ht⟩ (0 : Fin 2) * 5000 + 5000
    rw [eo.1]
    show (i 0).val / 5000 * 5000 ≤ (i 0).val ∧ (i 0).val < (i 0).val / 5000 * 5000 + 5000
    omega
  | ⟨1, _⟩ =>
    show win0_3.index ⟨(i 0).val / 5000, ht⟩ (1 : Fin 2) * 16 ≤ (i 1).val ∧ (i 1).val < win0_3.index ⟨(i 0).val / 5000, ht⟩ (1 : Fin 2) * 16 + 16
    rw [eo.2]
    omega

/-- The output array of the first region: entry `(p, q)` is row `p` of the features against column `q` of the
    weights, times row `p`'s factor. -/
theorem final0_array (c : Dev nD) :
    (dat0 (F := Ideal) V c).arrAt 3 cfg0.N = G0 (V c main_arg0) (V c main_arg2) (V c main_v15) :=
  (dat0 (F := Ideal) V c).arrAt_eq_of_cover 3 (G0 (V c main_arg0) (V c main_arg2) (V c main_v15))
    (fun t _ => flushed0_eq V c t) cover0

/-- The same entry by entry. -/
theorem final0 (c : Dev nD) (p : Fin 100000) (q : Fin 16) :
    (dat0 (F := Ideal) V c).arrAt 3 cfg0.N (ix2 p q)
      = (∑ k : Fin 128, (V c main_arg0 : S100000x128.Idx → EReal) (ix2 p k) *ₑ (V c main_arg2 : S128x16.Idx → EReal) (ix2 k q))
          *ₑ (V c main_v15 : S100000x1.Idx → EReal) (ix2 p (0 : Fin 1)) :=
  congrFun (final0_array V c) (ix2 p q)

end Cert.KernelIdeal.RegionValue

end
-- ==== Proof.Region1.lean ====
/-
  The second region's output array as a closed form over the extended reals. The region walks twenty blocks of
  5000 rows; at each it reads the block of the aggregated rows `A` (5000 × 16), the same rows of the per-row
  factor column `d` (5000 × 1), the whole bias row `b` (1 × 16) and the whole weight matrix `W` (16 × 16). It
  forms the hidden block `H = tanh (A · d + b)` entry by entry, multiplies it by `W` and scales each row of the
  product by its factor again, and writes the result into the same rows of the output. Over the extended reals the
  narrowing of the operands before the product changes nothing, so entry `(p, q)` of the output depends only on
  row `p` of `A`, `d p`, `b` and column `q` of `W`: it is
  `(∑ k, tanh (A (p, k) · d p + b k) · W (k, q)) · d p`.
-/
import proofs.«162709_j51788715655810_2_alg».proof.Proof.Gen.KernelIdeal.Frame
import proofs.«162709_j51788715655810_2_alg».proof.Proof.LibMatmul
import proofs.«162709_j51788715655810_2_alg».proof.Proof.LibKeepdims
import Idealize.ShloMosaic.Lib.ValueIdx
import Idealize.ShloMosaic.Lib.Pipeline.Value
import Idealize.ShloMosaic.Lib.ValueLayout
import Idealize.ShloMosaic.PureOps.Ideal.Laws

noncomputable section

namespace Cert.KernelIdeal.RegionValue

open Cert.KernelIdeal Cert.KernelIdeal.Gen Idealize.ShloMosaic Idealize.ShloMosaic.TcCoe Idealize.ShloMosaic.ValueIdx Idealize.SL.Sem
open Idealize.ShloMosaic.Pipeline (Dat)

-- the arrays' contents when the region is entered
variable (V : (c : Dev nD) → (b : Ref sig .tc) → Buf (Elt Ideal) ((c : Thread nD τ).loc b))

-- products and sums of array entries, read as extended reals (each module names its own pair of symbols)
local infixl:70 (name := entryMul1) " *ₑ " => (HMul.hMul : EReal → EReal → EReal)
local infixl:65 (name := entryAdd1) " +ₑ " => (HAdd.hAdd : EReal → EReal → EReal)

theorem zero_offsets1 : (![0, 0] : Fin 2 → Nat) = fun _ => 0 := funext fun a => by fin_cases a <;> rfl

/-! ## One block: the stored value at an entry -/

/-- The kernel's contraction is the plain one: rows by inner, inner by columns. -/
theorem dims1_eq : dot_S5000x16_S16x16_S5000x16_1_0_0_1_n_n = DotDims.plain 5000 16 16 := rfl

/-- Entry `(r, q)` of the block the body stores: row `r` of the hidden block `tanh (A · d + b)` against column `q`
    of the weights, times row `r`'s factor (read a second time). -/
theorem pay1_at (x0 : Vec Ideal S5000x16 .f32) (x1 : Vec Ideal S5000x1 .f32) (x2 : Vec Ideal S1x16 .f32)
    (x3 : Vec Ideal S16x16 .f32) (x4 : Vec Ideal S5000x1 .f32) (r : Fin 5000) (q : Fin 16) :
    k1_pay1 x0 x1 x2 x3 x4 (ix2 r q)
      = (∑ k : Fin 16, Ideal.tanh (x0 (ix2 r k) * x1 (ix2 r (0 : Fin 1)) + x2 (ix2 (0 : Fin 1) k)) * x3 (ix2 k q))
          * x4 (ix2 r (0 : Fin 1)) := by
  unfold k1_pay1
  rw [shapeCast_self, shapeCast_self, shapeCast_self, shapeCast_self, dims1_eq]
  show FloatOps.matmul (DotDims.plain 5000 16 16) none
        (truncf .bf16 (tanh (addf (mulf x0 (broadcastTo S5000x16 x1 broadcasts_S5000x1_S5000x16))
          (broadcastTo S5000x16 x2 broadcasts_S1x16_S5000x16))) bitsLt_bf16_f32)
        (truncf .bf16 x3 bitsLt_bf16_f32)
        (constant (F := Ideal) S5000x16 .f32 0x00000000#32) (ix2 r q)
      * broadcastTo S5000x16 x4 broadcasts_S5000x1_S5000x16 (ix2 r q) = _
  rw [broadcastTo_a1_ab_apply]
  refine congrArg (· * x4 (ix2 r (0 : Fin 1))) ?_
  refine (matmul_plain_zero_apply 5000 16 16 none _ _ r q).trans ?_
  refine Finset.sum_congr rfl fun k _ => ?_
  show Ideal.tanh (x0 (ix2 r k) * broadcastTo S5000x16 x1 broadcasts_S5000x1_S5000x16 (ix2 r k)
      + broadcastTo S5000x16 x2 broadcasts_S1x16_S5000x16 (ix2 r k)) * x3 (ix2 k q) = _
  rw [broadcastTo_a1_ab_apply, broadcastTo_1b_ab_apply]

/-- The same at any index of the block, by its two coordinates. -/
theorem pay1_apply (x0 : Vec Ideal S5000x16 .f32) (x1 : Vec Ideal S5000x1 .f32) (x2 : Vec Ideal S1x16 .f32)
    (x3 : Vec Ideal S16x16 .f32) (x4 : Vec Ideal S5000x1 .f32) (y : S5000x16.Idx) :
    k1_pay1 x0 x1 x2 x3 x4 y
      = (∑ k : Fin 16, Ideal.tanh (x0 (ix2 (n0 := 5000) (y 0) k) * x1 (ix2 (n0 := 5000) (y 0) (0 : Fin 1)) + x2 (ix2 (0 : Fin 1) k))
            * x3 (ix2 k (n1 := 16) (y 1)))
          * x4 (ix2 (n0 := 5000) (y 0) (0 : Fin 1)) := by
  obtain ⟨r, q, rfl⟩ : ∃ (r : Fin 5000) (q : Fin 16), y = ix2 r q := ⟨y 0, y 1, eq_ix2 y⟩
  exact pay1_at x0 x1 x2 x3 x4 r q

/-! ## Where each block sits in its array -/

/-- The block indices over the twenty points: the aggregated rows, the factor column and the output move together,
    block `t` at point `t`, always in column block 0; the bias row's and the weights' blocks are the whole arrays at
    every point. -/
theorem idx_facts1 : ∀ t : Fin cfg1.N,
    (win1_0.index t (0 : Fin 2) = t.val ∧ win1_0.index t (1 : Fin 2) = 0
    ∧ win1_1.index t (0 : Fin 2) = t.val ∧ win1_1.index t (1 : Fin 2) = 0
    ∧ win1_2.index t (0 : Fin 2) = 0 ∧ win1_2.index t (1 : Fin 2) = 0
    ∧ win1_3.index t (0 : Fin 2) = 0 ∧ win1_3.index t (1 : Fin 2) = 0)
    ∧ win1_4.index t (0 : Fin 2) = t.val ∧ win1_4.index t (1 : Fin 2) = 0 :=
  (by decide +kernel : ∀ t : Fin grid1.N, _)

/-- Block `t` of the aggregated rows: its entry `y` is the array's entry at row `index · 5000 + y₀`, column `y₁`. -/
theorem read1_0 (c : Dev nD) (t : Fin cfg1.N) (y : S5000x16.Idx) (i : S100000x16.Idx)
    (h0 : (i 0).val = win1_0.index t (0 : Fin 2) * 5000 + (y 0).val)
    (h1 : (i 1).val = win1_0.index t (1 : Fin 2) * 16 + (y 1).val) :
    (iblk1 V c 0 t : S5000x16.Idx → EReal) y = (V c main_v26 : S100000x16.Idx → EReal) i := by
  unfold iblk1
  rw [View.read_apply]
  refine congrArg (V c main_v26 : S100000x16.Idx → EReal) ?_
  funext a; apply Fin.ext
  match a with
  | ⟨0, _⟩ => show win1_0.index t (0 : Fin 2) * 5000 + 1 * (y 0).val = (i 0).val; omega
  | ⟨1, _⟩ => show win1_0.index t (1 : Fin 2) * 16 + 1 * (y 1).val = (i 1).val; omega

/-- Block `t` of the per-row factor column. -/
theorem read1_1 (c : Dev nD) (t : Fin cfg1.N) (y : S5000x1.Idx) (i : S100000x1.Idx)
    (h0 : (i 0).val = win1_1.index t (0 : Fin 2) * 5000 + (y 0).val)
    (h1 : (i 1).val = win1_1.index t (1 : Fin 2) * 1 + (y 1).val) :
    (iblk1 V c 1 t : S5000x1.Idx → EReal) y = (V c main_v15 : S100000x1.Idx → EReal) i := by
  unfold iblk1
  rw [View.read_apply]
  refine congrArg (V c main_v15 : S100000x1.Idx → EReal) ?_
  funext a; apply Fin.ext
  match a with
  | ⟨0, _⟩ => show win1_1.index t (0 : Fin 2) * 5000 + 1 * (y 0).val = (i 0).val; omega
  | ⟨1, _⟩ => show win1_1.index t (1 : Fin 2) * 1 + 1 * (y 1).val = (i 1).val; omega

/-- The bias row's block is the whole row at every point. -/
theorem read1_2 (c : Dev nD) (t : Fin cfg1.N) (y : S1x16.Idx) (i : S1x16.Idx)
    (h0 : (i 0).val = win1_2.index t (0 : Fin 2) * 1 + (y 0).val)
    (h1 : (i 1).val = win1_2.index t (1 : Fin 2) * 16 + (y 1).val) :
    (iblk1 V c 2 t : S1x16.Idx → EReal) y = (V c main_v27 : S1x16.Idx → EReal) i := by
  unfold iblk1
  rw [View.read_apply]
  refine congrArg (V c main_v27 : S1x16.Idx → EReal) ?_
  funext a; apply Fin.ext
  match a with
  | ⟨0, _⟩ => show win1_2.index t (0 : Fin 2) * 1 + 1 * (y 0).val = (i 0).val; omega
  | ⟨1, _⟩ => show win1_2.index t (1 : Fin 2) * 16 + 1 * (y 1).val = (i 1).val; omega

/-- The weights' block is the whole matrix at every point. -/
theorem read1_3 (c : Dev nD) (t : Fin cfg1.N) (y : S16x16.Idx) (i : S16x16.Idx)
    (h0 : (i 0).val = win1_3.index t (0 : Fin 2) * 16 + (y 0).val)
    (h1 : (i 1).val = win1_3.index t (1 : Fin 2) * 16 + (y 1).val) :
    (iblk1 V c 3 t : S16x16.Idx → EReal) y = (V c main_arg4 : S16x16.Idx → EReal) i := by
  unfold iblk1
  rw [View.read_apply]
  refine congrArg (V c main_arg4 : S16x16.Idx → EReal) ?_
  funext a; apply Fin.ext
  match a with
  | ⟨0, _⟩ => show win1_3.index t (0 : Fin 2) * 16 + 1 * (y 0).val = (i 0).val; omega
  | ⟨1, _⟩ => show win1_3.index t (1 : Fin 2) * 16 + 1 * (y 1).val = (i 1).val; omega

/-! ## The whole array -/

/-- The whole output array: entry `(p, q)` is `(∑ k, tanh (A (p, k) · d p + b k) · W (k, q)) · d p`. -/
def G1 (a0 : S100000x16.Idx → EReal) (a1 : S100000x1.Idx → EReal) (a2 : S1x16.Idx → EReal) (a3 : S16x16.Idx → EReal) :
    S100000x16.Idx → EReal :=
  fun i => (∑ k : Fin 16, Ideal.tanh (a0 (ix2 (n0 := 100000) (i 0) k) * a1 (ix2 (n0 := 100000) (i 0) (0 : Fin 1)) + a2 (ix2 (0 : Fin 1) k))
              * a3 (ix2 k (n1 := 16) (i 1)))
            * a1 (ix2 (n0 := 100000) (i 0) (0 : Fin 1))

theorem G1_apply (a0 : S100000x16.Idx → EReal) (a1 : S100000x1.Idx → EReal) (a2 : S1x16.Idx → EReal) (a3 : S16x16.Idx → EReal)
    (p : Fin 100000) (q : Fin 16) :
    G1 a0 a1 a2 a3 (ix2 p q)
      = (∑ k : Fin 16, Ideal.tanh (a0 (ix2 p k) * a1 (ix2 p (0 : Fin 1)) + a2 (ix2 (0 : Fin 1) k)) * a3 (ix2 k q))
          * a1 (ix2 p (0 : Fin 1)) := rfl

/-- What point `t` writes back is block `t` of that array: entry `y` of the block is row `5000 t + y₀`, column `y₁`,
    and reads that row of the aggregated rows, that row's factor, the bias row and that column of the weights. -/
theorem flushed1_eq (c : Dev nD) (t : Fin cfg1.N) :
    (dat1 (F := Ideal) V c).flushed 4 t
      = ((cfg1.win 4).blk t).view.read (Elt Ideal) (G1 (V c main_v26) (V c main_v15) (V c main_v27) (V c main_arg4)) := by
  show (cfg1.win 4).cut (grid1.coords t) ((dat1 V c).after 4 t) = _
  rw [after1_4]
  unfold out1_4
  rw [View.canon_unit_zero zero_offsets1]
  simp only [View.ld_unit_zero (S := S5000x16) zero_offsets1, View.ld_unit_zero (S := S5000x1) zero_offsets1,
    View.ld_unit_zero (S := S1x16) zero_offsets1, View.ld_unit_zero (S := S16x16) zero_offsets1]
  obtain ⟨⟨e00, e01, e10, e11, e20, e21, e30, e31⟩, e40, e41⟩ := idx_facts1 t
  funext j
  refine (pay1_apply _ _ _ _ _ _).trans ?_
  show _ = G1 (V c main_v26) (V c main_v15) (V c main_v27) (V c main_arg4) (((cfg1.win 4).blk t).view.emb j)
  unfold G1
  have hj0 : (j 0).val < 5000 := (j 0).isLt
  have hj1 : (j 1).val < 16 := (j 1).isLt
  have E0 : ((((cfg1.win 4).blk t).view.emb j) 0).val = win1_4.index t (0 : Fin 2) * 5000 + 1 * (j 0).val := rfl
  have E1 : ((((cfg1.win 4).blk t).view.emb j) 1).val = win1_4.index t (1 : Fin 2) * 16 + 1 * (j 1).val := rfl
  have hd : (iblk1 V c 1 t : S5000x1.Idx → EReal) (ix2 (n0 := 5000) ((cfg1.win 4).xinj (grid1.coords t) j 0) (0 : Fin 1))
      = (V c main_v15 : S100000x1.Idx → EReal) (ix2 (n0 := 100000) ((((cfg1.win 4).blk t).view.emb j) 0) (0 : Fin 1)) := by
    refine read1_1 V c t _ _ ?_ ?_
    · show ((((cfg1.win 4).blk t).view.emb j) 0).val = win1_1.index t (0 : Fin 2) * 5000 + (j 0).val
      omega
    · show 0 = win1_1.index t (1 : Fin 2) * 1 + 0
      omega
  refine congr (congrArg HMul.hMul (Finset.sum_congr rfl fun k _ => congr (congrArg HMul.hMul (congrArg Ideal.tanh
    (congr (congrArg HAdd.hAdd (congr (congrArg HMul.hMul ?_) hd)) ?_))) ?_)) hd
  · refine read1_0 V c t _ _ ?_ ?_
    · show ((((cfg1.win 4).blk t).view.emb j) 0).val = win1_0.index t (0 : Fin 2) * 5000 + (j 0).val
      omega
    · show k.val = win1_0.index t (1 : Fin 2) * 16 + k.val
      omega
  · refine read1_2 V c t _ _ ?_ ?_
    · show 0 = win1_2.index t (0 : Fin 2) * 1 + 0
      omega
    · show k.val = win1_2.index t (1 : Fin 2) * 16 + k.val
      omega
  · refine read1_3 V c t _ _ ?_ ?_
    · show k.val = win1_3.index t (0 : Fin 2) * 16 + k.val
      omega
    · show ((((cfg1.win 4).blk t).view.emb j) 1).val = win1_3.index t (1 : Fin 2) * 16 + (j 1).val
      omega

/-- An index is in point `t`'s block of the output iff each coordinate is in the block's range on its axis. -/
theorem mem_blk1 (t : Fin cfg1.N) (i : S100000x16.Idx) :
    i ∈ ((cfg1.win 4).blk t).view.set ↔ ∀ a : Fin 2, win1_4.index t a * S5000x16.size a ≤ (i a).val ∧ (i a).val < win1_4.index t a * S5000x16.size a + S5000x16.size a := by
  show i ∈ ((View.whole main_v28).slice (win1_4.rect t)).set ↔ _
  rw [View.set_slice_whole, Rect.mem_set_unit]
  exact Iff.rfl

/-- Row `r` of the output lies in the block of point `r / 5000`: the twenty blocks cover the array. -/
theorem cover1 (i : S100000x16.Idx) :
    ∃ t : Fin cfg1.N, (cfg1.win 4).flush t = true ∧ i ∈ ((cfg1.win 4).blk t).view.set := by
  have hi0 : (i 0).val < 100000 := (i 0).isLt
  have hi1 : (i 1).val < 16 := (i 1).isLt
  have ht : (i 0).val / 5000 < cfg1.N := by
    show _ < grid1.N
    rw [N_1]; omega
  have eo := (idx_facts1 ⟨(i 0).val / 5000, ht⟩).2
  refine ⟨⟨(i 0).val / 5000, ht⟩, flush1_4 _, ?_⟩
  rw [mem_blk1]
  intro a
  match a with
  | ⟨0, _⟩ =>
    show win1_4.index ⟨(i 0).val / 5000, ht⟩ (0 : Fin 2) * 5000 ≤ (i 0).val ∧ (i 0).val < win1_4.index ⟨(i 0).val / 5000, ht⟩ (0 : Fin 2) * 5000 + 5000
    rw [eo.1]
    show (i 0).val / 5000 * 5000 ≤ (i 0).val ∧ (i 0).val < (i 0).val / 5000 * 5000 + 5000
    omega
  | ⟨1, _⟩ =>
    show win1_4.index ⟨(i 0).val / 5000, ht⟩ (1 : Fin 2) * 16 ≤ (i 1).val ∧ (i 1).val < win1_4.index ⟨(i 0).val / 5000, ht⟩ (1 : Fin 2) * 16 + 16
    rw [eo.2]
    omega

/-- The output array of the second region: entry `(p, q)` is row `p` of the hidden block against column `q` of the
    weights, times row `p`'s factor. -/
theorem final1_array (c : Dev nD) :
    (dat1 (F := Ideal) V c).arrAt 4 cfg1.N = G1 (V c main_v26) (V c main_v15) (V c main_v27) (V c main_arg4) :=
  (dat1 (F := Ideal) V c).arrAt_eq_of_cover 4 (G1 (V c main_v26) (V c main_v15) (V c main_v27) (V c main_arg4))
    (fun t _ => flushed1_eq V c t) cover1

/-- The same entry by entry. -/
theorem final1 (c : Dev nD) (p : Fin 100000) (q : Fin 16) :
    (dat1 (F := Ideal) V c).arrAt 4 cfg1.N (ix2 p q)
      = (∑ k : Fin 16, Ideal.tanh ((V c main_v26 : S100000x16.Idx → EReal) (ix2 p k) *ₑ (V c main_v15 : S100000x1.Idx → EReal) (ix2 p (0 : Fin 1))
              +ₑ (V c main_v27 : S1x16.Idx → EReal) (ix2 (0 : Fin 1) k)) *ₑ (V c main_arg4 : S16x16.Idx → EReal) (ix2 k q))
          *ₑ (V c main_v15 : S100000x1.Idx → EReal) (ix2 p (0 : Fin 1)) :=
  congrFun (final1_array V c) (ix2 p q)

end Cert.KernelIdeal.RegionValue

end
-- ==== Proof.Region2.lean ====
/-
  The third region's output array as a closed form over the extended reals. The region walks twenty blocks of
  5000 rows; at each it reads the block of the aggregated rows `A` (5000 × 16), the same rows of the per-row
  factor column `d` (5000 × 1) and the whole bias row `b` (1 × 16), and writes `tanh (A · d + b)` entry by
  entry into the same rows of the output. Entry `(p, q)` of the output therefore depends only on `A (p, q)`,
  `d p` and `b q`: it is `tanh (A (p, q) · d p + b q)`.
-/
import proofs.«162709_j51788715655810_2_alg».proof.Proof.Gen.KernelIdeal.Frame
import proofs.«162709_j51788715655810_2_alg».proof.Proof.LibKeepdims
import Idealize.ShloMosaic.Lib.ValueIdx
import Idealize.ShloMosaic.Lib.Pipeline.Value
import Idealize.ShloMosaic.Lib.ValueLayout
import Idealize.ShloMosaic.PureOps.Ideal.Laws

noncomputable section

namespace Cert.KernelIdeal.RegionValue

open Cert.KernelIdeal Cert.KernelIdeal.Gen Idealize.ShloMosaic Idealize.ShloMosaic.TcCoe Idealize.ShloMosaic.ValueIdx Idealize.SL.Sem
open Idealize.ShloMosaic.Pipeline (Dat)

-- the arrays' contents when the region is entered
variable (V : (c : Dev nD) → (b : Ref sig .tc) → Buf (Elt Ideal) ((c : Thread nD τ).loc b))

-- products and sums of array entries, read as extended reals (each module names its own pair of symbols)
local infixl:70 (name := entryMul2) " *ₑ " => (HMul.hMul : EReal → EReal → EReal)
local infixl:65 (name := entryAdd2) " +ₑ " => (HAdd.hAdd : EReal → EReal → EReal)

theorem zero_offsets2 : (![0, 0] : Fin 2 → Nat) = fun _ => 0 := funext fun a => by fin_cases a <;> rfl

/-! ## One block: the stored value at an entry -/

/-- Entry `(r, q)` of the block the body stores: `tanh` of the aggregated entry times row `r`'s factor plus
    column `q`'s bias. -/
theorem pay2_at (x0 : Vec Ideal S5000x16 .f32) (x1 : Vec Ideal S5000x1 .f32) (x2 : Vec Ideal S1x16 .f32)
    (r : Fin 5000) (q : Fin 16) :
    k2_pay1 x0 x1 x2 (ix2 r q)
      = Ideal.tanh (x0 (ix2 r q) * x1 (ix2 r (0 : Fin 1)) + x2 (ix2 (0 : Fin 1) q)) := by
  unfold k2_pay1
  rw [shapeCast_self, shapeCast_self, shapeCast_self]
  show Ideal.tanh (x0 (ix2 r q) * broadcastTo S5000x16 x1 broadcasts_S5000x1_S5000x16 (ix2 r q)
      + broadcastTo S5000x16 x2 broadcasts_S1x16_S5000x16 (ix2 r q)) = _
  rw [broadcastTo_a1_ab_apply, broadcastTo_1b_ab_apply]

/-- The same at any index of the block, by its two coordinates. -/
theorem pay2_apply (x0 : Vec Ideal S5000x16 .f32) (x1 : Vec Ideal S5000x1 .f32) (x2 : Vec Ideal S1x16 .f32)
    (y : S5000x16.Idx) :
    k2_pay1 x0 x1 x2 y
      = Ideal.tanh (x0 y * x1 (ix2 (n0 := 5000) (y 0) (0 : Fin 1)) + x2 (ix2 (0 : Fin 1) (n1 := 16) (y 1))) := by
  obtain ⟨r, q, rfl⟩ : ∃ (r : Fin 5000) (q : Fin 16), y = ix2 r q := ⟨y 0, y 1, eq_ix2 y⟩
  exact pay2_at x0 x1 x2 r q

/-! ## Where each block sits in its array -/

/-- The block indices over the twenty points: the aggregated rows, the factor column and the output move together,
    block `t` at point `t`, always in column block 0; the bias row's block is the whole row at every point. -/
theorem idx_facts2 : ∀ t : Fin cfg2.N,
    win2_0.index t (0 : Fin 2) = t.val ∧ win2_0.index t (1 : Fin 2) = 0
    ∧ win2_1.index t (0 : Fin 2) = t.val ∧ win2_1.index t (1 : Fin 2) = 0
    ∧ win2_2.index t (0 : Fin 2) = 0 ∧ win2_2.index t (1 : Fin 2) = 0
    ∧ win2_3.index t (0 : Fin 2) = t.val ∧ win2_3.index t (1 : Fin 2) = 0 :=
  (by decide +kernel : ∀ t : Fin grid2.N, _)

/-- Block `t` of the aggregated rows: its entry `y` is the array's entry at row `index · 5000 + y₀`, column `y₁`. -/
theorem read2_0 (c : Dev nD) (t : Fin cfg2.N) (y : S5000x16.Idx) (i : S100000x16.Idx)
    (h0 : (i 0).val = win2_0.index t (0 : Fin 2) * 5000 + (y 0).val)
    (h1 : (i 1).val = win2_0.index t (1 : Fin 2) * 16 + (y 1).val) :
    (iblk2 V c 0 t : S5000x16.Idx → EReal) y = (V c main_v38 : S100000x16.Idx → EReal) i := by
  unfold iblk2
  rw [View.read_apply]
  refine congrArg (V c main_v38 : S100000x16.Idx → EReal) ?_
  funext a; apply Fin.ext
  match a with
  | ⟨0, _⟩ => show win2_0.index t (0 : Fin 2) * 5000 + 1 * (y 0).val = (i 0).val; omega
  | ⟨1, _⟩ => show win2_0.index t (1 : Fin 2) * 16 + 1 * (y 1).val = (i 1).val; omega

/-- Block `t` of the per-row factor column. -/
theorem read2_1 (c : Dev nD) (t : Fin cfg2.N) (y : S5000x1.Idx) (i : S100000x1.Idx)
    (h0 : (i 0).val = win2_1.index t (0 : Fin 2) * 5000 + (y 0).val)
    (h1 : (i 1).val = win2_1.index t (1 : Fin 2) * 1 + (y 1).val) :
    (iblk2 V c 1 t : S5000x1.Idx → EReal) y = (V c main_v15 : S100000x1.Idx → EReal) i := by
  unfold iblk2
  rw [View.read_apply]
  refine congrArg (V c main_v15 : S100000x1.Idx → EReal) ?_
  funext a; apply Fin.ext
  match a with
  | ⟨0, _⟩ => show win2_1.index t (0 : Fin 2) * 5000 + 1 * (y 0).val = (i 0).val; omega
  | ⟨1, _⟩ => show win2_1.index t (1 : Fin 2) * 1 + 1 * (y 1).val = (i 1).val; omega

/-- The bias row's block is the whole row at every point. -/
theorem read2_2 (c : Dev nD) (t : Fin cfg2.N) (y : S1x16.Idx) (i : S1x16.Idx)
    (h0 : (i 0).val = win2_2.index t (0 : Fin 2) * 1 + (y 0).val)
    (h1 : (i 1).val = win2_2.index t (1 : Fin 2) * 16 + (y 1).val) :
    (iblk2 V c 2 t : S1x16.Idx → EReal) y = (V c main_v39 : S1x16.Idx → EReal) i := by
  unfold iblk2
  rw [View.read_apply]
  refine congrArg (V c main_v39 : S1x16.Idx → EReal) ?_
  funext a; apply Fin.ext
  match a with
  | ⟨0, _⟩ => show win2_2.index t (0 : Fin 2) * 1 + 1 * (y 0).val = (i 0).val; omega
  | ⟨1, _⟩ => show win2_2.index t (1 : Fin 2) * 16 + 1 * (y 1).val = (i 1).val; omega

/-! ## The whole array -/

/-- The whole output array: entry `(p, q)` is `tanh (A (p, q) · d p + b q)`. -/
def G2 (a0 : S100000x16.Idx → EReal) (a1 : S100000x1.Idx → EReal) (a2 : S1x16.Idx → EReal) : S100000x16.Idx → EReal :=
  fun i => Ideal.tanh (a0 i * a1 (ix2 (n0 := 100000) (i 0) (0 : Fin 1)) + a2 (ix2 (0 : Fin 1) (n1 := 16) (i 1)))

theorem G2_apply (a0 : S100000x16.Idx → EReal) (a1 : S100000x1.Idx → EReal) (a2 : S1x16.Idx → EReal)
    (p : Fin 100000) (q : Fin 16) :
    G2 a0 a1 a2 (ix2 p q) = Ideal.tanh (a0 (ix2 p q) * a1 (ix2 p (0 : Fin 1)) + a2 (ix2 (0 : Fin 1) q)) := rfl

/-- What point `t` writes back is block `t` of that array: entry `y` of the block is row `5000 t + y₀`, column `y₁`,
    and reads the aggregated entry there, that row's factor and that column's bias. -/
theorem flushed2_eq (c : Dev nD) (t : Fin cfg2.N) :
    (dat2 (F := Ideal) V c).flushed 3 t
      = ((cfg2.win 3).blk t).view.read (Elt Ideal) (G2 (V c main_v38) (V c main_v15) (V c main_v39)) := by
  show (cfg2.win 3).cut (grid2.coords t) ((dat2 V c).after 3 t) = _
  rw [after2_3]
  unfold out2_3
  rw [View.canon_unit_zero zero_offsets2]
  simp only [View.ld_unit_zero (S := S5000x16) zero_offsets2, View.ld_unit_zero (S := S5000x1) zero_offsets2,
    View.ld_unit_zero (S := S1x16) zero_offsets2]
  obtain ⟨e00, e01, e10, e11, e20, e21, e30, e31⟩ := idx_facts2 t
  funext j
  refine (pay2_apply _ _ _ _).trans ?_
  show _ = G2 (V c main_v38) (V c main_v15) (V c main_v39) (((cfg2.win 3).blk t).view.emb j)
  unfold G2
  have hj0 : (j 0).val < 5000 := (j 0).isLt
  have hj1 : (j 1).val < 16 := (j 1).isLt
  have E0 : ((((cfg2.win 3).blk t).view.emb j) 0).val = win2_3.index t (0 : Fin 2) * 5000 + 1 * (j 0).val := rfl
  have E1 : ((((cfg2.win 3).blk t).view.emb j) 1).val = win2_3.index t (1 : Fin 2) * 16 + 1 * (j 1).val := rfl
  refine congrArg Ideal.tanh ?_
  refine congr (congrArg HAdd.hAdd (congr (congrArg HMul.hMul ?_) ?_)) ?_
  · refine read2_0 V c t _ _ ?_ ?_
    · show _ = win2_0.index t (0 : Fin 2) * 5000 + (j 0).val
      omega
    · show _ = win2_0.index t (1 : Fin 2) * 16 + (j 1).val
      omega
  · refine read2_1 V c t _ _ ?_ ?_
    · show ((((cfg2.win 3).blk t).view.emb j) 0).val = win2_1.index t (0 : Fin 2) * 5000 + (j 0).val
      omega
    · show 0 = win2_1.index t (1 : Fin 2) * 1 + 0
      omega
  · refine read2_2 V c t _ _ ?_ ?_
    · show 0 = win2_2.index t (0 : Fin 2) * 1 + 0
      omega
    · show ((((cfg2.win 3).blk t).view.emb j) 1).val = win2_2.index t (1 : Fin 2) * 16 + (j 1).val
      omega

/-- An index is in point `t`'s block of the output iff each coordinate is in the block's range on its axis. -/
theorem mem_blk2 (t : Fin cfg2.N) (i : S100000x16.Idx) :
    i ∈ ((cfg2.win 3).blk t).view.set ↔ ∀ a : Fin 2, win2_3.index t a * S5000x16.size a ≤ (i a).val ∧ (i a).val < win2_3.index t a * S5000x16.size a + S5000x16.size a := by
  show i ∈ ((View.whole main_v40).slice (win2_3.rect t)).set ↔ _
  rw [View.set_slice_whole, Rect.mem_set_unit]
  exact Iff.rfl

/-- Row `r` of the output lies in the block of point `r / 5000`: the twenty blocks cover the array. -/
theorem cover2 (i : S100000x16.Idx) :
    ∃ t : Fin cfg2.N, (cfg2.win 3).flush t = true ∧ i ∈ ((cfg2.win 3).blk t).view.set := by
  have hi0 : (i 0).val < 100000 := (i 0).isLt
  have hi1 : (i 1).val < 16 := (i 1).isLt
  have ht : (i 0).val / 5000 < cfg2.N := by
    show _ < grid2.N
    rw [N_2]; omega
  obtain ⟨-, -, -, -, -, -, e30, e31⟩ := idx_facts2 ⟨(i 0).val / 5000, ht⟩
  refine ⟨⟨(i 0).val / 5000, ht⟩, flush2_3 _, ?_⟩
  rw [mem_blk2]
  intro a
  match a with
  | ⟨0, _⟩ =>
    show win2_3.index ⟨(i 0).val / 5000, ht⟩ (0 : Fin 2) * 5000 ≤ (i 0).val ∧ (i 0).val < win2_3.index ⟨(i 0).val / 5000, ht⟩ (0 : Fin 2) * 5000 + 5000
    rw [e30]
    show (i 0).val / 5000 * 5000 ≤ (i 0).val ∧ (i 0).val < (i 0).val / 5000 * 5000 + 5000
    omega
  | ⟨1, _⟩ =>
    show win2_3.index ⟨(i 0).val / 5000, ht⟩ (1 : Fin 2) * 16 ≤ (i 1).val ∧ (i 1).val < win2_3.index ⟨(i 0).val / 5000, ht⟩ (1 : Fin 2) * 16 + 16
    rw [e31]
    omega

/-- The output array of the third region: entry `(p, q)` is `tanh` of the aggregated entry `(p, q)` times row `p`'s
    factor plus the bias of column `q`. -/
theorem final2_array (c : Dev nD) :
    (dat2 (F := Ideal) V c).arrAt 3 cfg2.N = G2 (V c main_v38) (V c main_v15) (V c main_v39) :=
  (dat2 (F := Ideal) V c).arrAt_eq_of_cover 3 (G2 (V c main_v38) (V c main_v15) (V c main_v39))
    (fun t _ => flushed2_eq V c t) cover2

/-- The same entry by entry. -/
theorem final2 (c : Dev nD) (p : Fin 100000) (q : Fin 16) :
    (dat2 (F := Ideal) V c).arrAt 3 cfg2.N (ix2 p q)
      = Ideal.tanh ((V c main_v38 : S100000x16.Idx → EReal) (ix2 p q) *ₑ (V c main_v15 : S100000x1.Idx → EReal) (ix2 p (0 : Fin 1))
            +ₑ (V c main_v39 : S1x16.Idx → EReal) (ix2 (0 : Fin 1) q)) :=
  congrFun (final2_array V c) (ix2 p q)

end Cert.KernelIdeal.RegionValue

end
-- ==== Proof.LibSplitNormRead.lean ====
/-
  A layer's aggregation as a host program computes it — a row gather of the scaled node features at the edges' sources,
  scatter-added into zeros at the edges' destinations — read at (n, q) as the specification's sum over the edges added
  at n.
-/
import proofs.«162709_j51788715655810_2_alg».proof.Proof.LibSplitNorm

noncomputable section

open scoped BigOperators

namespace Cert.GraphConv

open Idealize.ShloMosaic Idealize.ShloMosaic.ValueIdx Cert.LibRowScatter

variable {N E C w : Nat}

/-- A dense product at one entry (so that a proof opens the outer product and not the ones nested in it). -/
theorem dense_at {K : Nat} (A : Fin N → Fin K → EReal) (W : Fin K → Fin C → EReal) (p : Fin N) (q : Fin C) :
    dense A W p q = ∑ k : Fin K, A p k * W k q := rfl

/-- The activation at one entry. -/
theorem act_at (L : Fin N → Fin C → EReal) (b : Fin C → EReal) (p : Fin N) (q : Fin C) :
    act L b p q = Ideal.tanh (L p q + b q) := rfl

/-- Rows gathered at the sources and scatter-added into zeros at the destinations: at (n, q) the sum, over the edges
    added at n, of entry q of the gathered row. -/
theorem scatter_of_gather_apply (hN : 0 < N)
    (wfS : ScatterDims.WF ⟨2, ![N, C]⟩ ⟨2, ![E, 1]⟩ ⟨2, ![E, C]⟩ [1] [0] [0] 1)
    (wfG : GatherDims.WF ⟨2, ![N, C]⟩ ⟨2, ![E, 1]⟩ ⟨2, ![E, C]⟩ [1] [0] [] [0] [] 1 ![1, C])
    (zeros : (⟨2, ![N, C]⟩ : Shape).Idx → EReal) (hz : zeros = fun _ => 0)
    (S D : IVec ⟨2, ![E, 1]⟩ w) (OUT : (⟨2, ![N, C]⟩ : Shape).Idx → EReal) (n : Fin N) (q : Fin C) :
    Ideal.hostScatterAdd (rowScatterDims N E C wfS) zeros D (Host.gather (rowGatherDims N E C wfG) OUT S) (ix2 n q)
      = landed wfS D (fun e q' => OUT (ix2 (clampRow N hN S e) q')) n q := by
  subst hz
  unfold landed
  refine congrArg (fun U => Ideal.hostScatterAdd (rowScatterDims N E C wfS) (fun _ => 0) D U (ix2 n q)) ?_
  funext u
  obtain ⟨e, q', rfl⟩ : ∃ (e : Fin E) (q' : Fin C), u = ix2 e q' := ⟨u 0, u 1, eq_ix2 u⟩
  exact rowGather_apply hN wfG OUT S e q'

/-- The same with the gathered array's rows already scaled by the per-node factor, and the sum scaled by the factor
    of the node it is added at: the node-side arrangement of the aggregation. -/
theorem split_layer_apply (hN : 0 < N)
    (wfS : ScatterDims.WF ⟨2, ![N, C]⟩ ⟨2, ![E, 1]⟩ ⟨2, ![E, C]⟩ [1] [0] [0] 1)
    (wfG : GatherDims.WF ⟨2, ![N, C]⟩ ⟨2, ![E, 1]⟩ ⟨2, ![E, C]⟩ [1] [0] [] [0] [] 1 ![1, C])
    (zeros : (⟨2, ![N, C]⟩ : Shape).Idx → EReal) (hz : zeros = fun _ => 0)
    (S D : IVec ⟨2, ![E, 1]⟩ w) (d : Fin N → EReal) (H : Fin N → Fin C → EReal)
    (OUT : (⟨2, ![N, C]⟩ : Shape).Idx → EReal) (hOUT : ∀ i q', OUT (ix2 i q') = H i q' * d i) (n : Fin N) (q : Fin C) :
    Ideal.hostScatterAdd (rowScatterDims N E C wfS) zeros D (Host.gather (rowGatherDims N E C wfG) OUT S) (ix2 n q) * d n
      = aggSplit hN wfS S D d H n q := by
  rw [scatter_of_gather_apply hN wfS wfG zeros hz S D OUT n q]
  unfold aggSplit
  refine congrArg (fun U => landed wfS D U n q * d n) ?_
  funext e q'
  exact hOUT _ _

/-- The same for a host program's scatter-add and gather under ANY dimension records that are the row scatter's and
    the row gather's (the program's named records, handed in with the equations). -/
theorem split_layer_host_apply (hN : 0 < N)
    (wfS : ScatterDims.WF ⟨2, ![N, C]⟩ ⟨2, ![E, 1]⟩ ⟨2, ![E, C]⟩ [1] [0] [0] 1)
    (wfG : GatherDims.WF ⟨2, ![N, C]⟩ ⟨2, ![E, 1]⟩ ⟨2, ![E, C]⟩ [1] [0] [] [0] [] 1 ![1, C])
    (recS : ScatterDims ⟨2, ![N, C]⟩ ⟨2, ![E, 1]⟩ ⟨2, ![E, C]⟩) (hS : recS = rowScatterDims N E C wfS)
    (recG : GatherDims ⟨2, ![N, C]⟩ ⟨2, ![E, 1]⟩ ⟨2, ![E, C]⟩) (hG : recG = rowGatherDims N E C wfG)
    (zeros : FVec Ideal ⟨2, ![N, C]⟩ .f32) (hz : zeros = fun _ => 0)
    (S D : IVec ⟨2, ![E, 1]⟩ w) (d : Fin N → EReal) (H : Fin N → Fin C → EReal)
    (OUT : FVec Ideal ⟨2, ![N, C]⟩ .f32) (hOUT : ∀ i q', OUT (ix2 i q') = H i q' * d i) (n : Fin N) (q : Fin C) :
    Host.scatterAdd recS zeros D (Host.gather recG OUT S) (ix2 n q) * d n = aggSplit hN wfS S D d H n q := by
  subst hS hG
  exact split_layer_apply hN wfS wfG zeros hz S D d H OUT hOUT n q

end Cert.GraphConv

end
-- ==== Proof.LibHostRows.lean ====
/-
  A host program's row-wise reduction with kept dimensions, read at an index: the host's `reduce … add` of an
  `[a, b]` matrix along its second axis holds at row `r` the initial value plus the sum of that row's `b` entries; a
  vector `[a]` stretched to a column `[a, 1]` by `broadcast_in_dim` holds at `(p, u)` its entry `p`; a scalar stretched to
  any shape holds the scalar at every index; a column `[a, 1]` stretched over `c` columns holds at `(p, q)` its entry of
  row `p`. (An axis of extent one is the one a `broadcast_in_dim` repeats, so the long axis must not have extent one.)
-/
import Idealize.ShloMosaic.Lib.Pipeline.Value
import Idealize.ShloMosaic.Lib.ValueIdx
import Idealize.ShloMosaic.PureOps.Ideal.Laws

noncomputable section

open scoped BigOperators

namespace Cert.LibHostRows

open Idealize.ShloMosaic Idealize.ShloMosaic.ValueIdx

/-- The host's sum over the second axis of an `[a, b]` matrix, at row `r`: the initial value plus the sum of the row. -/
theorem hostReduceAdd_rows_apply {a b : ℕ} {φ : FTy} {u : Shape} (x : FVec Ideal ⟨2, ![a, b]⟩ φ) (init : u.Idx → Ideal φ)
    (h' : (⟨2, ![a, b]⟩ : Shape).ReducesTo [1] (⟨1, ![a]⟩ : Shape)) (h : (⟨2, ![a, b]⟩ : Shape).Reduces [1] (⟨1, ![a]⟩ : Shape))
    (hu : 0 < u.numel) (r : Fin a) :
    Host.reduceAdd x init h' hu (ix1 r) = init (Shape.Idx.first hu) + ∑ k : Fin b, x (ix2 r k) := by
  simp only [Host.reduceAdd, Ideal.hostReduceAdd_def]
  rw [Ideal.hostReduceAdd_single h' h]
  refine congrArg (_ + ·) (Finset.sum_congr rfl fun k _ => ?_)
  exact congrArg x (funext fun c => Fin.ext (by
    match c with
    | ⟨0, _⟩ => rfl
    | ⟨1, _⟩ => rfl))

variable {α : Type}

/-- A vector stretched to a column, read at `(p, u)`: its entry `p`. -/
theorem bcast_vec_col_apply {n : ℕ} (hn : n ≠ 1) (d : (⟨1, ![n]⟩ : Shape).Idx → α)
    (h : (⟨1, ![n]⟩ : Shape).BroadcastsInDim ⟨2, ![n, 1]⟩ ![0]) (p : Fin n) (u : Fin 1) :
    broadcastInDim ⟨2, ![n, 1]⟩ ![0] h d (ix2 p u) = d (ix1 p) :=
  broadcastInDim_apply ![0] h d (ix2 p u) (ix1 p) (fun a => by
    match a with
    | ⟨0, _⟩ => exact (if_neg hn).symm)

/-- A scalar stretched to any shape holds the scalar at every index. -/
theorem bcast_scalar_apply {t : Shape} (dims : Fin (⟨0, ![]⟩ : Shape).rank → Fin t.rank) (x : (⟨0, ![]⟩ : Shape).Idx → α)
    (h : (⟨0, ![]⟩ : Shape).BroadcastsInDim t dims) (j : t.Idx) :
    broadcastInDim t dims h x j = x ix0 :=
  broadcastInDim_apply dims h x j ix0 (fun a => a.elim0)

/-- A column stretched over `c` columns, read at `(p, q)`: its entry of row `p`. -/
theorem bcast_col_mat_apply {n c : ℕ} (hn : n ≠ 1) (v : (⟨2, ![n, 1]⟩ : Shape).Idx → α)
    (h : (⟨2, ![n, 1]⟩ : Shape).BroadcastsInDim ⟨2, ![n, c]⟩ ![0, 1]) (p : Fin n) (q : Fin c) :
    broadcastInDim ⟨2, ![n, c]⟩ ![0, 1] h v (ix2 p q) = v (ix2 p (0 : Fin 1)) :=
  broadcastInDim_apply ![0, 1] h v (ix2 p q) (ix2 p (0 : Fin 1)) (fun a => by
    match a with
    | ⟨0, _⟩ => exact (if_neg hn).symm
    | ⟨1, _⟩ => exact (if_pos rfl).symm)

end Cert.LibHostRows

end
-- ==== Proof.KernelNet.lean ====
/-
  The three-region program's result array, index by index, is the two-layer network in its node-side arrangement:
  region 0 leaves (x · W1) scaled row by row by the per-node factor; the host gathers those rows at the edges' sources
  and adds them up at the destinations; region 1 scales the sums by the factor, adds the bias, applies tanh, multiplies
  by W2 and scales the rows again; the host aggregates once more; region 2 scales, adds the second bias and applies
  tanh.
-/
import proofs.«162709_j51788715655810_2_alg».proof.Proof.KernelEntry
import proofs.«162709_j51788715655810_2_alg».proof.Proof.Region0
import proofs.«162709_j51788715655810_2_alg».proof.Proof.Region1
import proofs.«162709_j51788715655810_2_alg».proof.Proof.Region2
import proofs.«162709_j51788715655810_2_alg».proof.Proof.LibSplitNormRead
import proofs.«162709_j51788715655810_2_alg».proof.Proof.LibHostRows

set_option maxRecDepth 16384

noncomputable section

open scoped BigOperators

namespace Cert.KernelIdeal.Net

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen Idealize.ShloMosaic.StableHlo
open Cert.GraphConv Idealize.ShloMosaic.ValueIdx Cert.KernelIdeal.Entry Cert.KernelIdeal.RegionValue Cert.LibRowScatter

variable (m : (ℓ : Loc nD τ sig) → Buf (Elt Ideal) ℓ) (ρ : Dev nD → PrngReg) (c : Dev nD)

/-- The product of two extended reals, for entries of a buffer (whose element type only unfolds to the extended reals). -/
local infixl:70 (name := entryMulNet) " *ₑ " => (HMul.hMul : EReal → EReal → EReal)

/-- The arguments as curried functions of their coordinates. -/
def xOf : Fin 100000 → Fin 128 → EReal := fun p k => (m ((c : Thread nD τ).loc main_arg0) : S100000x128.Idx → EReal) (ix2 p k)
def w1Of : Fin 128 → Fin 16 → EReal := fun k q => (m ((c : Thread nD τ).loc main_arg2) : S128x16.Idx → EReal) (ix2 k q)
def b1Of : Fin 16 → EReal := fun q => (m ((c : Thread nD τ).loc main_arg3) : S16.Idx → EReal) (ix1 q)
def w2Of : Fin 16 → Fin 16 → EReal := fun k q => (m ((c : Thread nD τ).loc main_arg4) : S16x16.Idx → EReal) (ix2 k q)
def b2Of : Fin 16 → EReal := fun q => (m ((c : Thread nD τ).loc main_arg5) : S16.Idx → EReal) (ix1 q)

/-- The side conditions of the row scatter's dimension numbers, as the program states them. -/
abbrev wfRowsK := scatter_S100000x16_S3300000x1_S3300000x16_1_0_0_1.wf
abbrev wfGatherK := gather_S100000x16_S3300000x1_S3300000x16_1_0_n_n_0_1_116.wf

/-- The zero array the scatter-add starts from. -/
theorem zeros_eq : (broadcastInDim S100000x16 ![] bcast_S_S100000x16 (constant (F := Ideal) S_ .f32 0x00000000#32) : S100000x16.Idx → EReal)
    = fun _ => 0 := by
  funext j
  rw [Cert.LibHostRows.bcast_scalar_apply]
  exact Ideal.ofBits_zero_f32

/-- The source column the host prepares is the one the specification names. -/
theorem src_col_eq (e : EdgeList) :
    (broadcastInDim S3300000x1 ![0] bcast_S3300000_S3300000x1_0
      (select (cmpi .slt (Cert.ReferenceIdeal.ReadP.val_main_v6 (F := Ideal) e) (broadcastInDim S3300000 ![] bcast_S_S3300000 (constantI S_ 32 0#32)))
        (addi (Cert.ReferenceIdeal.ReadP.val_main_v6 (F := Ideal) e) (broadcastInDim S3300000 ![] bcast_S_S3300000 (constantI S_ 32 100000#32)))
        (Cert.ReferenceIdeal.ReadP.val_main_v6 (F := Ideal) e)) : IVec ⟨2, ![3300000, 1]⟩ 32) = srcCol e := rfl

theorem dst_col_eq (e : EdgeList) :
    (broadcastInDim S3300000x1 ![0] bcast_S3300000_S3300000x1_0 (Cert.ReferenceIdeal.ReadP.val_main_v7 (F := Ideal) e) : IVec ⟨2, ![3300000, 1]⟩ 32)
      = dstCol e := rfl

/-- One aggregation of the host program, scaled by the factor of the node it is added at, is the specification's
    node-side aggregation of H, when the gathered rows are the rows of H scaled by the factor. -/
theorem aggregate_apply (e : EdgeList) (H : Fin 100000 → Fin 16 → EReal) (OUT : FVec Ideal S100000x16 .f32)
    (hOUT : ∀ i q', OUT (ix2 i q') = H i q' * nodeFactor e i) (n : Fin 100000) (q : Fin 16) :
    (Host.scatterAdd scatter_S100000x16_S3300000x1_S3300000x16_1_0_0_1
        (broadcastInDim S100000x16 ![] bcast_S_S100000x16 (constant (F := Ideal) S_ .f32 0x00000000#32))
        (dstCol e)
        (Host.gather gather_S100000x16_S3300000x1_S3300000x16_1_0_n_n_0_1_116 OUT (srcCol e)) : S100000x16.Idx → EReal) (ix2 n q)
      * nodeFactor e n
      = aggSplit nodes_pos wfRowsK (srcCol e) (dstCol e) (nodeFactor e) H n q :=
  split_layer_host_apply nodes_pos wfRowsK wfGatherK scatter_S100000x16_S3300000x1_S3300000x16_1_0_0_1 rfl
    gather_S100000x16_S3300000x1_S3300000x16_1_0_n_n_0_1_116 rfl _ zeros_eq (srcCol e) (dstCol e) (nodeFactor e) H OUT hOUT n q

/-! ## Region 0 -/

theorem out0_apply (i : Fin 100000) (q' : Fin 16) :
    ((dat0 (F := Ideal) (V3 m ρ) c).arrAt 3 cfg0.N : S100000x16.Idx → EReal) (ix2 i q')
      = dense (xOf m c) (w1Of m c) i q' * nodeFactor (edges m c) i := by
  rw [final0 (V3 m ρ) c i q', x_at_region0 m ρ c, w1_at_region0 m ρ c, column_at_region0 m ρ c i]
  rfl

/-! ## Region 1 -/

theorem agg1_apply (n : Fin 100000) (k : Fin 16) :
    (V5 m ρ c main_v26 : S100000x16.Idx → EReal) (ix2 n k) *ₑ nodeFactor (edges m c) n
      = aggSplit nodes_pos wfRowsK (srcCol (edges m c)) (dstCol (edges m c)) (nodeFactor (edges m c))
          (dense (xOf m c) (w1Of m c)) n k := by
  rw [aggregate_at_region1 m ρ c, src_col_eq, dst_col_eq]
  exact aggregate_apply (edges m c) _ _ (out0_apply m ρ c) n k

theorem out1_apply (i : Fin 100000) (q' : Fin 16) :
    ((dat1 (F := Ideal) (V5 m ρ) c).arrAt 4 cfg1.N : S100000x16.Idx → EReal) (ix2 i q')
      = dense (act (aggSplit nodes_pos wfRowsK (srcCol (edges m c)) (dstCol (edges m c)) (nodeFactor (edges m c))
            (dense (xOf m c) (w1Of m c))) (b1Of m c)) (w2Of m c) i q' * nodeFactor (edges m c) i := by
  rw [final1 (V5 m ρ) c i q', column_at_region1 m ρ c, column_at_region0 m ρ c i, w2_at_region1 m ρ c]
  refine congrArg (fun t : EReal => t * nodeFactor (edges m c) i) ?_
  rw [dense_at]
  refine Finset.sum_congr rfl fun k _ => ?_
  refine congrArg₂ (fun (s t : EReal) => s * t) ?_ rfl
  rw [act_at]
  refine congrArg Ideal.tanh ?_
  rw [bias_at_region1 m ρ c k, ← agg1_apply m ρ c i k]
  rfl

/-! ## Region 2 -/

theorem agg2_apply (n : Fin 100000) (k : Fin 16) :
    (V7 m ρ c main_v38 : S100000x16.Idx → EReal) (ix2 n k) *ₑ nodeFactor (edges m c) n
      = aggSplit nodes_pos wfRowsK (srcCol (edges m c)) (dstCol (edges m c)) (nodeFactor (edges m c))
          (dense (act (aggSplit nodes_pos wfRowsK (srcCol (edges m c)) (dstCol (edges m c)) (nodeFactor (edges m c))
            (dense (xOf m c) (w1Of m c))) (b1Of m c)) (w2Of m c)) n k := by
  rw [aggregate_at_region2 m ρ c, src_col_eq, dst_col_eq]
  exact aggregate_apply (edges m c) _ _ (out1_apply m ρ c) n k

/-- The program's result array at (p, q): the two-layer network, node-side arrangement. -/
theorem result_apply (p : Fin 100000) (q : Fin 16) :
    (W8 m ρ c (Proc.devRef .tc main_v40) : S100000x16.Idx → EReal) (ix2 p q)
      = netSplit nodes_pos wfRowsK (srcCol (edges m c)) (dstCol (edges m c)) (nodeFactor (edges m c))
          (xOf m c) (w1Of m c) (b1Of m c) (w2Of m c) (b2Of m c) p q := by
  rw [show W8 m ρ c (Proc.devRef .tc main_v40) = (dat2 (F := Ideal) (V7 m ρ) c).arrAt 3 cfg2.N from W8_arr m ρ c 3,
    final2 (V7 m ρ) c p q, column_at_region2 m ρ c, column_at_region0 m ρ c p, bias_at_region2 m ρ c q,
    agg2_apply m ρ c p q]
  rfl

end Cert.KernelIdeal.Net

end
-- ==== Proof.RefNet.lean ====
/-
  The reference program's result, read index by index, is the two-layer graph convolution with edge-side scaling;
  and two facts about the graph's index arrays: the per-node factor is nonnegative and finite, and the destinations
  prepared for a gather name, on every edge that is added at a node, that node.
-/
import proofs.«162709_j51788715655810_2_alg».proof.Proof.Names

noncomputable section

open scoped BigOperators

namespace Cert.GraphConv.RefSide

open Idealize.ShloMosaic Idealize.ShloMosaic.ValueIdx Cert.ReferenceIdeal Cert.ReferenceIdeal.ReadP Cert.LibRowScatter
  Cert.LibCount Cert.GraphConv

/-! ## The program's dimension records are the generic ones at the literal sizes -/

/-- The side condition of the program's row scatter. -/
abbrev wfRows := Cert.ReferenceIdeal.scatter_S100000x16_S3300000x1_S3300000x16_1_0_0_1.wf

theorem rowScatter_eq :
    scatter_S100000x16_S3300000x1_S3300000x16_1_0_0_1 = rowScatterDims 100000 3300000 16 wfRows := rfl

theorem rowGather_eq :
    gather_S100000x16_S3300000x1_S3300000x16_1_0_n_n_0_1_116
      = rowGatherDims 100000 3300000 16 gather_S100000x16_S3300000x1_S3300000x16_1_0_n_n_0_1_116.wf := rfl

theorem vecGather_eq :
    gather_S100000_S3300000x1_S3300000_n_0_n_n_0_1_1
      = vecGatherDims 100000 3300000 gather_S100000_S3300000x1_S3300000_n_0_n_n_0_1_1.wf := rfl

theorem vecScatter_eq :
    scatter_S100000_S3300000x1_S3300000_n_0_0_1
      = vecScatterDims 100000 3300000 scatter_S100000_S3300000x1_S3300000_n_0_0_1.wf := rfl

/-! ## The destinations prepared for a gather -/

/-- A signed word that is nonnegative is not below zero. -/
theorem cmpi_slt_zero_of_nonneg (z : BitVec 32) (h : 0 ≤ z.toInt) : IntOp.cmpi .slt z 0#32 = 0#1 := by
  have hs : z.slt 0#32 = false := by
    unfold BitVec.slt
    have h0 : (0#32 : BitVec 32).toInt = 0 := by decide
    rw [h0]
    exact decide_eq_false (by omega)
  show BitVec.ofBool (z.slt 0#32) = 0#1
  rw [hs]
  rfl

/-- The destination column at edge e is entry e of the joined destination vector. -/
theorem dstCol_apply (x1 : EdgeList) (e : Fin 3300000) :
    dstCol x1 (ix2 e (0 : Fin 1)) = val_main_v7 (F := Ideal) x1 (ix1 e) := by
  unfold dstCol
  rw [val_main_v42_apply]
  exact congrArg _ (funext fun a => Fin.ext (by match a with | ⟨0, _⟩ => rfl))

/-- The prepared destination column at edge e: the destination, moved up by the number of nodes when negative. -/
theorem dstWrapCol_apply (x1 : EdgeList) (e : Fin 3300000) :
    dstWrapCol x1 (ix2 e (0 : Fin 1))
      = Scalar.select (IntOp.cmpi .slt (val_main_v7 (F := Ideal) x1 (ix1 e)) 0#32)
          (IntOp.addi (val_main_v7 (F := Ideal) x1 (ix1 e)) 100000#32) (val_main_v7 (F := Ideal) x1 (ix1 e)) := by
  unfold dstWrapCol
  have hi : idx_main_v28 (ix2 e (0 : Fin 1)) = ix1 e :=
    funext fun a => Fin.ext (by match a with | ⟨0, _⟩ => rfl)
  rw [val_main_v28_apply, hi, val_main_v27_apply, val_main_v24_apply, val_main_v26_apply, val_main_v23_apply,
    val_main_v25_apply, val_main_c_4_apply, val_main_c_5_apply]

/-- On an edge whose destination, read signed, is the node n, the prepared destination names n too. -/
theorem dst_wrap (x1 : EdgeList) (e : Fin 3300000) (n : Fin 100000) :
    (dstCol x1 (ix2 e (0 : Fin 1))).toInt = (n.val : Int) →
      Cert.LibRowScatter.clampRow 100000 Cert.GraphConv.nodes_pos (dstWrapCol x1) e = n := by
  intro h
  rw [dstCol_apply] at h
  have hnn : 0 ≤ (val_main_v7 (F := Ideal) x1 (ix1 e)).toInt := by
    rw [h]
    exact Int.natCast_nonneg _
  have hw : dstWrapCol x1 (ix2 e (0 : Fin 1)) = val_main_v7 (F := Ideal) x1 (ix1 e) := by
    rw [dstWrapCol_apply, cmpi_slt_zero_of_nonneg _ hnn, select_zero]
  refine Fin.ext ?_
  show min (dstWrapCol x1 (ix2 e (0 : Fin 1))).toInt.toNat (100000 - 1) = n.val
  rw [hw, h]
  have := n.isLt
  omega

/-! ## The per-node factor -/

/-- The scatter-add's operand of the degree count is zero everywhere. -/
theorem zeros_eq : (val_main_v9 (F := Ideal) : S100000.Idx → EReal) = fun _ => 0 := by
  funext i
  rw [val_main_v9_apply, val_main_cst_0_apply, Ideal.ofBits_def]
  exact zero_word

/-- The scatter-add's updates of the degree count are one everywhere. -/
theorem ones_eq : (val_main_v8 (F := Ideal) : S3300000.Idx → EReal) = fun _ => 1 := by
  funext i
  rw [val_main_v8_apply, val_main_cst_apply, Ideal.ofBits_def]
  exact one_word

/-- The degree stage, with its two constant arrays read: ones added into zeros at the destinations. -/
theorem deg_eq (x1 : EdgeList) :
    val_main_v11 (F := Ideal) x1
      = Ideal.hostScatterAdd scatter_S100000_S3300000x1_S3300000_n_0_0_1 (fun _ => 0) (val_main_v10 (F := Ideal) x1)
          (fun _ => 1) := by
  unfold val_main_v11
  simp only [Host.scatterAdd, Ideal.hostScatterAdd_def]
  rw [zeros_eq, ones_eq]

/-- The in-degree of a node (self-loops added) is a natural number. -/
theorem deg_nat (x1 : EdgeList) (n : Fin 100000) :
    ∃ k : ℕ, val_main_v11 (F := Ideal) x1 (ix1 n) = ((k : ℕ) : EReal) := by
  rw [deg_eq]
  exact count_nat (N := 100000) (E := 3300000) scatter_S100000_S3300000x1_S3300000_n_0_0_1.wf
    (val_main_v10 (F := Ideal) x1) n

/-- The per-node factor, as the guarded inverse square root of the in-degree. -/
theorem nodeFactor_eq (x1 : EdgeList) (n : Fin 100000) :
    nodeFactor x1 n
      = Scalar.select (Ideal.cmp .ogt (val_main_v11 (F := Ideal) x1 (ix1 n)) 0)
          (Ideal.rsqrt (val_main_v11 (F := Ideal) x1 (ix1 n))) (0 : EReal) := by
  unfold nodeFactor
  rw [val_main_v15_apply, val_main_v13_apply, val_main_v14_apply, val_main_call0_v1_apply, val_main_call0_v0_apply,
    val_main_cst_2_apply, val_main_v12_apply, val_main_cst_1_apply, Ideal.cmpf_def, Ideal.hostUnary_rsqrt_def,
    Ideal.ofBits_def, zero_word]

theorem nodeFactor_nonneg_ne_top (x1 : EdgeList) (n : Fin 100000) :
    0 ≤ nodeFactor x1 n ∧ nodeFactor x1 n ≠ ⊤ := by
  obtain ⟨k, hk⟩ := deg_nat x1 n
  rw [nodeFactor_eq]
  exact guarded_rsqrt_nonneg_ne_top _ k hk

/-! ## One layer's aggregation, for any feature matrix -/

/-- The source column is computed twice inside a layer: the two are one term of the edge list. -/
theorem src1_eq (x1 : EdgeList) : val_main_v21 (F := Ideal) x1 = val_main_v36 (F := Ideal) x1 := rfl

/-- The scatter-add's operand of the aggregation is zero everywhere. -/
theorem zeroRows_eq : (val_main_v41 (F := Ideal) : S100000x16.Idx → EReal) = fun _ => 0 := by
  funext i
  rw [val_main_v41_apply, val_main_cst_8_apply, Ideal.ofBits_def]
  exact zero_word

/-- The per-edge coefficient stretched over the columns, at (e, c): the factor at the edge's source times the factor
    at its prepared destination. -/
theorem coef_apply (x1 : EdgeList) (e : Fin 3300000) (c : Fin 16) :
    val_main_v39 (F := Ideal) x1 (ix2 e c)
      = nodeFactor x1 (clampRow 100000 nodes_pos (srcCol x1) e)
          * nodeFactor x1 (clampRow 100000 nodes_pos (dstWrapCol x1) e) := by
  have hi : idx_main_v38 (idx_main_v39 (ix2 e c)) = ix1 e :=
    funext fun a => Fin.ext (by match a with | ⟨0, _⟩ => rfl)
  have hs : val_main_v22 (F := Ideal) x1 (ix1 e)
      = val_main_v15 (F := Ideal) x1 (ix1 (clampRow 100000 nodes_pos (val_main_v21 (F := Ideal) x1) e)) :=
    vecGather_apply nodes_pos gather_S100000_S3300000x1_S3300000_n_0_n_n_0_1_1.wf (val_main_v15 (F := Ideal) x1)
      (val_main_v21 (F := Ideal) x1) e
  have hd : val_main_v29 (F := Ideal) x1 (ix1 e)
      = val_main_v15 (F := Ideal) x1 (ix1 (clampRow 100000 nodes_pos (val_main_v28 (F := Ideal) x1) e)) :=
    vecGather_apply nodes_pos gather_S100000_S3300000x1_S3300000_n_0_n_n_0_1_1.wf (val_main_v15 (F := Ideal) x1)
      (val_main_v28 (F := Ideal) x1) e
  rw [val_main_v39_apply, val_main_v38_apply, hi, val_main_v30_apply, Ideal.mulf_def, hs, hd, src1_eq]
  rfl

/-- A row scatter-add into a zero operand, whose update at (e, c) is U e c, is the rows U(e, ·) of the edges added at
    each node, summed. -/
theorem scatter_eq_landed {N E C w : Nat}
    (wfS : ScatterDims.WF ⟨2, ![N, C]⟩ ⟨2, ![E, 1]⟩ ⟨2, ![E, C]⟩ [1] [0] [0] 1)
    (z : (⟨2, ![N, C]⟩ : Shape).Idx → EReal) (hz : z = fun _ => 0) (D : IVec ⟨2, ![E, 1]⟩ w)
    (upd : (⟨2, ![E, C]⟩ : Shape).Idx → EReal) (U : Fin E → Fin C → EReal)
    (hU : ∀ (e : Fin E) (c : Fin C), upd (ix2 e c) = U e c) (n : Fin N) (q : Fin C) :
    Ideal.hostScatterAdd (rowScatterDims N E C wfS) z D upd (ix2 n q) = landed wfS D U n q := by
  subst hz
  have hupd : upd = fun u => U (u 0) (u 1) := by
    funext u
    obtain ⟨e, c, rfl⟩ : ∃ (e : Fin E) (c : Fin C), u = ix2 e c := ⟨u 0, u 1, eq_ix2 u⟩
    exact hU e c
  unfold landed
  rw [hupd]

/-- One layer's update row of edge e, at column c: the row of H at the edge's source, times the edge's coefficient. -/
theorem upd_apply (x1 : EdgeList) (H : FVec Ideal S100000x16 .f32) (e : Fin 3300000) (c : Fin 16) :
    mulf (Host.gather gather_S100000x16_S3300000x1_S3300000x16_1_0_n_n_0_1_116 H (val_main_v36 (F := Ideal) x1))
        (val_main_v39 (F := Ideal) x1) (ix2 e c)
      = H (ix2 (clampRow 100000 nodes_pos (srcCol x1) e) c)
          * (nodeFactor x1 (clampRow 100000 nodes_pos (srcCol x1) e)
            * nodeFactor x1 (clampRow 100000 nodes_pos (dstWrapCol x1) e)) := by
  have hg : Host.gather gather_S100000x16_S3300000x1_S3300000x16_1_0_n_n_0_1_116 H (val_main_v36 (F := Ideal) x1)
      (ix2 e c) = H (ix2 (clampRow 100000 nodes_pos (srcCol x1) e) c) :=
    rowGather_apply nodes_pos gather_S100000x16_S3300000x1_S3300000x16_1_0_n_n_0_1_116.wf H
      (val_main_v36 (F := Ideal) x1) e c
  rw [mulf_apply, hg, coef_apply]

/-- One layer's aggregation stage as a function, with its zero operand read: the update rows added into zeros at the
    destinations. -/
theorem stage_eq (x1 : EdgeList) (H : FVec Ideal S100000x16 .f32) :
    Host.scatterAdd (F := Ideal) scatter_S100000x16_S3300000x1_S3300000x16_1_0_0_1 (val_main_v41 (F := Ideal))
        (val_main_v42 (F := Ideal) x1)
        (mulf (Host.gather gather_S100000x16_S3300000x1_S3300000x16_1_0_n_n_0_1_116 H (val_main_v36 (F := Ideal) x1))
          (val_main_v39 (F := Ideal) x1))
      = Ideal.hostScatterAdd scatter_S100000x16_S3300000x1_S3300000x16_1_0_0_1 (fun _ => 0)
          (val_main_v42 (F := Ideal) x1)
          (mulf (Host.gather gather_S100000x16_S3300000x1_S3300000x16_1_0_n_n_0_1_116 H (val_main_v36 (F := Ideal) x1))
            (val_main_v39 (F := Ideal) x1)) := by
  simp only [Host.scatterAdd, Ideal.hostScatterAdd_def]
  rw [zeroRows_eq]

/-- One layer's aggregation stage for any feature matrix H: the rows of H taken at the edges' sources, each scaled by
    its edge's coefficient, added up at the edges' destinations. -/
theorem layer_agg (x1 : EdgeList) (H : FVec Ideal S100000x16 .f32) (n : Fin 100000) (q : Fin 16) :
    Host.scatterAdd (F := Ideal) scatter_S100000x16_S3300000x1_S3300000x16_1_0_0_1 (val_main_v41 (F := Ideal))
        (val_main_v42 (F := Ideal) x1)
        (mulf (Host.gather gather_S100000x16_S3300000x1_S3300000x16_1_0_n_n_0_1_116 H (val_main_v36 (F := Ideal) x1))
          (val_main_v39 (F := Ideal) x1)) (ix2 n q)
      = aggEdge nodes_pos wfRows (srcCol x1) (dstCol x1) (dstWrapCol x1) (nodeFactor x1)
          (fun p k => H (ix2 p k)) n q := by
  rw [stage_eq]
  unfold aggEdge
  exact scatter_eq_landed wfRows (fun _ => 0) rfl (dstCol x1)
    (mulf (Host.gather gather_S100000x16_S3300000x1_S3300000x16_1_0_n_n_0_1_116 H (val_main_v36 (F := Ideal) x1))
      (val_main_v39 (F := Ideal) x1)) _
    (fun e c => upd_apply x1 H e c) n q

/-! ## The dense products, the bias rows, and the two layers -/

/-- Bias and tanh, read at (p, q). -/
theorem act_apply {N C : Nat} (L : Fin N → Fin C → EReal) (b : Fin C → EReal) (p : Fin N) (q : Fin C) :
    act L b p q = Ideal.tanh (L p q + b q) := rfl

/-- A dense product, read at (p, q). -/
theorem dense_apply {N C K : Nat} (A : Fin N → Fin K → EReal) (W : Fin K → Fin C → EReal) (p : Fin N) (q : Fin C) :
    dense A W p q = ∑ k : Fin K, A p k * W k q := rfl

/-- The first dense product is the features times the first weight matrix. -/
theorem dense1_eq (x0 : (⟨S100000x128, .f32⟩ : BufTy).Contents (Elt Ideal))
    (x2 : (⟨S128x16, .f32⟩ : BufTy).Contents (Elt Ideal)) :
    (fun (p : Fin 100000) (k : Fin 16) => val_main_v4 (F := Ideal) x0 x2 (ix2 p k))
      = dense (fun p k => x0 (ix2 p k)) (fun k q => x2 (ix2 k q)) := by
  funext p q
  show val_main_v4 (F := Ideal) x0 x2 (ix2 p q) = _
  rw [val_main_v4_apply, dense_apply]
  refine Finset.sum_congr rfl fun k _ => ?_
  have el : lidx_main_v4 (ix2 p q) k = ix2 p k :=
    funext fun a => Fin.ext (by match a with | ⟨0, _⟩ => rfl | ⟨1, _⟩ => rfl)
  have er : ridx_main_v4 (ix2 p q) k = ix2 k q :=
    funext fun a => Fin.ext (by match a with | ⟨0, _⟩ => rfl | ⟨1, _⟩ => rfl)
  rw [el, er]

/-- The first bias vector stretched down the rows, at (p, q): its entry q. -/
theorem bias1_apply (x3 : (⟨S16, .f32⟩ : BufTy).Contents (Elt Ideal)) (p : Fin 100000) (q : Fin 16) :
    val_main_v45 (F := Ideal) x3 (ix2 p q) = x3 (ix1 q) := by
  have hi : idx_main_v44 (idx_main_v45 (ix2 p q)) = ix1 q :=
    funext fun a => Fin.ext (by match a with | ⟨0, _⟩ => rfl)
  rw [val_main_v45_apply, val_main_v44_apply, hi]

/-- The second bias vector stretched down the rows, at (p, q): its entry q. -/
theorem bias2_apply (x5 : (⟨S16, .f32⟩ : BufTy).Contents (Elt Ideal)) (p : Fin 100000) (q : Fin 16) :
    val_main_v89 (F := Ideal) x5 (ix2 p q) = x5 (ix1 q) := by
  have hi : idx_main_v88 (idx_main_v89 (ix2 p q)) = ix1 q :=
    funext fun a => Fin.ext (by match a with | ⟨0, _⟩ => rfl)
  rw [val_main_v89_apply, val_main_v88_apply, hi]

/-- The first layer's result, at (p, q). -/
theorem layer1_apply (x0 : (⟨S100000x128, .f32⟩ : BufTy).Contents (Elt Ideal)) (x1 : EdgeList)
    (x2 : (⟨S128x16, .f32⟩ : BufTy).Contents (Elt Ideal)) (x3 : (⟨S16, .f32⟩ : BufTy).Contents (Elt Ideal))
    (p : Fin 100000) (q : Fin 16) :
    val_main_v47 (F := Ideal) x0 x1 x2 x3 (ix2 p q)
      = act (aggEdge nodes_pos wfRows (srcCol x1) (dstCol x1) (dstWrapCol x1) (nodeFactor x1)
          (dense (fun p k => x0 (ix2 p k)) (fun k q => x2 (ix2 k q)))) (fun q => x3 (ix1 q)) p q := by
  have hagg : val_main_v43 (F := Ideal) x0 x1 x2 (ix2 p q)
      = aggEdge nodes_pos wfRows (srcCol x1) (dstCol x1) (dstWrapCol x1) (nodeFactor x1)
          (dense (fun p k => x0 (ix2 p k)) (fun k q => x2 (ix2 k q))) p q := by
    rw [← dense1_eq]
    unfold val_main_v43 val_main_v40 val_main_v37
    exact layer_agg x1 (val_main_v4 (F := Ideal) x0 x2) p q
  rw [act_apply, val_main_v47_apply, val_main_v46_apply, Ideal.hostUnary_tanh_def, Ideal.addf_def, bias1_apply, hagg]

/-! Layer 2 recomputes the index arrays and the coefficient under new names: the same terms of the edge list. -/

theorem src2_eq (x1 : EdgeList) : val_main_v80 (F := Ideal) x1 = val_main_v36 (F := Ideal) x1 := rfl
theorem dst2_eq (x1 : EdgeList) : val_main_v86 (F := Ideal) x1 = val_main_v42 (F := Ideal) x1 := rfl
theorem zeroRows2_eq : val_main_v85 (F := Ideal) = val_main_v41 (F := Ideal) := rfl
theorem factor2_eq (x1 : EdgeList) : val_main_v59 (F := Ideal) x1 = val_main_v15 (F := Ideal) x1 := rfl
theorem srcv2_eq (x1 : EdgeList) : val_main_v65 (F := Ideal) x1 = val_main_v21 (F := Ideal) x1 := rfl
theorem dstw2_eq (x1 : EdgeList) : val_main_v72 (F := Ideal) x1 = val_main_v28 (F := Ideal) x1 := rfl

/-- The second layer's stretched coefficient is the first layer's. -/
theorem coef2_eq (x1 : EdgeList) : val_main_v83 (F := Ideal) x1 = val_main_v39 (F := Ideal) x1 := by
  unfold val_main_v83 val_main_v82 val_main_v74 val_main_v66 val_main_v73 val_main_v39 val_main_v38 val_main_v30
    val_main_v22 val_main_v29
  rw [factor2_eq, srcv2_eq, dstw2_eq]

/-- The second layer's aggregation stage, at (p, q). -/
theorem agg2_apply (x0 : (⟨S100000x128, .f32⟩ : BufTy).Contents (Elt Ideal)) (x1 : EdgeList)
    (x2 : (⟨S128x16, .f32⟩ : BufTy).Contents (Elt Ideal)) (x3 : (⟨S16, .f32⟩ : BufTy).Contents (Elt Ideal))
    (x4 : (⟨S16x16, .f32⟩ : BufTy).Contents (Elt Ideal)) (p : Fin 100000) (q : Fin 16) :
    val_main_v87 (F := Ideal) x0 x1 x2 x3 x4 (ix2 p q)
      = aggEdge nodes_pos wfRows (srcCol x1) (dstCol x1) (dstWrapCol x1) (nodeFactor x1)
          (fun p k => val_main_v48 (F := Ideal) x0 x1 x2 x3 x4 (ix2 p k)) p q := by
  unfold val_main_v87 val_main_v84 val_main_v81
  rw [zeroRows2_eq, dst2_eq, src2_eq, coef2_eq]
  exact layer_agg x1 (val_main_v48 (F := Ideal) x0 x1 x2 x3 x4) p q

/-- The second dense product is the first layer's result times the second weight matrix. -/
theorem dense2_eq (x0 : (⟨S100000x128, .f32⟩ : BufTy).Contents (Elt Ideal)) (x1 : EdgeList)
    (x2 : (⟨S128x16, .f32⟩ : BufTy).Contents (Elt Ideal)) (x3 : (⟨S16, .f32⟩ : BufTy).Contents (Elt Ideal))
    (x4 : (⟨S16x16, .f32⟩ : BufTy).Contents (Elt Ideal)) :
    (fun (p : Fin 100000) (k : Fin 16) => val_main_v48 (F := Ideal) x0 x1 x2 x3 x4 (ix2 p k))
      = dense (act (aggEdge nodes_pos wfRows (srcCol x1) (dstCol x1) (dstWrapCol x1) (nodeFactor x1)
          (dense (fun p k => x0 (ix2 p k)) (fun k q => x2 (ix2 k q)))) (fun q => x3 (ix1 q)))
          (fun k q => x4 (ix2 k q)) := by
  funext p q
  show val_main_v48 (F := Ideal) x0 x1 x2 x3 x4 (ix2 p q) = _
  rw [val_main_v48_apply, dense_apply]
  refine Finset.sum_congr rfl fun k _ => ?_
  have el : lidx_main_v48 (ix2 p q) k = ix2 p k :=
    funext fun a => Fin.ext (by match a with | ⟨0, _⟩ => rfl | ⟨1, _⟩ => rfl)
  have er : ridx_main_v48 (ix2 p q) k = ix2 k q :=
    funext fun a => Fin.ext (by match a with | ⟨0, _⟩ => rfl | ⟨1, _⟩ => rfl)
  rw [el, er, layer1_apply]

/-- The reference program's result at (p, q) is the two-layer network with edge-side scaling. -/
theorem ref_net (x0 : (⟨S100000x128, .f32⟩ : BufTy).Contents (Elt Ideal)) (x1 : Cert.GraphConv.EdgeList)
    (x2 : (⟨S128x16, .f32⟩ : BufTy).Contents (Elt Ideal)) (x3 : (⟨S16, .f32⟩ : BufTy).Contents (Elt Ideal))
    (x4 : (⟨S16x16, .f32⟩ : BufTy).Contents (Elt Ideal)) (x5 : (⟨S16, .f32⟩ : BufTy).Contents (Elt Ideal))
    (p : Fin 100000) (q : Fin 16) :
    Cert.ReferenceIdeal.ReadP.val_main_v91 (F := Ideal) x0 x1 x2 x3 x4 x5 (ix2 p q)
      = Cert.GraphConv.netEdge Cert.GraphConv.nodes_pos wfRows (srcCol x1) (dstCol x1) (dstWrapCol x1) (nodeFactor x1)
          (fun p k => x0 (ix2 p k)) (fun k q => x2 (ix2 k q)) (fun q => x3 (ix1 q)) (fun k q => x4 (ix2 k q))
          (fun q => x5 (ix1 q)) p q := by
  unfold netEdge
  rw [act_apply, val_main_v91_apply, val_main_v90_apply, Ideal.hostUnary_tanh_def, Ideal.addf_def, bias2_apply,
    agg2_apply, dense2_eq]

end Cert.GraphConv.RefSide

end
-- ==== Proof.lean ====
/-
  The certificate of a two-layer graph convolution (symmetric degree normalisation, tanh) computed by three
  row-blocked kernels with the gather and scatter-add of the aggregation left to the host, against the reference that
  scales every edge's message by d(src) · d(dst).

  The frames of the two kernel programs are the generated ones; the reference's frame is its run with the result
  dropped. The ideal pass rewrote nothing, so the idealization claim is trivial. The value claim: the kernel program's
  result array is the network with the normalisation split between the node features (scaled before the gather) and
  the aggregated sums (scaled after the scatter-add); the reference's is the network with the product of the two
  factors on every edge; the two agree because the factor of the destination node is the same on every message added
  at that node and is a nonnegative real, so it moves across the sum. No input need be finite for this.
-/
import proofs.«162709_j51788715655810_2_alg».proof.Defs
import proofs.«162709_j51788715655810_2_alg».proof.Proof.Gen.Kernel
import proofs.«162709_j51788715655810_2_alg».proof.Proof.Gen.Kernel.Frame
import proofs.«162709_j51788715655810_2_alg».proof.Proof.Gen.KernelIdeal
import proofs.«162709_j51788715655810_2_alg».proof.Proof.Gen.KernelIdeal.Frame
import proofs.«162709_j51788715655810_2_alg».proof.Proof.Gen.ReferenceIdeal
import proofs.«162709_j51788715655810_2_alg».proof.Proof.Gen.Pre_finite_inputs
import proofs.«162709_j51788715655810_2_alg».proof.Proof.KernelRun
import proofs.«162709_j51788715655810_2_alg».proof.Proof.KernelNet
import proofs.«162709_j51788715655810_2_alg».proof.Proof.RefNet
import Idealize.ShloMosaic.Adequacy
import Idealize.ShloMosaic.Init

set_option maxRecDepth 16384

noncomputable section

namespace Cert.Proof

open Idealize.ShloMosaic Idealize.ShloMosaic.ValueIdx Idealize.SL.Sem Cert.GraphConv

theorem frame_kernel : Cert.frame_Kernel := fun m ρ _ => Cert.Kernel.Gen.frame m ρ

theorem frame_kernel_ideal : Cert.frame_KernelIdeal := fun m ρ _ => Cert.KernelIdeal.Gen.frame m ρ

theorem frame_reference : Cert.frame_ReferenceIdeal := fun m ρ _ =>
  (θ_run Cert.ReferenceIdeal.defs _ _).mono (fun _ h c => (h c).2) (Cert.ReferenceIdeal.ValueP.run (F := Ideal) m ρ)

theorem preserves : Cert.preserves_Kernel_KernelIdeal := trivial

/-- The common value: the network in the node-side arrangement, of the kernel program's arguments. -/
def net (m : (ℓ : Loc Cert.KernelIdeal.nD Cert.KernelIdeal.τ Cert.KernelIdeal.sig) → Buf (Elt Ideal) ℓ)
    (c : Dev Cert.KernelIdeal.nD) : Cert.KernelIdeal.S100000x16.Idx → EReal := fun j =>
  netSplit nodes_pos Cert.KernelIdeal.Net.wfRowsK (srcCol (Cert.KernelIdeal.Entry.edges m c)) (dstCol (Cert.KernelIdeal.Entry.edges m c))
    (nodeFactor (Cert.KernelIdeal.Entry.edges m c)) (Cert.KernelIdeal.Net.xOf m c) (Cert.KernelIdeal.Net.w1Of m c)
    (Cert.KernelIdeal.Net.b1Of m c) (Cert.KernelIdeal.Net.w2Of m c) (Cert.KernelIdeal.Net.b2Of m c) (j 0) (j 1)

theorem algebraic : Cert.algebraic_KernelIdeal_ReferenceIdeal := by
  intro m ρ m' ρ' _ hagree
  refine ⟨fun c => net m c, ?_, ?_⟩
  · refine (θ_run Cert.KernelIdeal.defs _ _).mono (fun r h c => ⟨(h c).1.trans ?_, (h c).2⟩)
      (Cert.KernelIdeal.RunValue.run_last (F := Ideal) m ρ)
    funext j
    obtain ⟨p, q, rfl⟩ : ∃ (p : Fin 100000) (q : Fin 16), j = ix2 p q := ⟨j 0, j 1, eq_ix2 j⟩
    exact Cert.KernelIdeal.Net.result_apply m ρ c p q
  · refine (θ_run Cert.ReferenceIdeal.defs _ _).mono (fun r h c => ⟨(h c).1.trans ?_, (h c).2⟩)
      (Cert.ReferenceIdeal.ValueP.run (F := Ideal) m' ρ')
    rw [Cert.ReferenceIdeal.ReadP.val_main_v91_eq, (hagree c).1, (hagree c).2.1, (hagree c).2.2.1, (hagree c).2.2.2.1,
      (hagree c).2.2.2.2.1, (hagree c).2.2.2.2.2]
    funext j
    obtain ⟨p, q, rfl⟩ : ∃ (p : Fin 100000) (q : Fin 16), j = ix2 p q := ⟨j 0, j 1, eq_ix2 j⟩
    rw [Cert.GraphConv.RefSide.ref_net]
    have law := netSplit_eq_netEdge nodes_pos Cert.KernelIdeal.Net.wfRowsK (srcCol (Cert.KernelIdeal.Entry.edges m c))
      (dstCol (Cert.KernelIdeal.Entry.edges m c)) (dstWrapCol (Cert.KernelIdeal.Entry.edges m c))
      (nodeFactor (Cert.KernelIdeal.Entry.edges m c)) (Cert.KernelIdeal.Net.xOf m c) (Cert.KernelIdeal.Net.w1Of m c)
      (Cert.KernelIdeal.Net.b1Of m c) (Cert.KernelIdeal.Net.w2Of m c) (Cert.KernelIdeal.Net.b2Of m c)
      (Cert.GraphConv.RefSide.nodeFactor_nonneg_ne_top _) (Cert.GraphConv.RefSide.dst_wrap _)
    exact (congrFun (congrFun law p) q).symm

theorem claim : Cert.Claim := ⟨Cert.Kernel.Gen.facts, Cert.KernelIdeal.Gen.facts, Cert.ReferenceIdeal.Gen.facts, Cert.Pre_finite_inputs.Gen.facts,
  frame_kernel, frame_kernel_ideal, frame_reference, preserves, algebraic⟩

end Cert.Proof

end
